-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x4 : Shape := ⟨2, ![64, 4]⟩
abbrev S4 : Shape := ⟨1, ![4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x1 : Shape := ⟨2, ![1, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S2x1 .f32) (main_arg10 : FVec F S1 .f32) (main_arg11 : FVec F S1x1 .f32) (main_arg12 : FVec F S1 .f32) (main_v33 : IVec S_ 1) : IVec S_ 1 :=
  let main_v34 : FVec F S2x1 .f32 := Host.absf main_arg9
  let main_cst_12 : FVec F S_ .f32 := constant S_ .f32 0x7F800000#32
  let main_v35 : FVec F S2x1 .f32 := broadcastInDim S2x1 ![] bcast_S_S2x1 main_cst_12
  let main_v36 : IVec S2x1 1 := cmpf .olt main_v34 main_v35
  let main_c_13 : IVec S_ 1 := constantI S_ 1 1#1
  let main_v37 : IVec S_ 1 := (fun x v => Host.reduce IntOp.andi x v reducesTo_S2x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1x1 .f32 := Host.absf main_arg11
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S4 .f32) (main_arg7 : FVec F S4x2 .f32) (main_arg8 : FVec F S2 .f32) (main_arg9 : FVec F S2x1 .f32) (main_arg10 : FVec F S1 .f32) (main_arg11 : FVec F S1x1 .f32) (main_arg12 : FVec F S1 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg7
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x4 .f32) (main_arg6 : FVec F S4 .f32) (main_arg7 : FVec F S4x2 .f32) (main_arg8 : FVec F S2 .f32) (main_arg9 : FVec F S2x1 .f32) (main_arg10 : FVec F S1 .f32) (main_arg11 : FVec F S1x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4 .f32 := Host.absf main_arg5
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x4 : Shape := ⟨2, ![64, 4]⟩
abbrev S4 : Shape := ⟨1, ![4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x1 : Shape := ⟨2, ![1, 1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S3300000x64 : Shape := ⟨2, ![3300000, 64]⟩
abbrev S1x64 : Shape := ⟨2, ![1, 64]⟩
abbrev S100000x4 : Shape := ⟨2, ![100000, 4]⟩
abbrev S3300000x4 : Shape := ⟨2, ![3300000, 4]⟩
abbrev S1x4 : Shape := ⟨2, ![1, 4]⟩
abbrev S100000x2 : Shape := ⟨2, ![100000, 2]⟩
abbrev S3300000x2 : Shape := ⟨2, ![3300000, 2]⟩
abbrev S1x2 : Shape := ⟨2, ![1, 2]⟩
abbrev S512x1 : Shape := ⟨2, ![512, 1]⟩
abbrev S512 : Shape := ⟨1, ![512]⟩
abbrev S10000x128 : Shape := ⟨2, ![10000, 128]⟩
abbrev S10000x1 : Shape := ⟨2, ![10000, 1]⟩
abbrev S10000x64 : Shape := ⟨2, ![10000, 64]⟩

abbrev nBuf : Space → Nat
  | .hbm => 167
  | .vmem => 7
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x4, .f32⟩
  | 6 => ⟨S4, .f32⟩
  | 7 => ⟨S4x2, .f32⟩
  | 8 => ⟨S2, .f32⟩
  | 9 => ⟨S2x1, .f32⟩
  | 10 => ⟨S1, .f32⟩
  | 11 => ⟨S1x1, .f32⟩
  | 12 => ⟨S1, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S100000, .f32⟩
  | 27 => ⟨S100000x1, .f32⟩
  | 28 => ⟨S100000x64, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000x64, .f32⟩
  | 38 => ⟨S_, .f32⟩
  | 39 => ⟨S100000x64, .f32⟩
  | 40 => ⟨S3300000x1, .i32⟩
  | 41 => ⟨S100000x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S_, .f32⟩
  | 49 => ⟨S100000x64, .f32⟩
  | 50 => ⟨S100000x64, .i1⟩
  | 51 => ⟨S_, .f32⟩
  | 52 => ⟨S100000x64, .f32⟩
  | 53 => ⟨S100000x64, .f32⟩
  | 54 => ⟨S100000x64, .f32⟩
  | 55 => ⟨S100000x4, .f32⟩
  | 56 => ⟨S100000x4, .f32⟩
  | 57 => ⟨S100000x4, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x4, .f32⟩
  | 67 => ⟨S_, .f32⟩
  | 68 => ⟨S100000x4, .f32⟩
  | 69 => ⟨S3300000x1, .i32⟩
  | 70 => ⟨S100000x4, .f32⟩
  | 71 => ⟨S100000x4, .f32⟩
  | 72 => ⟨S100000x4, .f32⟩
  | 73 => ⟨S1x4, .f32⟩
  | 74 => ⟨S100000x4, .f32⟩
  | 75 => ⟨S100000x4, .f32⟩
  | 76 => ⟨S_, .f32⟩
  | 77 => ⟨S_, .f32⟩
  | 78 => ⟨S100000x4, .f32⟩
  | 79 => ⟨S100000x4, .i1⟩
  | 80 => ⟨S_, .f32⟩
  | 81 => ⟨S100000x4, .f32⟩
  | 82 => ⟨S100000x4, .f32⟩
  | 83 => ⟨S100000x4, .f32⟩
  | 84 => ⟨S100000x2, .f32⟩
  | 85 => ⟨S100000x2, .f32⟩
  | 86 => ⟨S100000x2, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000x2, .f32⟩
  | 96 => ⟨S_, .f32⟩
  | 97 => ⟨S100000x2, .f32⟩
  | 98 => ⟨S3300000x1, .i32⟩
  | 99 => ⟨S100000x2, .f32⟩
  | 100 => ⟨S100000x2, .f32⟩
  | 101 => ⟨S100000x2, .f32⟩
  | 102 => ⟨S1x2, .f32⟩
  | 103 => ⟨S100000x2, .f32⟩
  | 104 => ⟨S100000x2, .f32⟩
  | 105 => ⟨S_, .f32⟩
  | 106 => ⟨S_, .f32⟩
  | 107 => ⟨S100000x2, .f32⟩
  | 108 => ⟨S100000x2, .i1⟩
  | 109 => ⟨S_, .f32⟩
  | 110 => ⟨S100000x2, .f32⟩
  | 111 => ⟨S100000x2, .f32⟩
  | 112 => ⟨S100000x2, .f32⟩
  | 113 => ⟨S100000x1, .f32⟩
  | 114 => ⟨S100000x1, .f32⟩
  | 115 => ⟨S_, .i32⟩
  | 116 => ⟨S3300000, .i32⟩
  | 117 => ⟨S3300000, .i1⟩
  | 118 => ⟨S_, .i32⟩
  | 119 => ⟨S3300000, .i32⟩
  | 120 => ⟨S3300000, .i32⟩
  | 121 => ⟨S3300000, .i32⟩
  | 122 => ⟨S3300000x1, .i32⟩
  | 123 => ⟨S3300000x1, .f32⟩
  | 124 => ⟨S_, .f32⟩
  | 125 => ⟨S100000x1, .f32⟩
  | 126 => ⟨S3300000x1, .i32⟩
  | 127 => ⟨S100000x1, .f32⟩
  | _ => ⟨S100000x128, .f32⟩

abbrev hbmTy0_1 (i : Nat) : BufTy := match i % 128 with
  | 0 => ⟨S100000x1, .f32⟩
  | 1 => ⟨S1x1, .f32⟩
  | 2 => ⟨S100000x1, .f32⟩
  | 3 => ⟨S100000x1, .f32⟩
  | 4 => ⟨S_, .f32⟩
  | 5 => ⟨S_, .f32⟩
  | 6 => ⟨S100000x1, .f32⟩
  | 7 => ⟨S100000x1, .i1⟩
  | 8 => ⟨S_, .f32⟩
  | 9 => ⟨S100000x1, .f32⟩
  | 10 => ⟨S100000x1, .f32⟩
  | 11 => ⟨S100000x1, .f32⟩
  | 12 => ⟨S_, .f32⟩
  | 13 => ⟨S512x1, .f32⟩
  | 14 => ⟨S100000x1, .i32⟩
  | 15 => ⟨S512x1, .f32⟩
  | 16 => ⟨S_, .f32⟩
  | 17 => ⟨S100000, .f32⟩
  | 18 => ⟨S_, .f32⟩
  | 19 => ⟨S512, .f32⟩
  | 20 => ⟨S100000x1, .i32⟩
  | 21 => ⟨S512, .f32⟩
  | 22 => ⟨S_, .f32⟩
  | 23 => ⟨S512, .f32⟩
  | 24 => ⟨S512, .f32⟩
  | 25 => ⟨S512x1, .f32⟩
  | 26 => ⟨S512x1, .f32⟩
  | 27 => ⟨S512x1, .f32⟩
  | 28 => ⟨S1x1, .f32⟩
  | 29 => ⟨S512x1, .f32⟩
  | 30 => ⟨S512x1, .f32⟩
  | 31 => ⟨S512x1, .f32⟩
  | 32 => ⟨S512x1, .f32⟩
  | 33 => ⟨S_, .f32⟩
  | 34 => ⟨S512x1, .f32⟩
  | 35 => ⟨S512x1, .f32⟩
  | 36 => ⟨S_, .f32⟩
  | 37 => ⟨S512x1, .f32⟩
  | 38 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst : Ref sig .tc := ⟨.hbm, 20, rfl⟩
abbrev main_call0_v7 : Ref sig .tc := ⟨.hbm, 21, rfl⟩
abbrev main_call0_cst_0 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_c : Ref sig .tc := ⟨.hbm, 29, rfl⟩
abbrev main_call0_v14 : Ref sig .tc := ⟨.hbm, 30, rfl⟩
abbrev main_call0_v15 : Ref sig .tc := ⟨.hbm, 31, rfl⟩
abbrev main_call0_c_1 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_cst_2 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_cst_3 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_c_4 : Ref sig .tc := ⟨.hbm, 58, rfl⟩
abbrev main_call0_v33 : Ref sig .tc := ⟨.hbm, 59, rfl⟩
abbrev main_call0_v34 : Ref sig .tc := ⟨.hbm, 60, rfl⟩
abbrev main_call0_c_5 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_v38 : Ref sig .tc := ⟨.hbm, 65, rfl⟩
abbrev main_call0_v39 : Ref sig .tc := ⟨.hbm, 66, rfl⟩
abbrev main_call0_cst_6 : Ref sig .tc := ⟨.hbm, 67, rfl⟩
abbrev main_call0_v40 : Ref sig .tc := ⟨.hbm, 68, rfl⟩
abbrev main_call0_v41 : Ref sig .tc := ⟨.hbm, 69, rfl⟩
abbrev main_call0_v42 : Ref sig .tc := ⟨.hbm, 70, rfl⟩
abbrev main_call0_v43 : Ref sig .tc := ⟨.hbm, 71, rfl⟩
abbrev main_call0_v44 : Ref sig .tc := ⟨.hbm, 72, rfl⟩
abbrev main_call0_v45 : Ref sig .tc := ⟨.hbm, 73, rfl⟩
abbrev main_call0_v46 : Ref sig .tc := ⟨.hbm, 74, rfl⟩
abbrev main_call0_v47 : Ref sig .tc := ⟨.hbm, 75, rfl⟩
abbrev main_call0_cst_7 : Ref sig .tc := ⟨.hbm, 76, rfl⟩
abbrev main_call0_call1_cst : Ref sig .tc := ⟨.hbm, 77, rfl⟩
abbrev main_call0_call1_v0 : Ref sig .tc := ⟨.hbm, 78, rfl⟩
abbrev main_call0_call1_v1 : Ref sig .tc := ⟨.hbm, 79, rfl⟩
abbrev main_call0_call1_v2 : Ref sig .tc := ⟨.hbm, 80, rfl⟩
abbrev main_call0_call1_v3 : Ref sig .tc := ⟨.hbm, 81, rfl⟩
abbrev main_call0_call1_v4 : Ref sig .tc := ⟨.hbm, 82, rfl⟩
abbrev main_call0_v48 : Ref sig .tc := ⟨.hbm, 83, rfl⟩
abbrev main_call0_v49 : Ref sig .tc := ⟨.hbm, 84, rfl⟩
abbrev main_call0_v50 : Ref sig .tc := ⟨.hbm, 85, rfl⟩
abbrev main_call0_v51 : Ref sig .tc := ⟨.hbm, 86, rfl⟩
abbrev main_call0_c_8 : Ref sig .tc := ⟨.hbm, 87, rfl⟩
abbrev main_call0_v52 : Ref sig .tc := ⟨.hbm, 88, rfl⟩
abbrev main_call0_v53 : Ref sig .tc := ⟨.hbm, 89, rfl⟩
abbrev main_call0_c_9 : Ref sig .tc := ⟨.hbm, 90, rfl⟩
abbrev main_call0_v54 : Ref sig .tc := ⟨.hbm, 91, rfl⟩
abbrev main_call0_v55 : Ref sig .tc := ⟨.hbm, 92, rfl⟩
abbrev main_call0_v56 : Ref sig .tc := ⟨.hbm, 93, rfl⟩
abbrev main_call0_v57 : Ref sig .tc := ⟨.hbm, 94, rfl⟩
abbrev main_call0_v58 : Ref sig .tc := ⟨.hbm, 95, rfl⟩
abbrev main_call0_cst_10 : Ref sig .tc := ⟨.hbm, 96, rfl⟩
abbrev main_call0_v59 : Ref sig .tc := ⟨.hbm, 97, rfl⟩
abbrev main_call0_v60 : Ref sig .tc := ⟨.hbm, 98, rfl⟩
abbrev main_call0_v61 : Ref sig .tc := ⟨.hbm, 99, rfl⟩
abbrev main_call0_v62 : Ref sig .tc := ⟨.hbm, 100, rfl⟩
abbrev main_call0_v63 : Ref sig .tc := ⟨.hbm, 101, rfl⟩
abbrev main_call0_v64 : Ref sig .tc := ⟨.hbm, 102, rfl⟩
abbrev main_call0_v65 : Ref sig .tc := ⟨.hbm, 103, rfl⟩
abbrev main_call0_v66 : Ref sig .tc := ⟨.hbm, 104, rfl⟩
abbrev main_call0_cst_11 : Ref sig .tc := ⟨.hbm, 105, rfl⟩
abbrev main_call0_call2_cst : Ref sig .tc := ⟨.hbm, 106, rfl⟩
abbrev main_call0_call2_v0 : Ref sig .tc := ⟨.hbm, 107, rfl⟩
abbrev main_call0_call2_v1 : Ref sig .tc := ⟨.hbm, 108, rfl⟩
abbrev main_call0_call2_v2 : Ref sig .tc := ⟨.hbm, 109, rfl⟩
abbrev main_call0_call2_v3 : Ref sig .tc := ⟨.hbm, 110, rfl⟩
abbrev main_call0_call2_v4 : Ref sig .tc := ⟨.hbm, 111, rfl⟩
abbrev main_call0_v67 : Ref sig .tc := ⟨.hbm, 112, rfl⟩
abbrev main_call0_v68 : Ref sig .tc := ⟨.hbm, 113, rfl⟩
abbrev main_call0_v69 : Ref sig .tc := ⟨.hbm, 114, rfl⟩
abbrev main_call0_c_12 : Ref sig .tc := ⟨.hbm, 115, rfl⟩
abbrev main_call0_v70 : Ref sig .tc := ⟨.hbm, 116, rfl⟩
abbrev main_call0_v71 : Ref sig .tc := ⟨.hbm, 117, rfl⟩
abbrev main_call0_c_13 : Ref sig .tc := ⟨.hbm, 118, rfl⟩
abbrev main_call0_v72 : Ref sig .tc := ⟨.hbm, 119, rfl⟩
abbrev main_call0_v73 : Ref sig .tc := ⟨.hbm, 120, rfl⟩
abbrev main_call0_v74 : Ref sig .tc := ⟨.hbm, 121, rfl⟩
abbrev main_call0_v75 : Ref sig .tc := ⟨.hbm, 122, rfl⟩
abbrev main_call0_v76 : Ref sig .tc := ⟨.hbm, 123, rfl⟩
abbrev main_call0_cst_14 : Ref sig .tc := ⟨.hbm, 124, rfl⟩
abbrev main_call0_v77 : Ref sig .tc := ⟨.hbm, 125, rfl⟩
abbrev main_call0_v78 : Ref sig .tc := ⟨.hbm, 126, rfl⟩
abbrev main_call0_v79 : Ref sig .tc := ⟨.hbm, 127, rfl⟩
abbrev main_call0_v80 : Ref sig .tc := ⟨.hbm, 128, rfl⟩
abbrev main_call0_v81 : Ref sig .tc := ⟨.hbm, 129, rfl⟩
abbrev main_call0_v82 : Ref sig .tc := ⟨.hbm, 130, rfl⟩
abbrev main_call0_v83 : Ref sig .tc := ⟨.hbm, 131, rfl⟩
abbrev main_call0_cst_15 : Ref sig .tc := ⟨.hbm, 132, rfl⟩
abbrev main_call0_call3_cst : Ref sig .tc := ⟨.hbm, 133, rfl⟩
abbrev main_call0_call3_v0 : Ref sig .tc := ⟨.hbm, 134, rfl⟩
abbrev main_call0_call3_v1 : Ref sig .tc := ⟨.hbm, 135, rfl⟩
abbrev main_call0_call3_v2 : Ref sig .tc := ⟨.hbm, 136, rfl⟩
abbrev main_call0_call3_v3 : Ref sig .tc := ⟨.hbm, 137, rfl⟩
abbrev main_call0_call3_v4 : Ref sig .tc := ⟨.hbm, 138, rfl⟩
abbrev main_call0_v84 : Ref sig .tc := ⟨.hbm, 139, rfl⟩
abbrev main_call0_cst_16 : Ref sig .tc := ⟨.hbm, 140, rfl⟩
abbrev main_call0_v85 : Ref sig .tc := ⟨.hbm, 141, rfl⟩
abbrev main_call0_v86 : Ref sig .tc := ⟨.hbm, 142, rfl⟩
abbrev main_call0_v87 : Ref sig .tc := ⟨.hbm, 143, rfl⟩
abbrev main_call0_cst_17 : Ref sig .tc := ⟨.hbm, 144, rfl⟩
abbrev main_call0_v88 : Ref sig .tc := ⟨.hbm, 145, rfl⟩
abbrev main_call0_cst_18 : Ref sig .tc := ⟨.hbm, 146, rfl⟩
abbrev main_call0_v89 : Ref sig .tc := ⟨.hbm, 147, rfl⟩
abbrev main_call0_v90 : Ref sig .tc := ⟨.hbm, 148, rfl⟩
abbrev main_call0_v91 : Ref sig .tc := ⟨.hbm, 149, rfl⟩
abbrev main_call0_cst_19 : Ref sig .tc := ⟨.hbm, 150, rfl⟩
abbrev main_call0_v92 : Ref sig .tc := ⟨.hbm, 151, rfl⟩
abbrev main_call0_v93 : Ref sig .tc := ⟨.hbm, 152, rfl⟩
abbrev main_call0_v94 : Ref sig .tc := ⟨.hbm, 153, rfl⟩
abbrev main_call0_v95 : Ref sig .tc := ⟨.hbm, 154, rfl⟩
abbrev main_call0_v96 : Ref sig .tc := ⟨.hbm, 155, rfl⟩
abbrev main_call0_v97 : Ref sig .tc := ⟨.hbm, 156, rfl⟩
abbrev main_call0_v98 : Ref sig .tc := ⟨.hbm, 157, rfl⟩
abbrev main_call0_v99 : Ref sig .tc := ⟨.hbm, 158, rfl⟩
abbrev main_call0_v100 : Ref sig .tc := ⟨.hbm, 159, rfl⟩
abbrev main_call0_v101 : Ref sig .tc := ⟨.hbm, 160, rfl⟩
abbrev main_call0_cst_20 : Ref sig .tc := ⟨.hbm, 161, rfl⟩
abbrev main_call0_v102 : Ref sig .tc := ⟨.hbm, 162, rfl⟩
abbrev main_call0_v103 : Ref sig .tc := ⟨.hbm, 163, rfl⟩
abbrev main_call0_cst_21 : Ref sig .tc := ⟨.hbm, 164, rfl⟩
abbrev main_call0_v104 : Ref sig .tc := ⟨.hbm, 165, rfl⟩
abbrev main_v0 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x4_0_1 : S100000x1.BroadcastsInDim S100000x4 (![0, 1] : Fin 2 → Fin S100000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S100000x1_S100000x2_0_1 : S100000x1.BroadcastsInDim S100000x2 (![0, 1] : Fin 2 → Fin S100000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S512x1 : S_.BroadcastsInDim S512x1 (![] : Fin 0 → Fin S512x1.rank)
  bcast_S_S512 : S_.BroadcastsInDim S512 (![] : Fin 0 → Fin S512.rank)
  bcast_S512_S512x1_0 : S512.BroadcastsInDim S512x1 (![0] : Fin 1 → Fin S512x1.rank)
  bcast_S1x1_S512x1_0_1 : S1x1.BroadcastsInDim S512x1 (![0, 1] : Fin 2 → Fin S512x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  scatter_S100000_S3300000x1_S3300000_n_0_0_1_wf : ScatterDims.WF S100000 S3300000x1 S3300000 [] [0] [0] 1
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x4_S100000x4_1_0_0_1_n_n_wf : DotDims.WF S100000x64 S64x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x2_S100000x2_1_0_0_1_n_n_wf : DotDims.WF S100000x4 S4x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S100000x2_S2x1_S100000x1_1_0_0_1_n_n_wf : DotDims.WF S100000x2 S2x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  scatter_S512x1_S100000x1_S100000x1_1_0_0_1_wf : ScatterDims.WF S512x1 S100000x1 S100000x1 [1] [0] [0] 1
  scatter_S512_S100000x1_S100000_n_0_0_1_wf : ScatterDims.WF S512 S100000x1 S100000 [] [0] [0] 1
  dot_S512x1_S1x1_S512x1_1_0_0_1_n_n_wf : DotDims.WF S512x1 S1x1 S512x1 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S100000x2_S2x1_S100000x1_1_0_0_1_n_n : DotDims S100000x2 S2x1 S100000x1 where
  lhsContracting := [1]
  rhsContracting := [0]
  lhsNonContracting := [0]
  rhsNonContracting := [1]
  lhsBatch := []
  rhsBatch := []
  wf := dot_S100000x2_S2x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x1_S1x1_S512x1_1_0_0_1_n_n : DotDims S512x1 S1x1 S512x1 where
  lhsContracting := [1]
  rhsContracting := [0]
  lhsNonContracting := [0]
  rhsNonContracting := [1]
  lhsBatch := []
  rhsBatch := []
  wf := dot_S512x1_S1x1_S512x1_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x4 : Shape := ⟨2, ![64, 4]⟩
abbrev S4 : Shape := ⟨1, ![4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x1 : Shape := ⟨2, ![1, 1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x4 : Shape := ⟨2, ![100000, 4]⟩
abbrev S3300000x4 : Shape := ⟨2, ![3300000, 4]⟩
abbrev S1x4 : Shape := ⟨2, ![1, 4]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩
abbrev S512x1 : Shape := ⟨2, ![512, 1]⟩
abbrev S512 : Shape := ⟨1, ![512]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x4, .f32⟩
  | 6 => ⟨S4, .f32⟩
  | 7 => ⟨S4x2, .f32⟩
  | 8 => ⟨S2, .f32⟩
  | 9 => ⟨S2x1, .f32⟩
  | 10 => ⟨S1, .f32⟩
  | 11 => ⟨S1x1, .f32⟩
  | 12 => ⟨S1, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x64, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .i1⟩
  | 69 => ⟨S_, .f32⟩
  | 70 => ⟨S100000x64, .f32⟩
  | 71 => ⟨S100000x64, .f32⟩
  | 72 => ⟨S100000x64, .f32⟩
  | 73 => ⟨S100000x4, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x4, .f32⟩
  | 83 => ⟨S3300000x1, .f32⟩
  | 84 => ⟨S3300000x4, .f32⟩
  | 85 => ⟨S3300000x4, .f32⟩
  | 86 => ⟨S_, .f32⟩
  | 87 => ⟨S100000x4, .f32⟩
  | 88 => ⟨S3300000x1, .i32⟩
  | 89 => ⟨S100000x4, .f32⟩
  | 90 => ⟨S1x4, .f32⟩
  | 91 => ⟨S100000x4, .f32⟩
  | 92 => ⟨S100000x4, .f32⟩
  | 93 => ⟨S_, .f32⟩
  | 94 => ⟨S100000x4, .f32⟩
  | 95 => ⟨S100000x4, .i1⟩
  | 96 => ⟨S_, .f32⟩
  | 97 => ⟨S100000x4, .f32⟩
  | 98 => ⟨S100000x4, .f32⟩
  | 99 => ⟨S100000x4, .f32⟩
  | 100 => ⟨S100000x2, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x2, .f32⟩
  | 110 => ⟨S3300000x1, .f32⟩
  | 111 => ⟨S3300000x2, .f32⟩
  | 112 => ⟨S3300000x2, .f32⟩
  | 113 => ⟨S_, .f32⟩
  | 114 => ⟨S100000x2, .f32⟩
  | 115 => ⟨S3300000x1, .i32⟩
  | 116 => ⟨S100000x2, .f32⟩
  | 117 => ⟨S1x2, .f32⟩
  | 118 => ⟨S100000x2, .f32⟩
  | 119 => ⟨S100000x2, .f32⟩
  | 120 => ⟨S_, .f32⟩
  | 121 => ⟨S100000x2, .f32⟩
  | 122 => ⟨S100000x2, .i1⟩
  | 123 => ⟨S_, .f32⟩
  | 124 => ⟨S100000x2, .f32⟩
  | 125 => ⟨S100000x2, .f32⟩
  | 126 => ⟨S100000x2, .f32⟩
  | 127 => ⟨S100000x1, .f32⟩
  | _ => ⟨S100000x128, .f32⟩

abbrev hbmTy0_1 (i : Nat) : BufTy := match i % 128 with
  | 0 => ⟨S_, .i32⟩
  | 1 => ⟨S3300000, .i32⟩
  | 2 => ⟨S3300000, .i1⟩
  | 3 => ⟨S_, .i32⟩
  | 4 => ⟨S3300000, .i32⟩
  | 5 => ⟨S3300000, .i32⟩
  | 6 => ⟨S3300000, .i32⟩
  | 7 => ⟨S3300000x1, .i32⟩
  | 8 => ⟨S3300000x1, .f32⟩
  | 9 => ⟨S3300000x1, .f32⟩
  | 10 => ⟨S3300000x1, .f32⟩
  | 11 => ⟨S_, .f32⟩
  | 12 => ⟨S100000x1, .f32⟩
  | 13 => ⟨S3300000x1, .i32⟩
  | 14 => ⟨S100000x1, .f32⟩
  | 15 => ⟨S1x1, .f32⟩
  | 16 => ⟨S100000x1, .f32⟩
  | 17 => ⟨S100000x1, .f32⟩
  | 18 => ⟨S_, .f32⟩
  | 19 => ⟨S100000x1, .f32⟩
  | 20 => ⟨S100000x1, .i1⟩
  | 21 => ⟨S_, .f32⟩
  | 22 => ⟨S100000x1, .f32⟩
  | 23 => ⟨S100000x1, .f32⟩
  | 24 => ⟨S100000x1, .f32⟩
  | 25 => ⟨S_, .f32⟩
  | 26 => ⟨S512x1, .f32⟩
  | 27 => ⟨S100000x1, .i32⟩
  | 28 => ⟨S512x1, .f32⟩
  | 29 => ⟨S_, .f32⟩
  | 30 => ⟨S100000, .f32⟩
  | 31 => ⟨S_, .f32⟩
  | 32 => ⟨S512, .f32⟩
  | 33 => ⟨S100000x1, .i32⟩
  | 34 => ⟨S512, .f32⟩
  | 35 => ⟨S_, .f32⟩
  | 36 => ⟨S512, .f32⟩
  | 37 => ⟨S512, .f32⟩
  | 38 => ⟨S512x1, .f32⟩
  | 39 => ⟨S512x1, .f32⟩
  | 40 => ⟨S512x1, .f32⟩
  | 41 => ⟨S1x1, .f32⟩
  | 42 => ⟨S512x1, .f32⟩
  | 43 => ⟨S512x1, .f32⟩
  | 44 => ⟨S512x1, .f32⟩
  | 45 => ⟨S512x1, .f32⟩
  | 46 => ⟨S_, .f32⟩
  | 47 => ⟨S512x1, .f32⟩
  | 48 => ⟨S512x1, .f32⟩
  | 49 => ⟨S_, .f32⟩
  | 50 => ⟨S512x1, .f32⟩
  | 51 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_v62 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_12 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_v80 : Ref sig .tc := ⟨.hbm, 126, rfl⟩
abbrev main_v81 : Ref sig .tc := ⟨.hbm, 127, rfl⟩
abbrev main_c_13 : Ref sig .tc := ⟨.hbm, 128, rfl⟩
abbrev main_v82 : Ref sig .tc := ⟨.hbm, 129, rfl⟩
abbrev main_v83 : Ref sig .tc := ⟨.hbm, 130, rfl⟩
abbrev main_c_14 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_15 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_cst_0 : Ref sig .tc := ⟨.hbm, 149, rfl⟩
abbrev main_call3_v2 : Ref sig .tc := ⟨.hbm, 150, rfl⟩
abbrev main_call3_v3 : Ref sig .tc := ⟨.hbm, 151, rfl⟩
abbrev main_v97 : Ref sig .tc := ⟨.hbm, 152, rfl⟩
abbrev main_cst_16 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_17 : Ref sig .tc := ⟨.hbm, 157, rfl⟩
abbrev main_v101 : Ref sig .tc := ⟨.hbm, 158, rfl⟩
abbrev main_cst_18 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_19 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_20 : Ref sig .tc := ⟨.hbm, 174, rfl⟩
abbrev main_v115 : Ref sig .tc := ⟨.hbm, 175, rfl⟩
abbrev main_v116 : Ref sig .tc := ⟨.hbm, 176, rfl⟩
abbrev main_cst_21 : Ref sig .tc := ⟨.hbm, 177, rfl⟩
abbrev main_v117 : Ref sig .tc := ⟨.hbm, 178, rfl⟩
abbrev main_v118 : Ref sig .tc := ⟨.hbm, 179, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S512x1 : S_.BroadcastsInDim S512x1 (![] : Fin 0 → Fin S512x1.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S1x1_S512x1_0_1 : S1x1.BroadcastsInDim S512x1 (![0, 1] : Fin 2 → Fin S512x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x4_S100000x4_1_0_0_1_n_n_wf : DotDims.WF S100000x64 S64x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x2_S100000x2_1_0_0_1_n_n_wf : DotDims.WF S100000x4 S4x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S100000x2_S2x1_S100000x1_1_0_0_1_n_n_wf : DotDims.WF S100000x2 S2x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  scatter_S512x1_S100000x1_S100000x1_1_0_0_1_wf : ScatterDims.WF S512x1 S100000x1 S100000x1 [1] [0] [0] 1
  scatter_S512_S100000x1_S100000_n_0_0_1_wf : ScatterDims.WF S512 S100000x1 S100000 [] [0] [0] 1
  dot_S512x1_S1x1_S512x1_1_0_0_1_n_n_wf : DotDims.WF S512x1 S1x1 S512x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S100000x2_S2x1_S100000x1_1_0_0_1_n_n : DotDims S100000x2 S2x1 S100000x1 where
  lhsContracting := [1]
  rhsContracting := [0]
  lhsNonContracting := [0]
  rhsNonContracting := [1]
  lhsBatch := []
  rhsBatch := []
  wf := dot_S100000x2_S2x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x1_S1x1_S512x1_1_0_0_1_n_n : DotDims S512x1 S1x1 S512x1 where
  lhsContracting := [1]
  rhsContracting := [0]
  lhsNonContracting := [0]
  rhsNonContracting := [1]
  lhsBatch := []
  rhsBatch := []
  wf := dot_S512x1_S1x1_S512x1_1_0_0_1_n_n_wf

class Facts : Prop extends Facts₀ where

variable [Facts]
-- ==== Proof.LibSsa.lean ====
/-
  A line of host operations in single-assignment form, read one operation at a time.

  `after ops V` is what the buffers hold once the operations `ops` have run in order from the contents `V`. Suppose each
  operation writes one buffer, operation `k` the reference `W[k]` (`WritesIn ops W`). Then

    * a reference that is not among `W[k], W[k+1], …` is written by no operation from position `k` on, so after the whole
      line it holds what it held after the first `k` operations (`after_eq_take`);
    * the reference operation `k` writes, if no LATER operation writes it again, holds after the whole line that
      operation's result from the contents after the first `k` operations (`after_out`).

  Together: when every operand of operation `k` was written before `k` (or never) and nothing is written twice, the
  final contents `R := after ops V` satisfy the operation's own equation `R y = f (R a) (R b) …` — one small fact per
  operation, whose proof mentions two positions of the list and never the composed term of the whole line. The
  equations are stated for the builders a printed program uses.
-/
import Idealize.ShloMosaic.Lib.StableHlo.Run

noncomputable section

namespace Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation `k` of the line writes (at most) the reference `W[k]`, for every `k`. -/
def WritesIn (ops : List (HloOp τ sig Val)) (W : List (Ref sig .tc)) : Prop :=
  List.Forall₂ (fun op w => op.writes ⊆ ({Proc.devRef (τ := τ) .tc w} : Finset (DevRef τ sig))) ops W

theorem WritesIn.nil : WritesIn ([] : List (HloOp τ sig Val)) [] := List.Forall₂.nil

theorem WritesIn.cons {op : HloOp τ sig Val} {w : Ref sig .tc} {ops : List (HloOp τ sig Val)} {W : List (Ref sig .tc)}
    (h : op.writes ⊆ ({Proc.devRef (τ := τ) .tc w} : Finset (DevRef τ sig))) (t : WritesIn ops W) :
    WritesIn (op :: ops) (w :: W) := List.Forall₂.cons h t

/-- The same holds of the line and the list from position `k` on. -/
theorem WritesIn.drop {ops : List (HloOp τ sig Val)} {W : List (Ref sig .tc)} (h : WritesIn ops W) :
    ∀ k, WritesIn (ops.drop k) (W.drop k) := by
  induction h with
  | nil => intro k; simp only [List.drop_nil]; exact List.Forall₂.nil
  | cons hd tl ih =>
    intro k
    cases k with
    | zero => exact List.Forall₂.cons hd tl
    | succ k => exact ih k

/-- Two lines one after the other, each with its list. -/
theorem WritesIn.append {a b : List (HloOp τ sig Val)} {A B : List (Ref sig .tc)} (h1 : WritesIn a A) (h2 : WritesIn b B) :
    WritesIn (a ++ b) (A ++ B) := by
  induction h1 with
  | nil => exact h2
  | cons hd _ ih => exact List.Forall₂.cons hd ih

/-- In a list without repetition, the entry at position `j` does not occur from a later position `k` on. -/
theorem not_mem_drop_of_pos {W : List (Ref sig .tc)} (hnd : W.Nodup) {j k : Nat} {x : Ref sig .tc}
    (e : W[j]? = some x) (hjk : j < k) : x ∉ W.drop k := by
  intro hmem
  obtain ⟨i, hi, ei⟩ := List.getElem_of_mem hmem
  rw [List.getElem_drop] at ei
  have hj : j < W.length := by
    by_contra hcon
    rw [List.getElem?_eq_none (Nat.le_of_not_lt hcon)] at e
    cases e
  rw [List.getElem?_eq_getElem hj] at e
  have e' : W[j] = x := Option.some.inj e
  have hki : k + i < W.length := by
    have := hi; rw [List.length_drop] at this; omega
  have : k + i = j := (List.Nodup.getElem_inj_iff hnd).mp (ei.trans e'.symm)
  omega

/-- A reference that does not occur in the list does not occur from position `k` on. -/
theorem not_mem_drop_of_not_mem {W : List (Ref sig .tc)} {x : Ref sig .tc} (h : x ∉ W) (k : Nat) : x ∉ W.drop k :=
  fun hm => h (List.mem_of_mem_drop hm)

/-- Every operation of the line writes only references of the list. -/
theorem WritesIn.forall_sub {ops : List (HloOp τ sig Val)} {W : List (Ref sig .tc)} (h : WritesIn ops W) :
    ops.Forall fun op => op.writes ⊆ (W.map (Proc.devRef (τ := τ) .tc)).toFinset := by
  induction h with
  | nil => exact trivial
  | @cons op w ops W hd _ ih =>
    rw [List.forall_cons]
    refine ⟨fun b hb => ?_, ?_⟩
    · have := Finset.mem_singleton.mp (hd hb)
      rw [this, List.mem_toFinset, List.map_cons]
      exact List.mem_cons_self
    · refine (List.forall_iff_forall_mem.mpr fun o ho b hb => ?_)
      have := (List.forall_iff_forall_mem.mp ih) o ho hb
      rw [List.mem_toFinset, List.map_cons]
      exact List.mem_cons_of_mem _ (List.mem_toFinset.mp this)

/-- A reference written by no operation from position `k` on holds, after the line, what it held after the first `k`
    operations. -/
theorem after_eq_take {ops : List (HloOp τ sig Val)} {W : List (Ref sig .tc)} (hW : WritesIn ops W)
    (V : Valuation τ sig Val) (k : Nat) (x : Ref sig .tc) (hx : x ∉ W.drop k) :
    after ops V (Proc.devRef .tc x) = after (ops.take k) V (Proc.devRef .tc x) := by
  have e : after ops V = after (ops.drop k) (after (ops.take k) V) := by
    rw [← after_append, List.take_append_drop]
  rw [e]
  exact after_of_writes_sub (ops.drop k) _ (hW.drop k).forall_sub hx

/-- The reference operation `k` writes, not written again later, holds after the line that operation's result from the
    contents after the first `k` operations. -/
theorem after_out {ops : List (HloOp τ sig Val)} {W : List (Ref sig .tc)} (hW : WritesIn ops W)
    (V : Valuation τ sig Val) (k : Nat) (hk : k < ops.length) (y : Ref sig .tc) (hy : y ∉ W.drop (k + 1)) :
    after ops V (Proc.devRef .tc y) = (ops[k]).result (after (ops.take k) V) (Proc.devRef .tc y) := by
  have e : after ops V = after (ops.drop (k + 1)) ((ops[k]).result (after (ops.take k) V)) := by
    conv_lhs => rw [← List.take_append_drop k ops, after_append, List.drop_eq_getElem_cons hk, after_cons]
  rw [e]
  exact after_of_writes_sub (ops.drop (k + 1)) _ (hW.drop (k + 1)).forall_sub hy

/-! ## The builders' equations -/

section Equations

variable {ops : List (HloOp τ sig Val)} {W : List (Ref sig .tc)}

/-- `%y = ‹constant›` at position `k`. -/
theorem eq_nullary (hW : WritesIn ops W) (V : Valuation τ sig Val) (k : Nat) (hk : k < ops.length) {y : Ref sig .tc} (v : y.ty.Contents Val) (hy)
    (hop : ops[k] = nullary y v hy) (hyW : y ∉ W.drop (k + 1)) :
    after ops V (Proc.devRef .tc y) = v := by
  rw [after_out hW V k hk y hyW, hop, nullary_result]

/-- `%y = ‹op› %x` at position `k`. -/
theorem eq_unary (hW : WritesIn ops W) (V : Valuation τ sig Val) (k : Nat) (hk : k < ops.length) {x y : Ref sig .tc} (f : x.ty.Contents Val → y.ty.Contents Val) (hx hy)
    (hop : ops[k] = unary x y f hx hy) (hxW : x ∉ W.drop k) (hyW : y ∉ W.drop (k + 1)) :
    after ops V (Proc.devRef .tc y) = f (after ops V (Proc.devRef .tc x)) := by
  rw [after_out hW V k hk y hyW, hop, unary_result, ← after_eq_take hW V k x hxW]

/-- `%y = ‹op› %a, %b` at position `k`. -/
theorem eq_binary (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1)) :
    after ops V (Proc.devRef .tc y) = f (after ops V (Proc.devRef .tc a)) (after ops V (Proc.devRef .tc b)) := by
  rw [after_out hW V k hk y hyW, hop, binary_result, ← after_eq_take hW V k a haW, ← after_eq_take hW V k b hbW]

/-- `%y = ‹op› %c, %a, %b` at position `k`. -/
theorem eq_ternary (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) :
    after ops V (Proc.devRef .tc y)
      = f (after ops V (Proc.devRef .tc c)) (after ops V (Proc.devRef .tc a)) (after ops V (Proc.devRef .tc b)) := by
  rw [after_out hW V k hk y hyW, hop, ternary_result, ← after_eq_take hW V k c hcW, ← after_eq_take hW V k a haW,
    ← after_eq_take hW V k b hbW]

/-! The same with the operands' values already known: the form a stage-by-stage reading uses. -/

theorem eq_unary' (hW : WritesIn ops W) (V : Valuation τ sig Val) (k : Nat) (hk : k < ops.length) {x y : Ref sig .tc}
    (f : x.ty.Contents Val → y.ty.Contents Val) (hx hy) (hop : ops[k] = unary x y f hx hy)
    (hxW : x ∉ W.drop k) (hyW : y ∉ W.drop (k + 1)) {vx : x.ty.Contents Val}
    (ex : after ops V (Proc.devRef .tc x) = vx) :
    after ops V (Proc.devRef .tc y) = f vx := by
  rw [eq_unary hW V k hk f hx hy hop hxW hyW, ex]

theorem eq_binary' (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1))
    {va : a.ty.Contents Val} {vb : b.ty.Contents Val}
    (ea : after ops V (Proc.devRef .tc a) = va) (eb : after ops V (Proc.devRef .tc b) = vb) :
    after ops V (Proc.devRef .tc y) = f va vb := by
  rw [eq_binary hW V k hk f ha hb hy hop haW hbW hyW, ea, eb]

theorem eq_ternary' (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [eq_ternary hW V k hk f hc ha hb hy hop hcW haW hbW hyW, ec, ea, eb]

/-- A reference no operation of the line writes keeps its launch contents. -/
theorem after_kept (hW : WritesIn ops W) (V : Valuation τ sig Val) (x : Ref sig .tc) (hx : x ∉ W) :
    after ops V (Proc.devRef .tc x) = V (Proc.devRef .tc x) :=
  after_of_writes_sub ops V hW.forall_sub hx

end Equations

end Idealize.ShloMosaic.StableHlo

end
-- ==== Proof.FrameK.lean ====
/-
  The frame of the program around its one kernel region: the host operations before it, the region — a grid of ten
  points, each loading a 10000×128 block of rows, the 128×64 weight, a 10000×1 column of scales, and storing the
  10000×64 block of scaled products —, and the host operations after it. The program runs to the end, faults nowhere,
  leaves its thirteen argument arrays as launched, and its result is what the later operations compute from the
  region's output array.
-/
import proofs.«144057_j23888608100399_2_alg».proof.Proof.Gen.Kernel.Launch
import proofs.«144057_j23888608100399_2_alg».proof.Proof.Gen.Kernel.Skeleton
import proofs.«144057_j23888608100399_2_alg».proof.Proof.Gen.Kernel.Points
import proofs.«144057_j23888608100399_2_alg».proof.Proof.LibSsa
import Idealize.ShloMosaic.Lib.Pipeline.FrameBody
import Idealize.ShloMosaic.Lib.Pipeline.FrameSuffix
import Idealize.ShloMosaic.Lib.Ring
import Idealize.ShloMosaic.Lib.Tactic

-- membership in a rectangle of 10000 rows, and membership in a list of 138 references, recurse once per entry
set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core `c`'s buffer contents when the region is entered: the launch contents after the fifteen operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The reference each operation before the region writes, in order. -/
abbrev W0 : List (Ref sig .tc) := [
    main_call0_v0, main_call0_v1, main_call0_v2, main_call0_v3, main_call0_v4, main_call0_v5,
    main_call0_v6, main_call0_cst, main_call0_v7, main_call0_cst_0, main_call0_v8, main_call0_v9,
    main_call0_v10, main_call0_v11, main_call0_v12 ]

/-- The reference each operation after the region writes, in order. -/
abbrev W1 : List (Ref sig .tc) := [
    main_call0_c, main_call0_v14, main_call0_v15, main_call0_c_1, main_call0_v16, main_call0_v17,
    main_call0_v18, main_call0_v19, main_call0_v20, main_call0_cst_2, main_call0_v21, main_call0_v22,
    main_call0_v23, main_call0_v24, main_call0_v25, main_call0_v26, main_call0_v27, main_call0_v28,
    main_call0_cst_3, main_call0_call0_cst, main_call0_call0_v0, main_call0_call0_v1, main_call0_call0_v2, main_call0_call0_v3,
    main_call0_call0_v4, main_call0_v29, main_call0_v30, main_call0_v31, main_call0_v32, main_call0_c_4,
    main_call0_v33, main_call0_v34, main_call0_c_5, main_call0_v35, main_call0_v36, main_call0_v37,
    main_call0_v38, main_call0_v39, main_call0_cst_6, main_call0_v40, main_call0_v41, main_call0_v42,
    main_call0_v43, main_call0_v44, main_call0_v45, main_call0_v46, main_call0_v47, main_call0_cst_7,
    main_call0_call1_cst, main_call0_call1_v0, main_call0_call1_v1, main_call0_call1_v2, main_call0_call1_v3, main_call0_call1_v4,
    main_call0_v48, main_call0_v49, main_call0_v50, main_call0_v51, main_call0_c_8, main_call0_v52,
    main_call0_v53, main_call0_c_9, main_call0_v54, main_call0_v55, main_call0_v56, main_call0_v57,
    main_call0_v58, main_call0_cst_10, main_call0_v59, main_call0_v60, main_call0_v61, main_call0_v62,
    main_call0_v63, main_call0_v64, main_call0_v65, main_call0_v66, main_call0_cst_11, main_call0_call2_cst,
    main_call0_call2_v0, main_call0_call2_v1, main_call0_call2_v2, main_call0_call2_v3, main_call0_call2_v4, main_call0_v67,
    main_call0_v68, main_call0_v69, main_call0_c_12, main_call0_v70, main_call0_v71, main_call0_c_13,
    main_call0_v72, main_call0_v73, main_call0_v74, main_call0_v75, main_call0_v76, main_call0_cst_14,
    main_call0_v77, main_call0_v78, main_call0_v79, main_call0_v80, main_call0_v81, main_call0_v82,
    main_call0_v83, main_call0_cst_15, main_call0_call3_cst, main_call0_call3_v0, main_call0_call3_v1, main_call0_call3_v2,
    main_call0_call3_v3, main_call0_call3_v4, main_call0_v84, main_call0_cst_16, main_call0_v85, main_call0_v86,
    main_call0_v87, main_call0_cst_17, main_call0_v88, main_call0_cst_18, main_call0_v89, main_call0_v90,
    main_call0_v91, main_call0_cst_19, main_call0_v92, main_call0_v93, main_call0_v94, main_call0_v95,
    main_call0_v96, main_call0_v97, main_call0_v98, main_call0_v99, main_call0_v100, main_call0_v101,
    main_call0_cst_20, main_call0_v102, main_call0_v103, main_call0_cst_21, main_call0_v104, main_v0 ]

/-- Each operation before the region writes its own result reference only. -/
theorem hostOps0_writes : StableHlo.WritesIn (hostOps0 : List (HloOp τ sig (Elt F))) W0 := by
  repeat' first | exact StableHlo.WritesIn.nil | refine StableHlo.WritesIn.cons (Finset.Subset.refl _) ?_

set_option maxHeartbeats 40000000 in
/-- Each operation after the region writes its own result reference only. -/
theorem hostOps1_writes : StableHlo.WritesIn (hostOps1 : List (HloOp τ sig (Elt F))) W1 := by
  repeat' first | exact StableHlo.WritesIn.nil | refine StableHlo.WritesIn.cons (Finset.Subset.refl _) ?_

theorem flatten_one {α : Type} (l : List α) : [l].flatten = l := by
  simp only [List.flatten_cons, List.flatten_nil, List.append_nil]

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

set_option maxRecDepth 200000 in
/-- The program is the operations before the region, the region, and the operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's four arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of the region's four arrays is the result of an operation after the region. -/
theorem arr_not_W1 : ∀ w : Fin 4, Pipeline.arrRef spec0 w ∉ W1 := by decide

/-- So those operations write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp
    ((List.forall_iff_forall_mem.mp (hostOps1_writes (F := F)).forall_sub) op hop hw))
  exact arr_not_W1 w (Proc.devRef_injective _ he ▸ hy)

/-- A reference no operation before the region writes is found by the region as launched. -/
theorem head_kept (c : Dev nD) (b : Ref sig .tc) (hb : b ∉ W0) : V m c b = m ((c : Thread nD τ).loc b) := by
  show StableHlo.after (List.flatten [hostOps0]) (fun b => m (c, b)) (Proc.devRef .tc b) = _
  rw [flatten_one]
  exact StableHlo.after_kept hostOps0_writes _ b hb

/-- A reference that is no array of the region and that no operation after the region writes ends at what it held
    when the region was entered. -/
theorem tail_kept (dats : (p : Fin 1) → (c : Dev nD) → Dat τ (Elt F) Unit ℕ (UR sig nD τ) ℕ (cfgs p) c) (c : Dev nD)
    (b : Ref sig .tc) (hb : b ∉ W1) (ha : ∀ w, Pipeline.arrRef spec0 w ≠ b) :
    Pipeline.afterTail₀ cfgs dats 0 (V0 m) [hostOps1] c b = V m c b := by
  unfold Pipeline.afterTail₀
  rw [flatten_one, StableHlo.after_kept hostOps1_writes _ b hb,
    Pipeline.withArrays_of_ne _ c (V0 m c) _ b (by exact ha)]

theorem V_main_arg0 (c : Dev nD) : V m c main_arg0 = m ((c : Thread nD τ).loc main_arg0) :=
  head_kept m c main_arg0 (by decide)
theorem V_main_arg1 (c : Dev nD) : V m c main_arg1 = m ((c : Thread nD τ).loc main_arg1) :=
  head_kept m c main_arg1 (by decide)
theorem V_main_arg2 (c : Dev nD) : V m c main_arg2 = m ((c : Thread nD τ).loc main_arg2) :=
  head_kept m c main_arg2 (by decide)
theorem V_main_arg3 (c : Dev nD) : V m c main_arg3 = m ((c : Thread nD τ).loc main_arg3) :=
  head_kept m c main_arg3 (by decide)
theorem V_main_arg4 (c : Dev nD) : V m c main_arg4 = m ((c : Thread nD τ).loc main_arg4) :=
  head_kept m c main_arg4 (by decide)
theorem V_main_arg5 (c : Dev nD) : V m c main_arg5 = m ((c : Thread nD τ).loc main_arg5) :=
  head_kept m c main_arg5 (by decide)
theorem V_main_arg6 (c : Dev nD) : V m c main_arg6 = m ((c : Thread nD τ).loc main_arg6) :=
  head_kept m c main_arg6 (by decide)
theorem V_main_arg7 (c : Dev nD) : V m c main_arg7 = m ((c : Thread nD τ).loc main_arg7) :=
  head_kept m c main_arg7 (by decide)
theorem V_main_arg8 (c : Dev nD) : V m c main_arg8 = m ((c : Thread nD τ).loc main_arg8) :=
  head_kept m c main_arg8 (by decide)
theorem V_main_arg9 (c : Dev nD) : V m c main_arg9 = m ((c : Thread nD τ).loc main_arg9) :=
  head_kept m c main_arg9 (by decide)
theorem V_main_arg10 (c : Dev nD) : V m c main_arg10 = m ((c : Thread nD τ).loc main_arg10) :=
  head_kept m c main_arg10 (by decide)
theorem V_main_arg11 (c : Dev nD) : V m c main_arg11 = m ((c : Thread nD τ).loc main_arg11) :=
  head_kept m c main_arg11 (by decide)
theorem V_main_arg12 (c : Dev nD) : V m c main_arg12 = m ((c : Thread nD τ).loc main_arg12) :=
  head_kept m c main_arg12 (by decide)

theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_kept m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_kept m dats c main_arg2 (by decide) (by decide)).trans (V_main_arg2 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_kept m dats c main_arg4 (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_kept m dats c main_arg5 (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_kept m dats c main_arg6 (by decide) (by decide)).trans (V_main_arg6 m c)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_kept m dats c main_arg7 (by decide) (by decide)).trans (V_main_arg7 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_kept m dats c main_arg8 (by decide) (by decide)).trans (V_main_arg8 m c)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_kept m dats c main_arg9 (by decide) (by decide)).trans (V_main_arg9 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_kept m dats c main_arg10 (by decide) (by decide)).trans (V_main_arg10 m c)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_kept m dats c main_arg11 (by decide) (by decide)).trans (V_main_arg11 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_kept m dats c main_arg12 (by decide) (by decide)).trans (V_main_arg12 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claims' posts from the frame run's -/

/-- From a run to the library's frame post — the two argument arrays the region stages (windows 0 and 1) at their
    region-entry contents, every other argument as the later operations leave it — the thirteen arguments end as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c)⟩) h

/-- The same with the result: it ends at what the later operations compute. -/
theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v0) = Pipeline.afterTail₀ cfgs dats 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).2 main_v0 (Pipeline.mem_restRefs_of main_v0 (by decide) (by decide)),
      ((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c)⟩) h

/-! ## The body's accesses -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x1 := Rect.unit (s := S10000x1) ![0, 0] S10000x1.size inb_S10000x1_S10000x1_0_0
abbrev r0_3 : Rect S10000x64 := Rect.unit (s := S10000x64) ![0, 0] S10000x64.size inb_S10000x64_S10000x64_0_0

/-! ## What the body leaves in the output window's buffer -/

/-- Window 3's staging buffer after the body, from the three input blocks: its one store, of the whole block — the
    product of the rows block with the weight, each row scaled by its entry of the column. -/
def out0_3 (x0 : Vec F S10000x128 .f32) (x1 : Vec F S128x64 .f32) (x2 : Vec F S10000x1 .f32) : Vec F S10000x64 .f32 :=
  View.canon [⟨r0_3, k0_pay1 (View.ld x0 r0_0) (View.ld x1 r0_1) (View.ld x2 r0_2)⟩]

/-- The one store's rectangle is the whole buffer, so it covers it. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 4000000 in
/-- The kernel body on whole staging memrefs, the three inputs' at read contents `x0`, `x1`, `x2` and the output's at
    anything, runs to the continuation holding the inputs' as they were and the output's at `out0_3` of the inputs':
    three loads, a load of the output buffer whose value is not used, and one store of the whole block. -/
theorem sound_kernel (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S10000x1 .f32) (harg3 : arg3.IsWhole) (arg4 : Memref sig .tc .vmem S10000x64 .f32) (harg4 : arg4.IsWhole)
    (x0 : Vec F S10000x128 .f32) (x1 : Vec F S128x64 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prescale_linear_kernel i arg1 harg1 arg2 harg2 arg3 harg3 arg4 harg4) K := by
  simp only [cc0__prescale_linear_kernel_eq_skeleton]; unfold cc0__prescale_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the three input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's owed counters pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run, the frame and the result -/

-- the library theorem's implicit arguments are found by unifying its conclusion with this one, which takes unfolding
-- plain definitions in a metavariable's type
set_option maxRecDepth 200000 in
set_option backward.isDefEq.respectTransparency.types false in
/-- For any values, from any memory with zero counters: every weakly fair execution of the program on the TensorCores
    terminates, and every final state has every array of the region at what the library computes from the proof data
    and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and its thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- And its result ends at what the operations after the region compute from the region's exit contents. -/
theorem run_value : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  value_of m ρ (dats m) (A_eq m) (run_main m ρ)

end Cert.Kernel.HF

end
-- ==== Proof.FrameKI.lean ====
/-
  The frame of the program around its one kernel region: the host operations before it, the region — a grid of ten
  points, each loading a 10000×128 block of rows, the 128×64 weight, a 10000×1 column of scales, and storing the
  10000×64 block of scaled products —, and the host operations after it. The program runs to the end, faults nowhere,
  leaves its thirteen argument arrays as launched, and its result is what the later operations compute from the
  region's output array.
-/
import proofs.«144057_j23888608100399_2_alg».proof.Proof.Gen.KernelIdeal.Launch
import proofs.«144057_j23888608100399_2_alg».proof.Proof.Gen.KernelIdeal.Skeleton
import proofs.«144057_j23888608100399_2_alg».proof.Proof.Gen.KernelIdeal.Points
import proofs.«144057_j23888608100399_2_alg».proof.Proof.LibSsa
import Idealize.ShloMosaic.Lib.Pipeline.FrameBody
import Idealize.ShloMosaic.Lib.Pipeline.FrameSuffix
import Idealize.ShloMosaic.Lib.Ring
import Idealize.ShloMosaic.Lib.Tactic

-- membership in a rectangle of 10000 rows, and membership in a list of 138 references, recurse once per entry
set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core `c`'s buffer contents when the region is entered: the launch contents after the fifteen operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The reference each operation before the region writes, in order. -/
abbrev W0 : List (Ref sig .tc) := [
    main_call0_v0, main_call0_v1, main_call0_v2, main_call0_v3, main_call0_v4, main_call0_v5,
    main_call0_v6, main_call0_cst, main_call0_v7, main_call0_cst_0, main_call0_v8, main_call0_v9,
    main_call0_v10, main_call0_v11, main_call0_v12 ]

/-- The reference each operation after the region writes, in order. -/
abbrev W1 : List (Ref sig .tc) := [
    main_call0_c, main_call0_v14, main_call0_v15, main_call0_c_1, main_call0_v16, main_call0_v17,
    main_call0_v18, main_call0_v19, main_call0_v20, main_call0_cst_2, main_call0_v21, main_call0_v22,
    main_call0_v23, main_call0_v24, main_call0_v25, main_call0_v26, main_call0_v27, main_call0_v28,
    main_call0_cst_3, main_call0_call0_cst, main_call0_call0_v0, main_call0_call0_v1, main_call0_call0_v2, main_call0_call0_v3,
    main_call0_call0_v4, main_call0_v29, main_call0_v30, main_call0_v31, main_call0_v32, main_call0_c_4,
    main_call0_v33, main_call0_v34, main_call0_c_5, main_call0_v35, main_call0_v36, main_call0_v37,
    main_call0_v38, main_call0_v39, main_call0_cst_6, main_call0_v40, main_call0_v41, main_call0_v42,
    main_call0_v43, main_call0_v44, main_call0_v45, main_call0_v46, main_call0_v47, main_call0_cst_7,
    main_call0_call1_cst, main_call0_call1_v0, main_call0_call1_v1, main_call0_call1_v2, main_call0_call1_v3, main_call0_call1_v4,
    main_call0_v48, main_call0_v49, main_call0_v50, main_call0_v51, main_call0_c_8, main_call0_v52,
    main_call0_v53, main_call0_c_9, main_call0_v54, main_call0_v55, main_call0_v56, main_call0_v57,
    main_call0_v58, main_call0_cst_10, main_call0_v59, main_call0_v60, main_call0_v61, main_call0_v62,
    main_call0_v63, main_call0_v64, main_call0_v65, main_call0_v66, main_call0_cst_11, main_call0_call2_cst,
    main_call0_call2_v0, main_call0_call2_v1, main_call0_call2_v2, main_call0_call2_v3, main_call0_call2_v4, main_call0_v67,
    main_call0_v68, main_call0_v69, main_call0_c_12, main_call0_v70, main_call0_v71, main_call0_c_13,
    main_call0_v72, main_call0_v73, main_call0_v74, main_call0_v75, main_call0_v76, main_call0_cst_14,
    main_call0_v77, main_call0_v78, main_call0_v79, main_call0_v80, main_call0_v81, main_call0_v82,
    main_call0_v83, main_call0_cst_15, main_call0_call3_cst, main_call0_call3_v0, main_call0_call3_v1, main_call0_call3_v2,
    main_call0_call3_v3, main_call0_call3_v4, main_call0_v84, main_call0_cst_16, main_call0_v85, main_call0_v86,
    main_call0_v87, main_call0_cst_17, main_call0_v88, main_call0_cst_18, main_call0_v89, main_call0_v90,
    main_call0_v91, main_call0_cst_19, main_call0_v92, main_call0_v93, main_call0_v94, main_call0_v95,
    main_call0_v96, main_call0_v97, main_call0_v98, main_call0_v99, main_call0_v100, main_call0_v101,
    main_call0_cst_20, main_call0_v102, main_call0_v103, main_call0_cst_21, main_call0_v104, main_v0 ]

/-- Each operation before the region writes its own result reference only. -/
theorem hostOps0_writes : StableHlo.WritesIn (hostOps0 : List (HloOp τ sig (Elt F))) W0 := by
  repeat' first | exact StableHlo.WritesIn.nil | refine StableHlo.WritesIn.cons (Finset.Subset.refl _) ?_

set_option maxHeartbeats 40000000 in
/-- Each operation after the region writes its own result reference only. -/
theorem hostOps1_writes : StableHlo.WritesIn (hostOps1 : List (HloOp τ sig (Elt F))) W1 := by
  repeat' first | exact StableHlo.WritesIn.nil | refine StableHlo.WritesIn.cons (Finset.Subset.refl _) ?_

theorem flatten_one {α : Type} (l : List α) : [l].flatten = l := by
  simp only [List.flatten_cons, List.flatten_nil, List.append_nil]

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

set_option maxRecDepth 200000 in
/-- The program is the operations before the region, the region, and the operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's four arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of the region's four arrays is the result of an operation after the region. -/
theorem arr_not_W1 : ∀ w : Fin 4, Pipeline.arrRef spec0 w ∉ W1 := by decide

/-- So those operations write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp
    ((List.forall_iff_forall_mem.mp (hostOps1_writes (F := F)).forall_sub) op hop hw))
  exact arr_not_W1 w (Proc.devRef_injective _ he ▸ hy)

/-- A reference no operation before the region writes is found by the region as launched. -/
theorem head_kept (c : Dev nD) (b : Ref sig .tc) (hb : b ∉ W0) : V m c b = m ((c : Thread nD τ).loc b) := by
  show StableHlo.after (List.flatten [hostOps0]) (fun b => m (c, b)) (Proc.devRef .tc b) = _
  rw [flatten_one]
  exact StableHlo.after_kept hostOps0_writes _ b hb

/-- A reference that is no array of the region and that no operation after the region writes ends at what it held
    when the region was entered. -/
theorem tail_kept (dats : (p : Fin 1) → (c : Dev nD) → Dat τ (Elt F) Unit ℕ (UR sig nD τ) ℕ (cfgs p) c) (c : Dev nD)
    (b : Ref sig .tc) (hb : b ∉ W1) (ha : ∀ w, Pipeline.arrRef spec0 w ≠ b) :
    Pipeline.afterTail₀ cfgs dats 0 (V0 m) [hostOps1] c b = V m c b := by
  unfold Pipeline.afterTail₀
  rw [flatten_one, StableHlo.after_kept hostOps1_writes _ b hb,
    Pipeline.withArrays_of_ne _ c (V0 m c) _ b (by exact ha)]

theorem V_main_arg0 (c : Dev nD) : V m c main_arg0 = m ((c : Thread nD τ).loc main_arg0) :=
  head_kept m c main_arg0 (by decide)
theorem V_main_arg1 (c : Dev nD) : V m c main_arg1 = m ((c : Thread nD τ).loc main_arg1) :=
  head_kept m c main_arg1 (by decide)
theorem V_main_arg2 (c : Dev nD) : V m c main_arg2 = m ((c : Thread nD τ).loc main_arg2) :=
  head_kept m c main_arg2 (by decide)
theorem V_main_arg3 (c : Dev nD) : V m c main_arg3 = m ((c : Thread nD τ).loc main_arg3) :=
  head_kept m c main_arg3 (by decide)
theorem V_main_arg4 (c : Dev nD) : V m c main_arg4 = m ((c : Thread nD τ).loc main_arg4) :=
  head_kept m c main_arg4 (by decide)
theorem V_main_arg5 (c : Dev nD) : V m c main_arg5 = m ((c : Thread nD τ).loc main_arg5) :=
  head_kept m c main_arg5 (by decide)
theorem V_main_arg6 (c : Dev nD) : V m c main_arg6 = m ((c : Thread nD τ).loc main_arg6) :=
  head_kept m c main_arg6 (by decide)
theorem V_main_arg7 (c : Dev nD) : V m c main_arg7 = m ((c : Thread nD τ).loc main_arg7) :=
  head_kept m c main_arg7 (by decide)
theorem V_main_arg8 (c : Dev nD) : V m c main_arg8 = m ((c : Thread nD τ).loc main_arg8) :=
  head_kept m c main_arg8 (by decide)
theorem V_main_arg9 (c : Dev nD) : V m c main_arg9 = m ((c : Thread nD τ).loc main_arg9) :=
  head_kept m c main_arg9 (by decide)
theorem V_main_arg10 (c : Dev nD) : V m c main_arg10 = m ((c : Thread nD τ).loc main_arg10) :=
  head_kept m c main_arg10 (by decide)
theorem V_main_arg11 (c : Dev nD) : V m c main_arg11 = m ((c : Thread nD τ).loc main_arg11) :=
  head_kept m c main_arg11 (by decide)
theorem V_main_arg12 (c : Dev nD) : V m c main_arg12 = m ((c : Thread nD τ).loc main_arg12) :=
  head_kept m c main_arg12 (by decide)

theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_kept m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_kept m dats c main_arg2 (by decide) (by decide)).trans (V_main_arg2 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_kept m dats c main_arg4 (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_kept m dats c main_arg5 (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_kept m dats c main_arg6 (by decide) (by decide)).trans (V_main_arg6 m c)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_kept m dats c main_arg7 (by decide) (by decide)).trans (V_main_arg7 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_kept m dats c main_arg8 (by decide) (by decide)).trans (V_main_arg8 m c)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_kept m dats c main_arg9 (by decide) (by decide)).trans (V_main_arg9 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_kept m dats c main_arg10 (by decide) (by decide)).trans (V_main_arg10 m c)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_kept m dats c main_arg11 (by decide) (by decide)).trans (V_main_arg11 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_kept m dats c main_arg12 (by decide) (by decide)).trans (V_main_arg12 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claims' posts from the frame run's -/

/-- From a run to the library's frame post — the two argument arrays the region stages (windows 0 and 1) at their
    region-entry contents, every other argument as the later operations leave it — the thirteen arguments end as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c)⟩) h

/-- The same with the result: it ends at what the later operations compute. -/
theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v0) = Pipeline.afterTail₀ cfgs dats 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).2 main_v0 (Pipeline.mem_restRefs_of main_v0 (by decide) (by decide)),
      ((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c)⟩) h

/-! ## The body's accesses -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x1 := Rect.unit (s := S10000x1) ![0, 0] S10000x1.size inb_S10000x1_S10000x1_0_0
abbrev r0_3 : Rect S10000x64 := Rect.unit (s := S10000x64) ![0, 0] S10000x64.size inb_S10000x64_S10000x64_0_0

/-! ## What the body leaves in the output window's buffer -/

/-- Window 3's staging buffer after the body, from the three input blocks: its one store, of the whole block — the
    product of the rows block with the weight, each row scaled by its entry of the column. -/
def out0_3 (x0 : Vec F S10000x128 .f32) (x1 : Vec F S128x64 .f32) (x2 : Vec F S10000x1 .f32) : Vec F S10000x64 .f32 :=
  View.canon [⟨r0_3, k0_pay1 (View.ld x0 r0_0) (View.ld x1 r0_1) (View.ld x2 r0_2)⟩]

/-- The one store's rectangle is the whole buffer, so it covers it. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 4000000 in
/-- The kernel body on whole staging memrefs, the three inputs' at read contents `x0`, `x1`, `x2` and the output's at
    anything, runs to the continuation holding the inputs' as they were and the output's at `out0_3` of the inputs':
    three loads, a load of the output buffer whose value is not used, and one store of the whole block. -/
theorem sound_kernel (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S10000x1 .f32) (harg3 : arg3.IsWhole) (arg4 : Memref sig .tc .vmem S10000x64 .f32) (harg4 : arg4.IsWhole)
    (x0 : Vec F S10000x128 .f32) (x1 : Vec F S128x64 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prescale_linear_kernel i arg1 harg1 arg2 harg2 arg3 harg3 arg4 harg4) K := by
  simp only [cc0__prescale_linear_kernel_eq_skeleton]; unfold cc0__prescale_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the three input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's owed counters pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run, the frame and the result -/

-- the library theorem's implicit arguments are found by unifying its conclusion with this one, which takes unfolding
-- plain definitions in a metavariable's type
set_option maxRecDepth 200000 in
set_option backward.isDefEq.respectTransparency.types false in
/-- For any values, from any memory with zero counters: every weakly fair execution of the program on the TensorCores
    terminates, and every final state has every array of the region at what the library computes from the proof data
    and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and its thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- And its result ends at what the operations after the region compute from the region's exit contents. -/
theorem run_value : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  value_of m ρ (dats m) (A_eq m) (run_main m ρ)

end Cert.KernelIdeal.HF

end
-- ==== Proof.RefRun.lean ====
/-
  The reference program's @main read as one straight line of host operations.

  @main calls four outlined functions (the leaky rectifier of each layer, each of which calls an outlined select).
  A call executes the callee's body on the call's own buffers, so the line lists the callee's operations at the
  call site, over the buffers of that call's record. The 167 operations are given as six consecutive lists — the
  edge normalisation, the four layers, the pooling with the output head — so that later modules can speak about
  one stage at a time; `ops` is their concatenation.

  `run`: every weakly fair execution of @main terminates, and every buffer ends at the fold `after ops` of the
  operations' results over the launch contents. `writesK` / `wr_nodup`: operation `k` of list `K` writes the
  reference `wrK[k]`, and no reference is written twice (single assignment). `kept` / `frame`: the thirteen
  arguments are written by no operation, so they end unchanged.
-/
import proofs.«144057_j23888608100399_2_alg».proof.Proof.Gen.ReferenceIdeal
import Idealize.ShloMosaic.Lib.StableHlo.Run
import proofs.«144057_j23888608100399_2_alg».proof.Proof.LibSsa

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The edge lists with self loops (source `main_v3`, target `main_v6`), the degree count `main_v10` (a scatter-add of ones at the targets), its inverse square root `main_v11`, the two gathers of it at the wrapped sources and targets (`main_v18`, `main_v25`) and their product `main_v26`, the edge weight. -/
abbrev seg0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S3300000 ![] bcast_S_S3300000 : (⟨S_, .i32⟩ : BufTy).Contents (Elt F) → (⟨S3300000, .i32⟩ : BufTy).Contents (Elt F)),
    binary main_v3 main_v12 main_v13 (cmpi .slt : (⟨S3300000, .i32⟩ : BufTy).Contents (Elt F) → (⟨S3300000, .i32⟩ : BufTy).Contents (Elt F) → (⟨S3300000, .i1⟩ : BufTy).Contents (Elt F)),
    nullary main_c_1 (constantI S_ 32 100000#32),
    unary main_c_1 main_v14 (broadcastInDim S3300000 ![] bcast_S_S3300000 : (⟨S_, .i32⟩ : BufTy).Contents (Elt F) → (⟨S3300000, .i32⟩ : BufTy).Contents (Elt F)),
    binary main_v3 main_v14 main_v15 (addi : (⟨S3300000, .i32⟩ : BufTy).Contents (Elt F) → (⟨S3300000, .i32⟩ : BufTy).Contents (Elt F) → (⟨S3300000, .i32⟩ : BufTy).Contents (Elt F)),
    ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v16 main_v17 (broadcastInDim S3300000x1 ![0] bcast_S3300000_S3300000x1_0 : (⟨S3300000, .i32⟩ : BufTy).Contents (Elt F) → (⟨S3300000x1, .i32⟩ : BufTy).Contents (Elt F)),
    binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_2 (constantI S_ 32 0#32),
    unary main_c_2 main_v19 (broadcastInDim S3300000 ![] bcast_S_S3300000 : (⟨S_, .i32⟩ : BufTy).Contents (Elt F) → (⟨S3300000, .i32⟩ : BufTy).Contents (Elt F)),
    binary main_v6 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v21 (broadcastInDim S3300000 ![] bcast_S_S3300000 : (⟨S_, .i32⟩ : BufTy).Contents (Elt F) → (⟨S3300000, .i32⟩ : BufTy).Contents (Elt F)),
    binary main_v6 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)) ]

/-- Layer 1: the dense product `main_v27`, its rows gathered at the sources, scaled by the edge weight, scatter-added at the targets, the bias added, and the leaky rectifier (seven operations: zero, its broadcast, the comparison, the slope, its broadcast, the scaled value, the select) whose result is `main_v44`. -/
abbrev seg1 : List (HloOp τ sig (Elt F)) :=
  [ binary main_arg0 main_arg3 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_4 (constantI S_ 32 0#32),
    unary main_c_4 main_v28 (broadcastInDim S3300000 ![] bcast_S_S3300000 : (⟨S_, .i32⟩ : BufTy).Contents (Elt F) → (⟨S3300000, .i32⟩ : BufTy).Contents (Elt F)),
    binary main_v3 main_v28 main_v29 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v30 (broadcastInDim S3300000 ![] bcast_S_S3300000 : (⟨S_, .i32⟩ : BufTy).Contents (Elt F) → (⟨S3300000, .i32⟩ : BufTy).Contents (Elt F)),
    binary main_v3 main_v30 main_v31 (addi : (⟨S3300000, .i32⟩ : BufTy).Contents (Elt F) → (⟨S3300000, .i32⟩ : BufTy).Contents (Elt F) → (⟨S3300000, .i32⟩ : BufTy).Contents (Elt F)),
    ternary main_v29 main_v31 main_v3 main_v32 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v32 main_v33 (broadcastInDim S3300000x1 ![0] bcast_S3300000_S3300000x1_0 : (⟨S3300000, .i32⟩ : BufTy).Contents (Elt F) → (⟨S3300000x1, .i32⟩ : BufTy).Contents (Elt F)),
    binary main_v27 main_v33 main_v34 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v26 main_v35 (broadcastInDim S3300000x1 ![0] bcast_S3300000_S3300000x1_0 : (⟨S3300000, .f32⟩ : BufTy).Contents (Elt F) → (⟨S3300000x1, .f32⟩ : BufTy).Contents (Elt F)),
    unary main_v35 main_v36 (broadcastInDim S3300000x64 ![0, 1] bcast_S3300000x1_S3300000x64_0_1 : (⟨S3300000x1, .f32⟩ : BufTy).Contents (Elt F) → (⟨S3300000x64, .f32⟩ : BufTy).Contents (Elt F)),
    binary main_v34 main_v36 main_v37 (mulf : (⟨S3300000x64, .f32⟩ : BufTy).Contents (Elt F) → (⟨S3300000x64, .f32⟩ : BufTy).Contents (Elt F) → (⟨S3300000x64, .f32⟩ : BufTy).Contents (Elt F)),
    nullary main_cst_6 (constant S_ .f32 0x00000000#32),
    unary main_cst_6 main_v38 (broadcastInDim S100000x64 ![] bcast_S_S100000x64 : (⟨S_, .f32⟩ : BufTy).Contents (Elt F) → (⟨S100000x64, .f32⟩ : BufTy).Contents (Elt F)),
    unary main_v6 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v43 : StableHlo.TRef sig ⟨S100000x64, .f32⟩) main_call0.v0 main_call0.v1 (cmpf .oge),
    TRef.nullary main_call0.cst_0 (constant S_ .f32 0x3C23D70A#32),
    TRef.unary main_call0.cst_0 main_call0.v2 (broadcastInDim S100000x64 ![] bcast_S_S100000x64),
    TRef.binary main_call0.v2 (.of main_v43 : StableHlo.TRef sig ⟨S100000x64, .f32⟩) main_call0.v3 mulf,
    TRef.ternary main_call0.v1 (.of main_v43 : StableHlo.TRef sig ⟨S100000x64, .f32⟩) main_call0.v3 main_call0.call0.v0 select ]

/-- Layer 2, the same nine stages at width 4; the result is `main_v62`. -/
abbrev seg2 : List (HloOp τ sig (Elt F)) :=
  [ binary main_v44 main_arg5 main_v45 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    nullary main_c_7 (constantI S_ 32 0#32),
    unary main_c_7 main_v46 (broadcastInDim S3300000 ![] bcast_S_S3300000 : (⟨S_, .i32⟩ : BufTy).Contents (Elt F) → (⟨S3300000, .i32⟩ : BufTy).Contents (Elt F)),
    binary main_v3 main_v46 main_v47 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v48 (broadcastInDim S3300000 ![] bcast_S_S3300000 : (⟨S_, .i32⟩ : BufTy).Contents (Elt F) → (⟨S3300000, .i32⟩ : BufTy).Contents (Elt F)),
    binary main_v3 main_v48 main_v49 (addi : (⟨S3300000, .i32⟩ : BufTy).Contents (Elt F) → (⟨S3300000, .i32⟩ : BufTy).Contents (Elt F) → (⟨S3300000, .i32⟩ : BufTy).Contents (Elt F)),
    ternary main_v47 main_v49 main_v3 main_v50 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v50 main_v51 (broadcastInDim S3300000x1 ![0] bcast_S3300000_S3300000x1_0 : (⟨S3300000, .i32⟩ : BufTy).Contents (Elt F) → (⟨S3300000x1, .i32⟩ : BufTy).Contents (Elt F)),
    binary main_v45 main_v51 main_v52 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    unary main_v26 main_v53 (broadcastInDim S3300000x1 ![0] bcast_S3300000_S3300000x1_0 : (⟨S3300000, .f32⟩ : BufTy).Contents (Elt F) → (⟨S3300000x1, .f32⟩ : BufTy).Contents (Elt F)),
    unary main_v53 main_v54 (broadcastInDim S3300000x4 ![0, 1] bcast_S3300000x1_S3300000x4_0_1 : (⟨S3300000x1, .f32⟩ : BufTy).Contents (Elt F) → (⟨S3300000x4, .f32⟩ : BufTy).Contents (Elt F)),
    binary main_v52 main_v54 main_v55 (mulf : (⟨S3300000x4, .f32⟩ : BufTy).Contents (Elt F) → (⟨S3300000x4, .f32⟩ : BufTy).Contents (Elt F) → (⟨S3300000x4, .f32⟩ : BufTy).Contents (Elt F)),
    nullary main_cst_9 (constant S_ .f32 0x00000000#32),
    unary main_cst_9 main_v56 (broadcastInDim S100000x4 ![] bcast_S_S100000x4 : (⟨S_, .f32⟩ : BufTy).Contents (Elt F) → (⟨S100000x4, .f32⟩ : BufTy).Contents (Elt F)),
    unary main_v6 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)),
    unary main_arg6 main_v59 (broadcastInDim S1x4 ![1] bcast_S4_S1x4_1 : (⟨S4, .f32⟩ : BufTy).Contents (Elt F) → (⟨S1x4, .f32⟩ : BufTy).Contents (Elt F)),
    unary main_v59 main_v60 (broadcastInDim S100000x4 ![0, 1] bcast_S1x4_S100000x4_0_1 : (⟨S1x4, .f32⟩ : BufTy).Contents (Elt F) → (⟨S100000x4, .f32⟩ : BufTy).Contents (Elt F)),
    binary main_v58 main_v60 main_v61 (addf : (⟨S100000x4, .f32⟩ : BufTy).Contents (Elt F) → (⟨S100000x4, .f32⟩ : BufTy).Contents (Elt F) → (⟨S100000x4, .f32⟩ : BufTy).Contents (Elt F)),
    TRef.nullary main_call1.cst (constant S_ .f32 0x00000000#32),
    TRef.unary main_call1.cst main_call1.v0 (broadcastInDim S100000x4 ![] bcast_S_S100000x4),
    TRef.binary (.of main_v61 : StableHlo.TRef sig ⟨S100000x4, .f32⟩) main_call1.v0 main_call1.v1 (cmpf .oge),
    TRef.nullary main_call1.cst_0 (constant S_ .f32 0x3C23D70A#32),
    TRef.unary main_call1.cst_0 main_call1.v2 (broadcastInDim S100000x4 ![] bcast_S_S100000x4),
    TRef.binary main_call1.v2 (.of main_v61 : StableHlo.TRef sig ⟨S100000x4, .f32⟩) main_call1.v3 mulf,
    TRef.ternary main_call1.v1 (.of main_v61 : StableHlo.TRef sig ⟨S100000x4, .f32⟩) main_call1.v3 main_call1.call0.v0 select ]

/-- Layer 3, the same at width 2; the result is `main_v80`. -/
abbrev seg3 : List (HloOp τ sig (Elt F)) :=
  [ binary main_v62 main_arg7 main_v63 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)),
    nullary main_c_10 (constantI S_ 32 0#32),
    unary main_c_10 main_v64 (broadcastInDim S3300000 ![] bcast_S_S3300000 : (⟨S_, .i32⟩ : BufTy).Contents (Elt F) → (⟨S3300000, .i32⟩ : BufTy).Contents (Elt F)),
    binary main_v3 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v66 (broadcastInDim S3300000 ![] bcast_S_S3300000 : (⟨S_, .i32⟩ : BufTy).Contents (Elt F) → (⟨S3300000, .i32⟩ : BufTy).Contents (Elt F)),
    binary main_v3 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v3 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v26 main_v71 (broadcastInDim S3300000x1 ![0] bcast_S3300000_S3300000x1_0 : (⟨S3300000, .f32⟩ : BufTy).Contents (Elt F) → (⟨S3300000x1, .f32⟩ : BufTy).Contents (Elt F)),
    unary main_v71 main_v72 (broadcastInDim S3300000x2 ![0, 1] bcast_S3300000x1_S3300000x2_0_1 : (⟨S3300000x1, .f32⟩ : BufTy).Contents (Elt F) → (⟨S3300000x2, .f32⟩ : BufTy).Contents (Elt F)),
    binary main_v70 main_v72 main_v73 (mulf : (⟨S3300000x2, .f32⟩ : BufTy).Contents (Elt F) → (⟨S3300000x2, .f32⟩ : BufTy).Contents (Elt F) → (⟨S3300000x2, .f32⟩ : BufTy).Contents (Elt F)),
    nullary main_cst_12 (constant S_ .f32 0x00000000#32),
    unary main_cst_12 main_v74 (broadcastInDim S100000x2 ![] bcast_S_S100000x2 : (⟨S_, .f32⟩ : BufTy).Contents (Elt F) → (⟨S100000x2, .f32⟩ : BufTy).Contents (Elt F)),
    unary main_v6 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg8 main_v77 (broadcastInDim S1x2 ![1] bcast_S2_S1x2_1 : (⟨S2, .f32⟩ : BufTy).Contents (Elt F) → (⟨S1x2, .f32⟩ : BufTy).Contents (Elt F)),
    unary main_v77 main_v78 (broadcastInDim S100000x2 ![0, 1] bcast_S1x2_S100000x2_0_1 : (⟨S1x2, .f32⟩ : BufTy).Contents (Elt F) → (⟨S100000x2, .f32⟩ : BufTy).Contents (Elt F)),
    binary main_v76 main_v78 main_v79 (addf : (⟨S100000x2, .f32⟩ : BufTy).Contents (Elt F) → (⟨S100000x2, .f32⟩ : BufTy).Contents (Elt F) → (⟨S100000x2, .f32⟩ : BufTy).Contents (Elt F)),
    TRef.nullary main_call2.cst (constant S_ .f32 0x00000000#32),
    TRef.unary main_call2.cst main_call2.v0 (broadcastInDim S100000x2 ![] bcast_S_S100000x2),
    TRef.binary (.of main_v79 : StableHlo.TRef sig ⟨S100000x2, .f32⟩) main_call2.v0 main_call2.v1 (cmpf .oge),
    TRef.nullary main_call2.cst_0 (constant S_ .f32 0x3C23D70A#32),
    TRef.unary main_call2.cst_0 main_call2.v2 (broadcastInDim S100000x2 ![] bcast_S_S100000x2),
    TRef.binary main_call2.v2 (.of main_v79 : StableHlo.TRef sig ⟨S100000x2, .f32⟩) main_call2.v3 mulf,
    TRef.ternary main_call2.v1 (.of main_v79 : StableHlo.TRef sig ⟨S100000x2, .f32⟩) main_call2.v3 main_call2.call0.v0 select ]

/-- Layer 4, the same at width 1 (the edge weight needs no second broadcast); the result is `main_v97`. -/
abbrev seg4 : List (HloOp τ sig (Elt F)) :=
  [ binary main_v80 main_arg9 main_v81 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    nullary main_c_13 (constantI S_ 32 0#32),
    unary main_c_13 main_v82 (broadcastInDim S3300000 ![] bcast_S_S3300000 : (⟨S_, .i32⟩ : BufTy).Contents (Elt F) → (⟨S3300000, .i32⟩ : BufTy).Contents (Elt F)),
    binary main_v3 main_v82 main_v83 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v84 (broadcastInDim S3300000 ![] bcast_S_S3300000 : (⟨S_, .i32⟩ : BufTy).Contents (Elt F) → (⟨S3300000, .i32⟩ : BufTy).Contents (Elt F)),
    binary main_v3 main_v84 main_v85 (addi : (⟨S3300000, .i32⟩ : BufTy).Contents (Elt F) → (⟨S3300000, .i32⟩ : BufTy).Contents (Elt F) → (⟨S3300000, .i32⟩ : BufTy).Contents (Elt F)),
    ternary main_v83 main_v85 main_v3 main_v86 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v86 main_v87 (broadcastInDim S3300000x1 ![0] bcast_S3300000_S3300000x1_0 : (⟨S3300000, .i32⟩ : BufTy).Contents (Elt F) → (⟨S3300000x1, .i32⟩ : BufTy).Contents (Elt F)),
    binary main_v81 main_v87 main_v88 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v26 main_v89 (broadcastInDim S3300000x1 ![0] bcast_S3300000_S3300000x1_0 : (⟨S3300000, .f32⟩ : BufTy).Contents (Elt F) → (⟨S3300000x1, .f32⟩ : BufTy).Contents (Elt F)),
    binary main_v88 main_v89 main_v90 (mulf : (⟨S3300000x1, .f32⟩ : BufTy).Contents (Elt F) → (⟨S3300000x1, .f32⟩ : BufTy).Contents (Elt F) → (⟨S3300000x1, .f32⟩ : BufTy).Contents (Elt F)),
    nullary main_cst_15 (constant S_ .f32 0x00000000#32),
    unary main_cst_15 main_v91 (broadcastInDim S100000x1 ![] bcast_S_S100000x1 : (⟨S_, .f32⟩ : BufTy).Contents (Elt F) → (⟨S100000x1, .f32⟩ : BufTy).Contents (Elt F)),
    unary main_v6 main_v92 (broadcastInDim S3300000x1 ![0] bcast_S3300000_S3300000x1_0 : (⟨S3300000, .i32⟩ : BufTy).Contents (Elt F) → (⟨S3300000x1, .i32⟩ : BufTy).Contents (Elt F)),
    ternary main_v91 main_v92 main_v90 main_v93 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg10 main_v94 (broadcastInDim S1x1 ![1] bcast_S1_S1x1_1 : (⟨S1, .f32⟩ : BufTy).Contents (Elt F) → (⟨S1x1, .f32⟩ : BufTy).Contents (Elt F)),
    unary main_v94 main_v95 (broadcastInDim S100000x1 ![0, 1] bcast_S1x1_S100000x1_0_1 : (⟨S1x1, .f32⟩ : BufTy).Contents (Elt F) → (⟨S100000x1, .f32⟩ : BufTy).Contents (Elt F)),
    binary main_v93 main_v95 main_v96 (addf : (⟨S100000x1, .f32⟩ : BufTy).Contents (Elt F) → (⟨S100000x1, .f32⟩ : BufTy).Contents (Elt F) → (⟨S100000x1, .f32⟩ : BufTy).Contents (Elt F)),
    TRef.nullary main_call3.cst (constant S_ .f32 0x00000000#32),
    TRef.unary main_call3.cst main_call3.v0 (broadcastInDim S100000x1 ![] bcast_S_S100000x1),
    TRef.binary (.of main_v96 : StableHlo.TRef sig ⟨S100000x1, .f32⟩) main_call3.v0 main_call3.v1 (cmpf .oge),
    TRef.nullary main_call3.cst_0 (constant S_ .f32 0x3C23D70A#32),
    TRef.unary main_call3.cst_0 main_call3.v2 (broadcastInDim S100000x1 ![] bcast_S_S100000x1),
    TRef.binary main_call3.v2 (.of main_v96 : StableHlo.TRef sig ⟨S100000x1, .f32⟩) main_call3.v3 mulf,
    TRef.ternary main_call3.v1 (.of main_v96 : StableHlo.TRef sig ⟨S100000x1, .f32⟩) main_call3.v3 main_call3.call0.v0 select ]

/-- The mean pooling over the 512 graphs (the sums `main_v100`, the counts `main_v104` clamped below by one, the quotient `main_v108`), the last dense product with its bias, and the logistic function `1 / (1 + exp (-x))`; the result is `main_v118`. -/
abbrev seg5 : List (HloOp τ sig (Elt F)) :=
  [ nullary main_cst_16 (constant S_ .f32 0x00000000#32),
    unary main_cst_16 main_v98 (broadcastInDim S512x1 ![] bcast_S_S512x1 : (⟨S_, .f32⟩ : BufTy).Contents (Elt F) → (⟨S512x1, .f32⟩ : BufTy).Contents (Elt F)),
    unary main_arg2 main_v99 (broadcastInDim S100000x1 ![0] bcast_S100000_S100000x1_0 : (⟨S100000, .i32⟩ : BufTy).Contents (Elt F) → (⟨S100000x1, .i32⟩ : BufTy).Contents (Elt F)),
    ternary main_v98 main_v99 main_v97 main_v100 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    nullary main_cst_17 (constant S_ .f32 0x3F800000#32),
    unary main_cst_17 main_v101 (broadcastInDim S100000 ![] bcast_S_S100000 : (⟨S_, .f32⟩ : BufTy).Contents (Elt F) → (⟨S100000, .f32⟩ : BufTy).Contents (Elt F)),
    nullary main_cst_18 (constant S_ .f32 0x00000000#32),
    unary main_cst_18 main_v102 (broadcastInDim S512 ![] bcast_S_S512 : (⟨S_, .f32⟩ : BufTy).Contents (Elt F) → (⟨S512, .f32⟩ : BufTy).Contents (Elt F)),
    unary main_arg2 main_v103 (broadcastInDim S100000x1 ![0] bcast_S100000_S100000x1_0 : (⟨S100000, .i32⟩ : BufTy).Contents (Elt F) → (⟨S100000x1, .i32⟩ : BufTy).Contents (Elt F)),
    ternary main_v102 main_v103 main_v101 main_v104 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_19 (constant S_ .f32 0x3F800000#32),
    unary main_cst_19 main_v105 (broadcastInDim S512 ![] bcast_S_S512 : (⟨S_, .f32⟩ : BufTy).Contents (Elt F) → (⟨S512, .f32⟩ : BufTy).Contents (Elt F)),
    binary main_v104 main_v105 main_v106 (maximumf : (⟨S512, .f32⟩ : BufTy).Contents (Elt F) → (⟨S512, .f32⟩ : BufTy).Contents (Elt F) → (⟨S512, .f32⟩ : BufTy).Contents (Elt F)),
    unary main_v106 main_v107 (broadcastInDim S512x1 ![0] bcast_S512_S512x1_0 : (⟨S512, .f32⟩ : BufTy).Contents (Elt F) → (⟨S512x1, .f32⟩ : BufTy).Contents (Elt F)),
    binary main_v100 main_v107 main_v108 (Host.divf : (⟨S512x1, .f32⟩ : BufTy).Contents (Elt F) → (⟨S512x1, .f32⟩ : BufTy).Contents (Elt F) → (⟨S512x1, .f32⟩ : BufTy).Contents (Elt F)),
    binary main_v108 main_arg11 main_v109 ((fun l r => Host.dotGeneral dot_S512x1_S1x1_S512x1_1_0_0_1_n_n none l r) : (⟨S512x1, .f32⟩ : BufTy).Contents (Elt F) → (⟨S1x1, .f32⟩ : BufTy).Contents (Elt F) → (⟨S512x1, .f32⟩ : BufTy).Contents (Elt F)),
    unary main_arg12 main_v110 (broadcastInDim S1x1 ![1] bcast_S1_S1x1_1 : (⟨S1, .f32⟩ : BufTy).Contents (Elt F) → (⟨S1x1, .f32⟩ : BufTy).Contents (Elt F)),
    unary main_v110 main_v111 (broadcastInDim S512x1 ![0, 1] bcast_S1x1_S512x1_0_1 : (⟨S1x1, .f32⟩ : BufTy).Contents (Elt F) → (⟨S512x1, .f32⟩ : BufTy).Contents (Elt F)),
    binary main_v109 main_v111 main_v112 (addf : (⟨S512x1, .f32⟩ : BufTy).Contents (Elt F) → (⟨S512x1, .f32⟩ : BufTy).Contents (Elt F) → (⟨S512x1, .f32⟩ : BufTy).Contents (Elt F)),
    unary main_v112 main_v113 (Host.negf : (⟨S512x1, .f32⟩ : BufTy).Contents (Elt F) → (⟨S512x1, .f32⟩ : BufTy).Contents (Elt F)),
    unary main_v113 main_v114 (Host.exp : (⟨S512x1, .f32⟩ : BufTy).Contents (Elt F) → (⟨S512x1, .f32⟩ : BufTy).Contents (Elt F)),
    nullary main_cst_20 (constant S_ .f32 0x3F800000#32),
    unary main_cst_20 main_v115 (broadcastInDim S512x1 ![] bcast_S_S512x1 : (⟨S_, .f32⟩ : BufTy).Contents (Elt F) → (⟨S512x1, .f32⟩ : BufTy).Contents (Elt F)),
    binary main_v115 main_v114 main_v116 (addf : (⟨S512x1, .f32⟩ : BufTy).Contents (Elt F) → (⟨S512x1, .f32⟩ : BufTy).Contents (Elt F) → (⟨S512x1, .f32⟩ : BufTy).Contents (Elt F)),
    nullary main_cst_21 (constant S_ .f32 0x3F800000#32),
    unary main_cst_21 main_v117 (broadcastInDim S512x1 ![] bcast_S_S512x1 : (⟨S_, .f32⟩ : BufTy).Contents (Elt F) → (⟨S512x1, .f32⟩ : BufTy).Contents (Elt F)),
    binary main_v117 main_v116 main_v118 (Host.divf : (⟨S512x1, .f32⟩ : BufTy).Contents (Elt F) → (⟨S512x1, .f32⟩ : BufTy).Contents (Elt F) → (⟨S512x1, .f32⟩ : BufTy).Contents (Elt F)) ]

/-- @main's 167 operations, in order. -/
abbrev ops : List (HloOp τ sig (Elt F)) := seg0 ++ (seg1 ++ (seg2 ++ (seg3 ++ (seg4 ++ seg5))))

-- the line is 167 binds deep: unfolding the outlined functions at their calls and reassociating the binds recurses once per statement
set_option maxRecDepth 32768 in
set_option maxHeartbeats 40000000 in
/-- @main is that straight line: the outlined functions unfolded at their calls and their records at the fields,
    both sides are one chain of `hlo` steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every buffer an operation touches is a reference of the TensorCore; every operation determines what it writes -/

set_option maxRecDepth 8192 in
theorem seg0_sub : (seg0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub ..⟩

set_option maxRecDepth 8192 in
theorem seg1_sub : (seg1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub ..⟩

set_option maxRecDepth 8192 in
theorem seg2_sub : (seg2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub ..⟩

set_option maxRecDepth 8192 in
theorem seg3_sub : (seg3 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub ..⟩

set_option maxRecDepth 8192 in
theorem seg4_sub : (seg4 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub ..⟩

set_option maxRecDepth 8192 in
theorem seg5_sub : (seg5 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub ..⟩

theorem ops_sub : (ops : List (HloOp τ sig (Elt F))).Forall fun op => op.bufs ⊆ tcRefs τ sig :=
  List.forall_append.mpr ⟨seg0_sub, List.forall_append.mpr ⟨seg1_sub, List.forall_append.mpr ⟨seg2_sub,
    List.forall_append.mpr ⟨seg3_sub, List.forall_append.mpr ⟨seg4_sub, seg5_sub⟩⟩⟩⟩⟩

set_option maxRecDepth 8192 in
theorem seg0_fresh : (seg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

set_option maxRecDepth 8192 in
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

set_option maxRecDepth 8192 in
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

set_option maxRecDepth 8192 in
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

set_option maxRecDepth 8192 in
theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl⟩

set_option maxRecDepth 8192 in
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

/-- No operation of the line leaves a result undetermined. -/
theorem ops_fresh : ∀ op ∈ (ops : List (HloOp τ sig (Elt F))), op.fresh = ∅ :=
  List.forall_iff_forall_mem.mp (List.forall_append.mpr ⟨seg0_fresh, List.forall_append.mpr ⟨seg1_fresh,
    List.forall_append.mpr ⟨seg2_fresh, List.forall_append.mpr ⟨seg3_fresh, List.forall_append.mpr ⟨seg4_fresh, seg5_fresh⟩⟩⟩⟩⟩)

/-! ## The run -/

/-- At the compiled mesh, for any float values, from any memory with zero counters: every weakly fair execution of @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## Single assignment: which reference each operation writes -/

/-- Operation `k` of `seg0` writes `wr0[k]`. -/
def wr0 : List (Ref sig .tc) :=
  [main_v0, main_v1, main_v2, main_v3, main_v4, main_v5, main_v6, main_cst, main_v7, main_cst_0,
    main_v8, main_v9, main_v10, main_v11, main_c, main_v12, main_v13, main_c_1, main_v14, main_v15,
    main_v16, main_v17, main_v18, main_c_2, main_v19, main_v20, main_c_3, main_v21, main_v22, main_v23,
    main_v24, main_v25, main_v26]

/-- Operation `k` of `seg1` writes `wr1[k]`. -/
def wr1 : List (Ref sig .tc) :=
  [main_v27, main_c_4, main_v28, main_v29, main_c_5, main_v30, main_v31, main_v32, main_v33, main_v34,
    main_v35, main_v36, main_v37, main_cst_6, main_v38, main_v39, main_v40, main_v41, main_v42, main_v43,
    main_call0_cst, main_call0_v0, main_call0_v1, main_call0_cst_0, main_call0_v2, main_call0_v3, main_v44]

/-- Operation `k` of `seg2` writes `wr2[k]`. -/
def wr2 : List (Ref sig .tc) :=
  [main_v45, main_c_7, main_v46, main_v47, main_c_8, main_v48, main_v49, main_v50, main_v51, main_v52,
    main_v53, main_v54, main_v55, main_cst_9, main_v56, main_v57, main_v58, main_v59, main_v60, main_v61,
    main_call1_cst, main_call1_v0, main_call1_v1, main_call1_cst_0, main_call1_v2, main_call1_v3, main_v62]

/-- Operation `k` of `seg3` writes `wr3[k]`. -/
def wr3 : List (Ref sig .tc) :=
  [main_v63, main_c_10, main_v64, main_v65, main_c_11, main_v66, main_v67, main_v68, main_v69, main_v70,
    main_v71, main_v72, main_v73, main_cst_12, main_v74, main_v75, main_v76, main_v77, main_v78, main_v79,
    main_call2_cst, main_call2_v0, main_call2_v1, main_call2_cst_0, main_call2_v2, main_call2_v3, main_v80]

/-- Operation `k` of `seg4` writes `wr4[k]`. -/
def wr4 : List (Ref sig .tc) :=
  [main_v81, main_c_13, main_v82, main_v83, main_c_14, main_v84, main_v85, main_v86, main_v87, main_v88,
    main_v89, main_v90, main_cst_15, main_v91, main_v92, main_v93, main_v94, main_v95, main_v96, main_call3_cst,
    main_call3_v0, main_call3_v1, main_call3_cst_0, main_call3_v2, main_call3_v3, main_v97]

/-- Operation `k` of `seg5` writes `wr5[k]`. -/
def wr5 : List (Ref sig .tc) :=
  [main_cst_16, main_v98, main_v99, main_v100, main_cst_17, main_v101, main_cst_18, main_v102, main_v103, main_v104,
    main_cst_19, main_v105, main_v106, main_v107, main_v108, main_v109, main_v110, main_v111, main_v112, main_v113,
    main_v114, main_cst_20, main_v115, main_v116, main_cst_21, main_v117, main_v118]

/-- Operation `k` of `ops` writes `wr[k]`. -/
def wr : List (Ref sig .tc) := wr0 ++ (wr1 ++ (wr2 ++ (wr3 ++ (wr4 ++ wr5))))

set_option maxRecDepth 8192 in
theorem writes0 : WritesIn (seg0 (F := F)) wr0 :=
  (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) WritesIn.nil)))))))))))))))))))))))))))))))))

set_option maxRecDepth 8192 in
theorem writes1 : WritesIn (seg1 (F := F)) wr1 :=
  (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) WritesIn.nil)))))))))))))))))))))))))))

set_option maxRecDepth 8192 in
theorem writes2 : WritesIn (seg2 (F := F)) wr2 :=
  (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) WritesIn.nil)))))))))))))))))))))))))))

set_option maxRecDepth 8192 in
theorem writes3 : WritesIn (seg3 (F := F)) wr3 :=
  (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) WritesIn.nil)))))))))))))))))))))))))))

set_option maxRecDepth 8192 in
theorem writes4 : WritesIn (seg4 (F := F)) wr4 :=
  (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) WritesIn.nil))))))))))))))))))))))))))

set_option maxRecDepth 8192 in
theorem writes5 : WritesIn (seg5 (F := F)) wr5 :=
  (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) (WritesIn.cons (Finset.Subset.refl _) WritesIn.nil)))))))))))))))))))))))))))

theorem writes : WritesIn (ops (F := F)) wr :=
  writes0.append (writes1.append (writes2.append (writes3.append (writes4.append writes5))))

set_option maxRecDepth 32768 in
set_option maxHeartbeats 4000000 in
/-- No reference is written twice. -/
theorem wr_nodup : (wr : List (Ref sig .tc)).Nodup := by decide

/-! ## The arguments are kept -/

/-- A reference no operation of the line writes holds, after the line, what it held before. -/
theorem kept (V : Valuation τ sig (Elt F)) (x : Ref sig .tc) (hx : x ∉ wr) :
    after (ops (F := F)) V (Proc.devRef .tc x) = V (Proc.devRef .tc x) :=
  after_kept writes V x hx

set_option maxRecDepth 8192 in
theorem arg0_not_written : main_arg0 ∉ wr := by decide
set_option maxRecDepth 8192 in
theorem arg1_not_written : main_arg1 ∉ wr := by decide
set_option maxRecDepth 8192 in
theorem arg2_not_written : main_arg2 ∉ wr := by decide
set_option maxRecDepth 8192 in
theorem arg3_not_written : main_arg3 ∉ wr := by decide
set_option maxRecDepth 8192 in
theorem arg4_not_written : main_arg4 ∉ wr := by decide
set_option maxRecDepth 8192 in
theorem arg5_not_written : main_arg5 ∉ wr := by decide
set_option maxRecDepth 8192 in
theorem arg6_not_written : main_arg6 ∉ wr := by decide
set_option maxRecDepth 8192 in
theorem arg7_not_written : main_arg7 ∉ wr := by decide
set_option maxRecDepth 8192 in
theorem arg8_not_written : main_arg8 ∉ wr := by decide
set_option maxRecDepth 8192 in
theorem arg9_not_written : main_arg9 ∉ wr := by decide
set_option maxRecDepth 8192 in
theorem arg10_not_written : main_arg10 ∉ wr := by decide
set_option maxRecDepth 8192 in
theorem arg11_not_written : main_arg11 ∉ wr := by decide
set_option maxRecDepth 8192 in
theorem arg12_not_written : main_arg12 ∉ wr := by decide

theorem kept_arg0 (V : Valuation τ sig (Elt F)) :
    after (ops (F := F)) V (Proc.devRef .tc main_arg0) = V (Proc.devRef .tc main_arg0) := kept V main_arg0 arg0_not_written
theorem kept_arg1 (V : Valuation τ sig (Elt F)) :
    after (ops (F := F)) V (Proc.devRef .tc main_arg1) = V (Proc.devRef .tc main_arg1) := kept V main_arg1 arg1_not_written
theorem kept_arg2 (V : Valuation τ sig (Elt F)) :
    after (ops (F := F)) V (Proc.devRef .tc main_arg2) = V (Proc.devRef .tc main_arg2) := kept V main_arg2 arg2_not_written
theorem kept_arg3 (V : Valuation τ sig (Elt F)) :
    after (ops (F := F)) V (Proc.devRef .tc main_arg3) = V (Proc.devRef .tc main_arg3) := kept V main_arg3 arg3_not_written
theorem kept_arg4 (V : Valuation τ sig (Elt F)) :
    after (ops (F := F)) V (Proc.devRef .tc main_arg4) = V (Proc.devRef .tc main_arg4) := kept V main_arg4 arg4_not_written
theorem kept_arg5 (V : Valuation τ sig (Elt F)) :
    after (ops (F := F)) V (Proc.devRef .tc main_arg5) = V (Proc.devRef .tc main_arg5) := kept V main_arg5 arg5_not_written
theorem kept_arg6 (V : Valuation τ sig (Elt F)) :
    after (ops (F := F)) V (Proc.devRef .tc main_arg6) = V (Proc.devRef .tc main_arg6) := kept V main_arg6 arg6_not_written
theorem kept_arg7 (V : Valuation τ sig (Elt F)) :
    after (ops (F := F)) V (Proc.devRef .tc main_arg7) = V (Proc.devRef .tc main_arg7) := kept V main_arg7 arg7_not_written
theorem kept_arg8 (V : Valuation τ sig (Elt F)) :
    after (ops (F := F)) V (Proc.devRef .tc main_arg8) = V (Proc.devRef .tc main_arg8) := kept V main_arg8 arg8_not_written
theorem kept_arg9 (V : Valuation τ sig (Elt F)) :
    after (ops (F := F)) V (Proc.devRef .tc main_arg9) = V (Proc.devRef .tc main_arg9) := kept V main_arg9 arg9_not_written
theorem kept_arg10 (V : Valuation τ sig (Elt F)) :
    after (ops (F := F)) V (Proc.devRef .tc main_arg10) = V (Proc.devRef .tc main_arg10) := kept V main_arg10 arg10_not_written
theorem kept_arg11 (V : Valuation τ sig (Elt F)) :
    after (ops (F := F)) V (Proc.devRef .tc main_arg11) = V (Proc.devRef .tc main_arg11) := kept V main_arg11 arg11_not_written
theorem kept_arg12 (V : Valuation τ sig (Elt F)) :
    after (ops (F := F)) V (Proc.devRef .tc main_arg12) = V (Proc.devRef .tc main_arg12) := kept V main_arg12 arg12_not_written

/-- The reference runs — every weakly fair execution terminates, none faults — and its thirteen argument arrays end
    unchanged: no operation of the line writes one. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _)⟩)
    (run m ρ)

end Cert.ReferenceIdeal.HR

end
-- ==== Proof.KSegs.lean ====
/-
  The kernel program's host operations after the region, cut into five consecutive stages.

  After the region has left `(x · W1) · d^(-1/2)` row by row in its output array, @main finishes layer 1 (gather the
  rows at the edge sources, sum them at the edge targets, scale by `d^(-1/2)`, add the bias, apply the leaky
  rectifier), runs layers 2, 3 and 4 (each starting with its dense transform scaled by `d^(-1/2)`), and pools per
  graph. The five lists below are the line's 138 operations in order, unchanged; their concatenation is the line.
-/
import proofs.«144057_j23888608100399_2_alg».proof.Proof.Gen.KernelIdeal.Launch

noncomputable section

namespace Cert.KernelIdeal.KS

open Cert.KernelIdeal Cert.KernelIdeal.Gen Idealize.ShloMosaic Idealize.ShloMosaic.TcCoe Idealize.SL.Sem

variable {F : FTy → Type} [FloatOps F]

/-- Layer 1 after the region: from the region's output `main_call0_v13` to the layer's activations `main_call0_v29`. -/
abbrev kseg1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v14 : StableHlo.TRef sig ⟨S3300000, .i32⟩) (broadcastInDim S3300000 ![] bcast_S_S3300000),
    StableHlo.TRef.binary (.of main_call0_v3 : StableHlo.TRef sig ⟨S3300000, .i32⟩) (.of main_call0_v14 : StableHlo.TRef sig ⟨S3300000, .i32⟩) (.of main_call0_v15 : StableHlo.TRef sig ⟨S3300000, .i1⟩) (cmpi .slt),
    StableHlo.TRef.nullary (.of main_call0_c_1 : StableHlo.TRef sig ⟨S_, .i32⟩) (constantI S_ 32 100000#32),
    StableHlo.TRef.unary (.of main_call0_c_1 : StableHlo.TRef sig ⟨S_, .i32⟩) (.of main_call0_v16 : StableHlo.TRef sig ⟨S3300000, .i32⟩) (broadcastInDim S3300000 ![] bcast_S_S3300000),
    StableHlo.TRef.binary (.of main_call0_v3 : StableHlo.TRef sig ⟨S3300000, .i32⟩) (.of main_call0_v16 : StableHlo.TRef sig ⟨S3300000, .i32⟩) (.of main_call0_v17 : StableHlo.TRef sig ⟨S3300000, .i32⟩) addi,
    StableHlo.TRef.ternary (.of main_call0_v15 : StableHlo.TRef sig ⟨S3300000, .i1⟩) (.of main_call0_v17 : StableHlo.TRef sig ⟨S3300000, .i32⟩) (.of main_call0_v3 : StableHlo.TRef sig ⟨S3300000, .i32⟩) (.of main_call0_v18 : StableHlo.TRef sig ⟨S3300000, .i32⟩) select,
    StableHlo.TRef.unary (.of main_call0_v18 : StableHlo.TRef sig ⟨S3300000, .i32⟩) (.of main_call0_v19 : StableHlo.TRef sig ⟨S3300000x1, .i32⟩) (broadcastInDim S3300000x1 ![0] bcast_S3300000_S3300000x1_0),
    StableHlo.TRef.binary (.of main_call0_v13 : StableHlo.TRef sig ⟨S100000x64, .f32⟩) (.of main_call0_v19 : StableHlo.TRef sig ⟨S3300000x1, .i32⟩) (.of main_call0_v20 : StableHlo.TRef sig ⟨S3300000x64, .f32⟩) (fun x i => Host.gather gather_S100000x64_S3300000x1_S3300000x64_1_0_n_n_0_1_164 x i),
    StableHlo.TRef.nullary (.of main_call0_cst_2 : StableHlo.TRef sig ⟨S_, .f32⟩) (constant S_ .f32 0x00000000#32),
    StableHlo.TRef.unary (.of main_call0_cst_2 : StableHlo.TRef sig ⟨S_, .f32⟩) (.of main_call0_v21 : StableHlo.TRef sig ⟨S100000x64, .f32⟩) (broadcastInDim S100000x64 ![] bcast_S_S100000x64),
    StableHlo.TRef.unary (.of main_call0_v6 : StableHlo.TRef sig ⟨S3300000, .i32⟩) (.of main_call0_v22 : StableHlo.TRef sig ⟨S3300000x1, .i32⟩) (broadcastInDim S3300000x1 ![0] bcast_S3300000_S3300000x1_0),
    StableHlo.TRef.ternary (.of main_call0_v21 : StableHlo.TRef sig ⟨S100000x64, .f32⟩) (.of main_call0_v22 : StableHlo.TRef sig ⟨S3300000x1, .i32⟩) (.of main_call0_v20 : StableHlo.TRef sig ⟨S3300000x64, .f32⟩) (.of main_call0_v23 : StableHlo.TRef sig ⟨S100000x64, .f32⟩) (fun x i u => Host.scatterAdd scatter_S100000x64_S3300000x1_S3300000x64_1_0_0_1 x i u),
    StableHlo.TRef.unary (.of main_call0_v12 : StableHlo.TRef sig ⟨S100000x1, .f32⟩) (.of main_call0_v24 : StableHlo.TRef sig ⟨S100000x64, .f32⟩) (broadcastInDim S100000x64 ![0, 1] bcast_S100000x1_S100000x64_0_1),
    StableHlo.TRef.binary (.of main_call0_v23 : StableHlo.TRef sig ⟨S100000x64, .f32⟩) (.of main_call0_v24 : StableHlo.TRef sig ⟨S100000x64, .f32⟩) (.of main_call0_v25 : StableHlo.TRef sig ⟨S100000x64, .f32⟩) mulf,
    StableHlo.TRef.unary (.of main_arg4 : StableHlo.TRef sig ⟨S64, .f32⟩) (.of main_call0_v26 : StableHlo.TRef sig ⟨S1x64, .f32⟩) (broadcastInDim S1x64 ![1] bcast_S64_S1x64_1),
    StableHlo.TRef.unary (.of main_call0_v26 : StableHlo.TRef sig ⟨S1x64, .f32⟩) (.of main_call0_v27 : StableHlo.TRef sig ⟨S100000x64, .f32⟩) (broadcastInDim S100000x64 ![0, 1] bcast_S1x64_S100000x64_0_1),
    StableHlo.TRef.binary (.of main_call0_v25 : StableHlo.TRef sig ⟨S100000x64, .f32⟩) (.of main_call0_v27 : StableHlo.TRef sig ⟨S100000x64, .f32⟩) (.of main_call0_v28 : StableHlo.TRef sig ⟨S100000x64, .f32⟩) addf,
    StableHlo.TRef.nullary (.of main_call0_cst_3 : StableHlo.TRef sig ⟨S_, .f32⟩) (constant S_ .f32 0x3C23D70A#32),
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S100000x64, .f32⟩) (broadcastInDim S100000x64 ![] bcast_S_S100000x64),
    StableHlo.TRef.binary (.of main_call0_v28 : StableHlo.TRef sig ⟨S100000x64, .f32⟩) (.of main_call0_call0_v0 : StableHlo.TRef sig ⟨S100000x64, .f32⟩) (.of main_call0_call0_v1 : StableHlo.TRef sig ⟨S100000x64, .i1⟩) (cmpf .oge),
    StableHlo.TRef.unary (.of main_call0_cst_3 : StableHlo.TRef sig ⟨S_, .f32⟩) (.of main_call0_call0_v2 : StableHlo.TRef sig ⟨S_, .f32⟩) id,
    StableHlo.TRef.unary (.of main_call0_call0_v2 : StableHlo.TRef sig ⟨S_, .f32⟩) (.of main_call0_call0_v3 : StableHlo.TRef sig ⟨S100000x64, .f32⟩) (broadcastInDim S100000x64 ![] bcast_S_S100000x64),
    StableHlo.TRef.binary (.of main_call0_call0_v3 : StableHlo.TRef sig ⟨S100000x64, .f32⟩) (.of main_call0_v28 : StableHlo.TRef sig ⟨S100000x64, .f32⟩) (.of main_call0_call0_v4 : StableHlo.TRef sig ⟨S100000x64, .f32⟩) mulf,
    StableHlo.TRef.ternary (.of main_call0_call0_v1 : StableHlo.TRef sig ⟨S100000x64, .i1⟩) (.of main_call0_v28 : StableHlo.TRef sig ⟨S100000x64, .f32⟩) (.of main_call0_call0_v4 : StableHlo.TRef sig ⟨S100000x64, .f32⟩) (.of main_call0_v29 : StableHlo.TRef sig ⟨S100000x64, .f32⟩) select ]

/-- Layer 2: the dense transform of `main_call0_v29`, its scaling, the edge sum, and the activations `main_call0_v48`. -/
abbrev kseg2 : List (HloOp τ sig (Elt F)) :=
  [ StableHlo.TRef.binary main_call0_call0.call0.v0 (.of main_arg5 : StableHlo.TRef sig ⟨S64x4, .f32⟩) (.of main_call0_v30 : StableHlo.TRef sig ⟨S100000x4, .f32⟩) (fun l r => Host.dotGeneral dot_S100000x64_S64x4_S100000x4_1_0_0_1_n_n none l r),
    StableHlo.TRef.unary (.of main_call0_v12 : StableHlo.TRef sig ⟨S100000x1, .f32⟩) (.of main_call0_v31 : StableHlo.TRef sig ⟨S100000x4, .f32⟩) (broadcastInDim S100000x4 ![0, 1] bcast_S100000x1_S100000x4_0_1),
    StableHlo.TRef.binary (.of main_call0_v30 : StableHlo.TRef sig ⟨S100000x4, .f32⟩) (.of main_call0_v31 : StableHlo.TRef sig ⟨S100000x4, .f32⟩) (.of main_call0_v32 : StableHlo.TRef sig ⟨S100000x4, .f32⟩) mulf,
    StableHlo.TRef.nullary (.of main_call0_c_4 : StableHlo.TRef sig ⟨S_, .i32⟩) (constantI S_ 32 0#32),
    StableHlo.TRef.unary (.of main_call0_c_4 : StableHlo.TRef sig ⟨S_, .i32⟩) (.of main_call0_v33 : StableHlo.TRef sig ⟨S3300000, .i32⟩) (broadcastInDim S3300000 ![] bcast_S_S3300000),
    StableHlo.TRef.binary (.of main_call0_v3 : StableHlo.TRef sig ⟨S3300000, .i32⟩) (.of main_call0_v33 : StableHlo.TRef sig ⟨S3300000, .i32⟩) (.of main_call0_v34 : StableHlo.TRef sig ⟨S3300000, .i1⟩) (cmpi .slt),
    StableHlo.TRef.nullary (.of main_call0_c_5 : StableHlo.TRef sig ⟨S_, .i32⟩) (constantI S_ 32 100000#32),
    StableHlo.TRef.unary (.of main_call0_c_5 : StableHlo.TRef sig ⟨S_, .i32⟩) (.of main_call0_v35 : StableHlo.TRef sig ⟨S3300000, .i32⟩) (broadcastInDim S3300000 ![] bcast_S_S3300000),
    StableHlo.TRef.binary (.of main_call0_v3 : StableHlo.TRef sig ⟨S3300000, .i32⟩) (.of main_call0_v35 : StableHlo.TRef sig ⟨S3300000, .i32⟩) (.of main_call0_v36 : StableHlo.TRef sig ⟨S3300000, .i32⟩) addi,
    StableHlo.TRef.ternary (.of main_call0_v34 : StableHlo.TRef sig ⟨S3300000, .i1⟩) (.of main_call0_v36 : StableHlo.TRef sig ⟨S3300000, .i32⟩) (.of main_call0_v3 : StableHlo.TRef sig ⟨S3300000, .i32⟩) (.of main_call0_v37 : StableHlo.TRef sig ⟨S3300000, .i32⟩) select,
    StableHlo.TRef.unary (.of main_call0_v37 : StableHlo.TRef sig ⟨S3300000, .i32⟩) (.of main_call0_v38 : StableHlo.TRef sig ⟨S3300000x1, .i32⟩) (broadcastInDim S3300000x1 ![0] bcast_S3300000_S3300000x1_0),
    StableHlo.TRef.binary (.of main_call0_v32 : StableHlo.TRef sig ⟨S100000x4, .f32⟩) (.of main_call0_v38 : StableHlo.TRef sig ⟨S3300000x1, .i32⟩) (.of main_call0_v39 : StableHlo.TRef sig ⟨S3300000x4, .f32⟩) (fun x i => Host.gather gather_S100000x4_S3300000x1_S3300000x4_1_0_n_n_0_1_14 x i),
    StableHlo.TRef.nullary (.of main_call0_cst_6 : StableHlo.TRef sig ⟨S_, .f32⟩) (constant S_ .f32 0x00000000#32),
    StableHlo.TRef.unary (.of main_call0_cst_6 : StableHlo.TRef sig ⟨S_, .f32⟩) (.of main_call0_v40 : StableHlo.TRef sig ⟨S100000x4, .f32⟩) (broadcastInDim S100000x4 ![] bcast_S_S100000x4),
    StableHlo.TRef.unary (.of main_call0_v6 : StableHlo.TRef sig ⟨S3300000, .i32⟩) (.of main_call0_v41 : StableHlo.TRef sig ⟨S3300000x1, .i32⟩) (broadcastInDim S3300000x1 ![0] bcast_S3300000_S3300000x1_0),
    StableHlo.TRef.ternary (.of main_call0_v40 : StableHlo.TRef sig ⟨S100000x4, .f32⟩) (.of main_call0_v41 : StableHlo.TRef sig ⟨S3300000x1, .i32⟩) (.of main_call0_v39 : StableHlo.TRef sig ⟨S3300000x4, .f32⟩) (.of main_call0_v42 : StableHlo.TRef sig ⟨S100000x4, .f32⟩) (fun x i u => Host.scatterAdd scatter_S100000x4_S3300000x1_S3300000x4_1_0_0_1 x i u),
    StableHlo.TRef.unary (.of main_call0_v12 : StableHlo.TRef sig ⟨S100000x1, .f32⟩) (.of main_call0_v43 : StableHlo.TRef sig ⟨S100000x4, .f32⟩) (broadcastInDim S100000x4 ![0, 1] bcast_S100000x1_S100000x4_0_1),
    StableHlo.TRef.binary (.of main_call0_v42 : StableHlo.TRef sig ⟨S100000x4, .f32⟩) (.of main_call0_v43 : StableHlo.TRef sig ⟨S100000x4, .f32⟩) (.of main_call0_v44 : StableHlo.TRef sig ⟨S100000x4, .f32⟩) mulf,
    StableHlo.TRef.unary (.of main_arg6 : StableHlo.TRef sig ⟨S4, .f32⟩) (.of main_call0_v45 : StableHlo.TRef sig ⟨S1x4, .f32⟩) (broadcastInDim S1x4 ![1] bcast_S4_S1x4_1),
    StableHlo.TRef.unary (.of main_call0_v45 : StableHlo.TRef sig ⟨S1x4, .f32⟩) (.of main_call0_v46 : StableHlo.TRef sig ⟨S100000x4, .f32⟩) (broadcastInDim S100000x4 ![0, 1] bcast_S1x4_S100000x4_0_1),
    StableHlo.TRef.binary (.of main_call0_v44 : StableHlo.TRef sig ⟨S100000x4, .f32⟩) (.of main_call0_v46 : StableHlo.TRef sig ⟨S100000x4, .f32⟩) (.of main_call0_v47 : StableHlo.TRef sig ⟨S100000x4, .f32⟩) addf,
    StableHlo.TRef.nullary (.of main_call0_cst_7 : StableHlo.TRef sig ⟨S_, .f32⟩) (constant S_ .f32 0x3C23D70A#32),
    StableHlo.TRef.nullary (.of main_call0_call1_cst : StableHlo.TRef sig ⟨S_, .f32⟩) (constant S_ .f32 0x00000000#32),
    StableHlo.TRef.unary (.of main_call0_call1_cst : StableHlo.TRef sig ⟨S_, .f32⟩) (.of main_call0_call1_v0 : StableHlo.TRef sig ⟨S100000x4, .f32⟩) (broadcastInDim S100000x4 ![] bcast_S_S100000x4),
    StableHlo.TRef.binary (.of main_call0_v47 : StableHlo.TRef sig ⟨S100000x4, .f32⟩) (.of main_call0_call1_v0 : StableHlo.TRef sig ⟨S100000x4, .f32⟩) (.of main_call0_call1_v1 : StableHlo.TRef sig ⟨S100000x4, .i1⟩) (cmpf .oge),
    StableHlo.TRef.unary (.of main_call0_cst_7 : StableHlo.TRef sig ⟨S_, .f32⟩) (.of main_call0_call1_v2 : StableHlo.TRef sig ⟨S_, .f32⟩) id,
    StableHlo.TRef.unary (.of main_call0_call1_v2 : StableHlo.TRef sig ⟨S_, .f32⟩) (.of main_call0_call1_v3 : StableHlo.TRef sig ⟨S100000x4, .f32⟩) (broadcastInDim S100000x4 ![] bcast_S_S100000x4),
    StableHlo.TRef.binary (.of main_call0_call1_v3 : StableHlo.TRef sig ⟨S100000x4, .f32⟩) (.of main_call0_v47 : StableHlo.TRef sig ⟨S100000x4, .f32⟩) (.of main_call0_call1_v4 : StableHlo.TRef sig ⟨S100000x4, .f32⟩) mulf,
    StableHlo.TRef.ternary (.of main_call0_call1_v1 : StableHlo.TRef sig ⟨S100000x4, .i1⟩) (.of main_call0_v47 : StableHlo.TRef sig ⟨S100000x4, .f32⟩) (.of main_call0_call1_v4 : StableHlo.TRef sig ⟨S100000x4, .f32⟩) (.of main_call0_v48 : StableHlo.TRef sig ⟨S100000x4, .f32⟩) select ]

/-- Layer 3, ending with the activations `main_call0_v67`. -/
abbrev kseg3 : List (HloOp τ sig (Elt F)) :=
  [ StableHlo.TRef.binary main_call0_call1.call0.v0 (.of main_arg7 : StableHlo.TRef sig ⟨S4x2, .f32⟩) (.of main_call0_v49 : StableHlo.TRef sig ⟨S100000x2, .f32⟩) (fun l r => Host.dotGeneral dot_S100000x4_S4x2_S100000x2_1_0_0_1_n_n none l r),
    StableHlo.TRef.unary (.of main_call0_v12 : StableHlo.TRef sig ⟨S100000x1, .f32⟩) (.of main_call0_v50 : StableHlo.TRef sig ⟨S100000x2, .f32⟩) (broadcastInDim S100000x2 ![0, 1] bcast_S100000x1_S100000x2_0_1),
    StableHlo.TRef.binary (.of main_call0_v49 : StableHlo.TRef sig ⟨S100000x2, .f32⟩) (.of main_call0_v50 : StableHlo.TRef sig ⟨S100000x2, .f32⟩) (.of main_call0_v51 : StableHlo.TRef sig ⟨S100000x2, .f32⟩) mulf,
    StableHlo.TRef.nullary (.of main_call0_c_8 : StableHlo.TRef sig ⟨S_, .i32⟩) (constantI S_ 32 0#32),
    StableHlo.TRef.unary (.of main_call0_c_8 : StableHlo.TRef sig ⟨S_, .i32⟩) (.of main_call0_v52 : StableHlo.TRef sig ⟨S3300000, .i32⟩) (broadcastInDim S3300000 ![] bcast_S_S3300000),
    StableHlo.TRef.binary (.of main_call0_v3 : StableHlo.TRef sig ⟨S3300000, .i32⟩) (.of main_call0_v52 : StableHlo.TRef sig ⟨S3300000, .i32⟩) (.of main_call0_v53 : StableHlo.TRef sig ⟨S3300000, .i1⟩) (cmpi .slt),
    StableHlo.TRef.nullary (.of main_call0_c_9 : StableHlo.TRef sig ⟨S_, .i32⟩) (constantI S_ 32 100000#32),
    StableHlo.TRef.unary (.of main_call0_c_9 : StableHlo.TRef sig ⟨S_, .i32⟩) (.of main_call0_v54 : StableHlo.TRef sig ⟨S3300000, .i32⟩) (broadcastInDim S3300000 ![] bcast_S_S3300000),
    StableHlo.TRef.binary (.of main_call0_v3 : StableHlo.TRef sig ⟨S3300000, .i32⟩) (.of main_call0_v54 : StableHlo.TRef sig ⟨S3300000, .i32⟩) (.of main_call0_v55 : StableHlo.TRef sig ⟨S3300000, .i32⟩) addi,
    StableHlo.TRef.ternary (.of main_call0_v53 : StableHlo.TRef sig ⟨S3300000, .i1⟩) (.of main_call0_v55 : StableHlo.TRef sig ⟨S3300000, .i32⟩) (.of main_call0_v3 : StableHlo.TRef sig ⟨S3300000, .i32⟩) (.of main_call0_v56 : StableHlo.TRef sig ⟨S3300000, .i32⟩) select,
    StableHlo.TRef.unary (.of main_call0_v56 : StableHlo.TRef sig ⟨S3300000, .i32⟩) (.of main_call0_v57 : StableHlo.TRef sig ⟨S3300000x1, .i32⟩) (broadcastInDim S3300000x1 ![0] bcast_S3300000_S3300000x1_0),
    StableHlo.TRef.binary (.of main_call0_v51 : StableHlo.TRef sig ⟨S100000x2, .f32⟩) (.of main_call0_v57 : StableHlo.TRef sig ⟨S3300000x1, .i32⟩) (.of main_call0_v58 : StableHlo.TRef sig ⟨S3300000x2, .f32⟩) (fun x i => Host.gather gather_S100000x2_S3300000x1_S3300000x2_1_0_n_n_0_1_12 x i),
    StableHlo.TRef.nullary (.of main_call0_cst_10 : StableHlo.TRef sig ⟨S_, .f32⟩) (constant S_ .f32 0x00000000#32),
    StableHlo.TRef.unary (.of main_call0_cst_10 : StableHlo.TRef sig ⟨S_, .f32⟩) (.of main_call0_v59 : StableHlo.TRef sig ⟨S100000x2, .f32⟩) (broadcastInDim S100000x2 ![] bcast_S_S100000x2),
    StableHlo.TRef.unary (.of main_call0_v6 : StableHlo.TRef sig ⟨S3300000, .i32⟩) (.of main_call0_v60 : StableHlo.TRef sig ⟨S3300000x1, .i32⟩) (broadcastInDim S3300000x1 ![0] bcast_S3300000_S3300000x1_0),
    StableHlo.TRef.ternary (.of main_call0_v59 : StableHlo.TRef sig ⟨S100000x2, .f32⟩) (.of main_call0_v60 : StableHlo.TRef sig ⟨S3300000x1, .i32⟩) (.of main_call0_v58 : StableHlo.TRef sig ⟨S3300000x2, .f32⟩) (.of main_call0_v61 : StableHlo.TRef sig ⟨S100000x2, .f32⟩) (fun x i u => Host.scatterAdd scatter_S100000x2_S3300000x1_S3300000x2_1_0_0_1 x i u),
    StableHlo.TRef.unary (.of main_call0_v12 : StableHlo.TRef sig ⟨S100000x1, .f32⟩) (.of main_call0_v62 : StableHlo.TRef sig ⟨S100000x2, .f32⟩) (broadcastInDim S100000x2 ![0, 1] bcast_S100000x1_S100000x2_0_1),
    StableHlo.TRef.binary (.of main_call0_v61 : StableHlo.TRef sig ⟨S100000x2, .f32⟩) (.of main_call0_v62 : StableHlo.TRef sig ⟨S100000x2, .f32⟩) (.of main_call0_v63 : StableHlo.TRef sig ⟨S100000x2, .f32⟩) mulf,
    StableHlo.TRef.unary (.of main_arg8 : StableHlo.TRef sig ⟨S2, .f32⟩) (.of main_call0_v64 : StableHlo.TRef sig ⟨S1x2, .f32⟩) (broadcastInDim S1x2 ![1] bcast_S2_S1x2_1),
    StableHlo.TRef.unary (.of main_call0_v64 : StableHlo.TRef sig ⟨S1x2, .f32⟩) (.of main_call0_v65 : StableHlo.TRef sig ⟨S100000x2, .f32⟩) (broadcastInDim S100000x2 ![0, 1] bcast_S1x2_S100000x2_0_1),
    StableHlo.TRef.binary (.of main_call0_v63 : StableHlo.TRef sig ⟨S100000x2, .f32⟩) (.of main_call0_v65 : StableHlo.TRef sig ⟨S100000x2, .f32⟩) (.of main_call0_v66 : StableHlo.TRef sig ⟨S100000x2, .f32⟩) addf,
    StableHlo.TRef.nullary (.of main_call0_cst_11 : StableHlo.TRef sig ⟨S_, .f32⟩) (constant S_ .f32 0x3C23D70A#32),
    StableHlo.TRef.nullary (.of main_call0_call2_cst : StableHlo.TRef sig ⟨S_, .f32⟩) (constant S_ .f32 0x00000000#32),
    StableHlo.TRef.unary (.of main_call0_call2_cst : StableHlo.TRef sig ⟨S_, .f32⟩) (.of main_call0_call2_v0 : StableHlo.TRef sig ⟨S100000x2, .f32⟩) (broadcastInDim S100000x2 ![] bcast_S_S100000x2),
    StableHlo.TRef.binary (.of main_call0_v66 : StableHlo.TRef sig ⟨S100000x2, .f32⟩) (.of main_call0_call2_v0 : StableHlo.TRef sig ⟨S100000x2, .f32⟩) (.of main_call0_call2_v1 : StableHlo.TRef sig ⟨S100000x2, .i1⟩) (cmpf .oge),
    StableHlo.TRef.unary (.of main_call0_cst_11 : StableHlo.TRef sig ⟨S_, .f32⟩) (.of main_call0_call2_v2 : StableHlo.TRef sig ⟨S_, .f32⟩) id,
    StableHlo.TRef.unary (.of main_call0_call2_v2 : StableHlo.TRef sig ⟨S_, .f32⟩) (.of main_call0_call2_v3 : StableHlo.TRef sig ⟨S100000x2, .f32⟩) (broadcastInDim S100000x2 ![] bcast_S_S100000x2),
    StableHlo.TRef.binary (.of main_call0_call2_v3 : StableHlo.TRef sig ⟨S100000x2, .f32⟩) (.of main_call0_v66 : StableHlo.TRef sig ⟨S100000x2, .f32⟩) (.of main_call0_call2_v4 : StableHlo.TRef sig ⟨S100000x2, .f32⟩) mulf,
    StableHlo.TRef.ternary (.of main_call0_call2_v1 : StableHlo.TRef sig ⟨S100000x2, .i1⟩) (.of main_call0_v66 : StableHlo.TRef sig ⟨S100000x2, .f32⟩) (.of main_call0_call2_v4 : StableHlo.TRef sig ⟨S100000x2, .f32⟩) (.of main_call0_v67 : StableHlo.TRef sig ⟨S100000x2, .f32⟩) select ]

/-- Layer 4 (one channel), ending with the activations `main_call0_v84`. -/
abbrev kseg4 : List (HloOp τ sig (Elt F)) :=
  [ StableHlo.TRef.binary main_call0_call2.call0.v0 (.of main_arg9 : StableHlo.TRef sig ⟨S2x1, .f32⟩) (.of main_call0_v68 : StableHlo.TRef sig ⟨S100000x1, .f32⟩) (fun l r => Host.dotGeneral dot_S100000x2_S2x1_S100000x1_1_0_0_1_n_n none l r),
    StableHlo.TRef.binary (.of main_call0_v68 : StableHlo.TRef sig ⟨S100000x1, .f32⟩) (.of main_call0_v12 : StableHlo.TRef sig ⟨S100000x1, .f32⟩) (.of main_call0_v69 : StableHlo.TRef sig ⟨S100000x1, .f32⟩) mulf,
    StableHlo.TRef.nullary (.of main_call0_c_12 : StableHlo.TRef sig ⟨S_, .i32⟩) (constantI S_ 32 0#32),
    StableHlo.TRef.unary (.of main_call0_c_12 : StableHlo.TRef sig ⟨S_, .i32⟩) (.of main_call0_v70 : StableHlo.TRef sig ⟨S3300000, .i32⟩) (broadcastInDim S3300000 ![] bcast_S_S3300000),
    StableHlo.TRef.binary (.of main_call0_v3 : StableHlo.TRef sig ⟨S3300000, .i32⟩) (.of main_call0_v70 : StableHlo.TRef sig ⟨S3300000, .i32⟩) (.of main_call0_v71 : StableHlo.TRef sig ⟨S3300000, .i1⟩) (cmpi .slt),
    StableHlo.TRef.nullary (.of main_call0_c_13 : StableHlo.TRef sig ⟨S_, .i32⟩) (constantI S_ 32 100000#32),
    StableHlo.TRef.unary (.of main_call0_c_13 : StableHlo.TRef sig ⟨S_, .i32⟩) (.of main_call0_v72 : StableHlo.TRef sig ⟨S3300000, .i32⟩) (broadcastInDim S3300000 ![] bcast_S_S3300000),
    StableHlo.TRef.binary (.of main_call0_v3 : StableHlo.TRef sig ⟨S3300000, .i32⟩) (.of main_call0_v72 : StableHlo.TRef sig ⟨S3300000, .i32⟩) (.of main_call0_v73 : StableHlo.TRef sig ⟨S3300000, .i32⟩) addi,
    StableHlo.TRef.ternary (.of main_call0_v71 : StableHlo.TRef sig ⟨S3300000, .i1⟩) (.of main_call0_v73 : StableHlo.TRef sig ⟨S3300000, .i32⟩) (.of main_call0_v3 : StableHlo.TRef sig ⟨S3300000, .i32⟩) (.of main_call0_v74 : StableHlo.TRef sig ⟨S3300000, .i32⟩) select,
    StableHlo.TRef.unary (.of main_call0_v74 : StableHlo.TRef sig ⟨S3300000, .i32⟩) (.of main_call0_v75 : StableHlo.TRef sig ⟨S3300000x1, .i32⟩) (broadcastInDim S3300000x1 ![0] bcast_S3300000_S3300000x1_0),
    StableHlo.TRef.binary (.of main_call0_v69 : StableHlo.TRef sig ⟨S100000x1, .f32⟩) (.of main_call0_v75 : StableHlo.TRef sig ⟨S3300000x1, .i32⟩) (.of main_call0_v76 : StableHlo.TRef sig ⟨S3300000x1, .f32⟩) (fun x i => Host.gather gather_S100000x1_S3300000x1_S3300000x1_1_0_n_n_0_1_11 x i),
    StableHlo.TRef.nullary (.of main_call0_cst_14 : StableHlo.TRef sig ⟨S_, .f32⟩) (constant S_ .f32 0x00000000#32),
    StableHlo.TRef.unary (.of main_call0_cst_14 : StableHlo.TRef sig ⟨S_, .f32⟩) (.of main_call0_v77 : StableHlo.TRef sig ⟨S100000x1, .f32⟩) (broadcastInDim S100000x1 ![] bcast_S_S100000x1),
    StableHlo.TRef.unary (.of main_call0_v6 : StableHlo.TRef sig ⟨S3300000, .i32⟩) (.of main_call0_v78 : StableHlo.TRef sig ⟨S3300000x1, .i32⟩) (broadcastInDim S3300000x1 ![0] bcast_S3300000_S3300000x1_0),
    StableHlo.TRef.ternary (.of main_call0_v77 : StableHlo.TRef sig ⟨S100000x1, .f32⟩) (.of main_call0_v78 : StableHlo.TRef sig ⟨S3300000x1, .i32⟩) (.of main_call0_v76 : StableHlo.TRef sig ⟨S3300000x1, .f32⟩) (.of main_call0_v79 : StableHlo.TRef sig ⟨S100000x1, .f32⟩) (fun x i u => Host.scatterAdd scatter_S100000x1_S3300000x1_S3300000x1_1_0_0_1 x i u),
    StableHlo.TRef.binary (.of main_call0_v79 : StableHlo.TRef sig ⟨S100000x1, .f32⟩) (.of main_call0_v12 : StableHlo.TRef sig ⟨S100000x1, .f32⟩) (.of main_call0_v80 : StableHlo.TRef sig ⟨S100000x1, .f32⟩) mulf,
    StableHlo.TRef.unary (.of main_arg10 : StableHlo.TRef sig ⟨S1, .f32⟩) (.of main_call0_v81 : StableHlo.TRef sig ⟨S1x1, .f32⟩) (broadcastInDim S1x1 ![1] bcast_S1_S1x1_1),
    StableHlo.TRef.unary (.of main_call0_v81 : StableHlo.TRef sig ⟨S1x1, .f32⟩) (.of main_call0_v82 : StableHlo.TRef sig ⟨S100000x1, .f32⟩) (broadcastInDim S100000x1 ![0, 1] bcast_S1x1_S100000x1_0_1),
    StableHlo.TRef.binary (.of main_call0_v80 : StableHlo.TRef sig ⟨S100000x1, .f32⟩) (.of main_call0_v82 : StableHlo.TRef sig ⟨S100000x1, .f32⟩) (.of main_call0_v83 : StableHlo.TRef sig ⟨S100000x1, .f32⟩) addf,
    StableHlo.TRef.nullary (.of main_call0_cst_15 : StableHlo.TRef sig ⟨S_, .f32⟩) (constant S_ .f32 0x3C23D70A#32),
    StableHlo.TRef.nullary (.of main_call0_call3_cst : StableHlo.TRef sig ⟨S_, .f32⟩) (constant S_ .f32 0x00000000#32),
    StableHlo.TRef.unary (.of main_call0_call3_cst : StableHlo.TRef sig ⟨S_, .f32⟩) (.of main_call0_call3_v0 : StableHlo.TRef sig ⟨S100000x1, .f32⟩) (broadcastInDim S100000x1 ![] bcast_S_S100000x1),
    StableHlo.TRef.binary (.of main_call0_v83 : StableHlo.TRef sig ⟨S100000x1, .f32⟩) (.of main_call0_call3_v0 : StableHlo.TRef sig ⟨S100000x1, .f32⟩) (.of main_call0_call3_v1 : StableHlo.TRef sig ⟨S100000x1, .i1⟩) (cmpf .oge),
    StableHlo.TRef.unary (.of main_call0_cst_15 : StableHlo.TRef sig ⟨S_, .f32⟩) (.of main_call0_call3_v2 : StableHlo.TRef sig ⟨S_, .f32⟩) id,
    StableHlo.TRef.unary (.of main_call0_call3_v2 : StableHlo.TRef sig ⟨S_, .f32⟩) (.of main_call0_call3_v3 : StableHlo.TRef sig ⟨S100000x1, .f32⟩) (broadcastInDim S100000x1 ![] bcast_S_S100000x1),
    StableHlo.TRef.binary (.of main_call0_call3_v3 : StableHlo.TRef sig ⟨S100000x1, .f32⟩) (.of main_call0_v83 : StableHlo.TRef sig ⟨S100000x1, .f32⟩) (.of main_call0_call3_v4 : StableHlo.TRef sig ⟨S100000x1, .f32⟩) mulf,
    StableHlo.TRef.ternary (.of main_call0_call3_v1 : StableHlo.TRef sig ⟨S100000x1, .i1⟩) (.of main_call0_v83 : StableHlo.TRef sig ⟨S100000x1, .f32⟩) (.of main_call0_call3_v4 : StableHlo.TRef sig ⟨S100000x1, .f32⟩) (.of main_call0_v84 : StableHlo.TRef sig ⟨S100000x1, .f32⟩) select ]

/-- The per-graph mean of the last activations, the output transform and the logistic function: the result `main_v0`. -/
abbrev kseg5 : List (HloOp τ sig (Elt F)) :=
  [ StableHlo.TRef.nullary (.of main_call0_cst_16 : StableHlo.TRef sig ⟨S_, .f32⟩) (constant S_ .f32 0x00000000#32),
    StableHlo.TRef.unary (.of main_call0_cst_16 : StableHlo.TRef sig ⟨S_, .f32⟩) (.of main_call0_v85 : StableHlo.TRef sig ⟨S512x1, .f32⟩) (broadcastInDim S512x1 ![] bcast_S_S512x1),
    StableHlo.TRef.unary (.of main_arg2 : StableHlo.TRef sig ⟨S100000, .i32⟩) (.of main_call0_v86 : StableHlo.TRef sig ⟨S100000x1, .i32⟩) (broadcastInDim S100000x1 ![0] bcast_S100000_S100000x1_0),
    StableHlo.TRef.ternary (.of main_call0_v85 : StableHlo.TRef sig ⟨S512x1, .f32⟩) (.of main_call0_v86 : StableHlo.TRef sig ⟨S100000x1, .i32⟩) main_call0_call3.call0.v0 (.of main_call0_v87 : StableHlo.TRef sig ⟨S512x1, .f32⟩) (fun x i u => Host.scatterAdd scatter_S512x1_S100000x1_S100000x1_1_0_0_1 x i u),
    StableHlo.TRef.nullary (.of main_call0_cst_17 : StableHlo.TRef sig ⟨S_, .f32⟩) (constant S_ .f32 0x3F800000#32),
    StableHlo.TRef.unary (.of main_call0_cst_17 : StableHlo.TRef sig ⟨S_, .f32⟩) (.of main_call0_v88 : StableHlo.TRef sig ⟨S100000, .f32⟩) (broadcastInDim S100000 ![] bcast_S_S100000),
    StableHlo.TRef.nullary (.of main_call0_cst_18 : StableHlo.TRef sig ⟨S_, .f32⟩) (constant S_ .f32 0x00000000#32),
    StableHlo.TRef.unary (.of main_call0_cst_18 : StableHlo.TRef sig ⟨S_, .f32⟩) (.of main_call0_v89 : StableHlo.TRef sig ⟨S512, .f32⟩) (broadcastInDim S512 ![] bcast_S_S512),
    StableHlo.TRef.unary (.of main_arg2 : StableHlo.TRef sig ⟨S100000, .i32⟩) (.of main_call0_v90 : StableHlo.TRef sig ⟨S100000x1, .i32⟩) (broadcastInDim S100000x1 ![0] bcast_S100000_S100000x1_0),
    StableHlo.TRef.ternary (.of main_call0_v89 : StableHlo.TRef sig ⟨S512, .f32⟩) (.of main_call0_v90 : StableHlo.TRef sig ⟨S100000x1, .i32⟩) (.of main_call0_v88 : StableHlo.TRef sig ⟨S100000, .f32⟩) (.of main_call0_v91 : StableHlo.TRef sig ⟨S512, .f32⟩) (fun x i u => Host.scatterAdd scatter_S512_S100000x1_S100000_n_0_0_1 x i u),
    StableHlo.TRef.nullary (.of main_call0_cst_19 : StableHlo.TRef sig ⟨S_, .f32⟩) (constant S_ .f32 0x3F800000#32),
    StableHlo.TRef.unary (.of main_call0_cst_19 : StableHlo.TRef sig ⟨S_, .f32⟩) (.of main_call0_v92 : StableHlo.TRef sig ⟨S512, .f32⟩) (broadcastInDim S512 ![] bcast_S_S512),
    StableHlo.TRef.binary (.of main_call0_v91 : StableHlo.TRef sig ⟨S512, .f32⟩) (.of main_call0_v92 : StableHlo.TRef sig ⟨S512, .f32⟩) (.of main_call0_v93 : StableHlo.TRef sig ⟨S512, .f32⟩) maximumf,
    StableHlo.TRef.unary (.of main_call0_v93 : StableHlo.TRef sig ⟨S512, .f32⟩) (.of main_call0_v94 : StableHlo.TRef sig ⟨S512x1, .f32⟩) (broadcastInDim S512x1 ![0] bcast_S512_S512x1_0),
    StableHlo.TRef.binary (.of main_call0_v87 : StableHlo.TRef sig ⟨S512x1, .f32⟩) (.of main_call0_v94 : StableHlo.TRef sig ⟨S512x1, .f32⟩) (.of main_call0_v95 : StableHlo.TRef sig ⟨S512x1, .f32⟩) Host.divf,
    StableHlo.TRef.binary (.of main_call0_v95 : StableHlo.TRef sig ⟨S512x1, .f32⟩) (.of main_arg11 : StableHlo.TRef sig ⟨S1x1, .f32⟩) (.of main_call0_v96 : StableHlo.TRef sig ⟨S512x1, .f32⟩) (fun l r => Host.dotGeneral dot_S512x1_S1x1_S512x1_1_0_0_1_n_n none l r),
    StableHlo.TRef.unary (.of main_arg12 : StableHlo.TRef sig ⟨S1, .f32⟩) (.of main_call0_v97 : StableHlo.TRef sig ⟨S1x1, .f32⟩) (broadcastInDim S1x1 ![1] bcast_S1_S1x1_1),
    StableHlo.TRef.unary (.of main_call0_v97 : StableHlo.TRef sig ⟨S1x1, .f32⟩) (.of main_call0_v98 : StableHlo.TRef sig ⟨S512x1, .f32⟩) (broadcastInDim S512x1 ![0, 1] bcast_S1x1_S512x1_0_1),
    StableHlo.TRef.binary (.of main_call0_v96 : StableHlo.TRef sig ⟨S512x1, .f32⟩) (.of main_call0_v98 : StableHlo.TRef sig ⟨S512x1, .f32⟩) (.of main_call0_v99 : StableHlo.TRef sig ⟨S512x1, .f32⟩) addf,
    StableHlo.TRef.unary (.of main_call0_v99 : StableHlo.TRef sig ⟨S512x1, .f32⟩) (.of main_call0_v100 : StableHlo.TRef sig ⟨S512x1, .f32⟩) Host.negf,
    StableHlo.TRef.unary (.of main_call0_v100 : StableHlo.TRef sig ⟨S512x1, .f32⟩) (.of main_call0_v101 : StableHlo.TRef sig ⟨S512x1, .f32⟩) Host.exp,
    StableHlo.TRef.nullary (.of main_call0_cst_20 : StableHlo.TRef sig ⟨S_, .f32⟩) (constant S_ .f32 0x3F800000#32),
    StableHlo.TRef.unary (.of main_call0_cst_20 : StableHlo.TRef sig ⟨S_, .f32⟩) (.of main_call0_v102 : StableHlo.TRef sig ⟨S512x1, .f32⟩) (broadcastInDim S512x1 ![] bcast_S_S512x1),
    StableHlo.TRef.binary (.of main_call0_v102 : StableHlo.TRef sig ⟨S512x1, .f32⟩) (.of main_call0_v101 : StableHlo.TRef sig ⟨S512x1, .f32⟩) (.of main_call0_v103 : StableHlo.TRef sig ⟨S512x1, .f32⟩) addf,
    StableHlo.TRef.nullary (.of main_call0_cst_21 : StableHlo.TRef sig ⟨S_, .f32⟩) (constant S_ .f32 0x3F800000#32),
    StableHlo.TRef.unary (.of main_call0_cst_21 : StableHlo.TRef sig ⟨S_, .f32⟩) (.of main_call0_v104 : StableHlo.TRef sig ⟨S512x1, .f32⟩) (broadcastInDim S512x1 ![] bcast_S_S512x1),
    StableHlo.TRef.binary (.of main_call0_v104 : StableHlo.TRef sig ⟨S512x1, .f32⟩) (.of main_call0_v103 : StableHlo.TRef sig ⟨S512x1, .f32⟩) (.of main_v0 : StableHlo.TRef sig ⟨S512x1, .f32⟩) Host.divf ]

set_option maxRecDepth 65536 in
set_option maxHeartbeats 4000000 in
/-- The line after the region is the five stages in order. -/
theorem hostOps1_eq : (hostOps1 : List (HloOp τ sig (Elt F))) = kseg1 ++ (kseg2 ++ (kseg3 ++ (kseg4 ++ kseg5))) := rfl

end Cert.KernelIdeal.KS

end
-- ==== Proof.KPlain.lean ====
/-
  The kernel program's host operations over the plain operation builders.

  A module-local function's operations are printed over TYPED references, whose builders move each operand's contents
  along the (trivial) equation "the buffer's type is the value's". Restated over the buffers themselves the same
  operations read back without that transport. Each list below is the corresponding printed list, operation for
  operation; the equations at the end say so, at every float instance.
-/
import proofs.«144057_j23888608100399_2_alg».proof.Proof.KSegs

noncomputable section

namespace Cert.KernelIdeal.KP

open Cert.KernelIdeal Cert.KernelIdeal.Gen Idealize.ShloMosaic Idealize.ShloMosaic.TcCoe Idealize.SL.Sem

variable {F : FTy → Type} [FloatOps F]

/-- The 15 operations before the region: the edge lists with self loops, the degree count, its inverse square root and that as a column. -/
abbrev pseg0 : List (HloOp τ sig (Elt F)) :=
  [ StableHlo.nullary main_call0_v0 ((iotaInDim S100000 32 0) : (⟨S100000, .i32⟩ : BufTy).Contents (Elt F)),
    StableHlo.unary main_arg1 main_call0_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_call0_v1 main_call0_v2 rfl shapeCasts_S1x3200000_S3200000,
    StableHlo.binary main_call0_v2 main_call0_v0 main_call0_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_call0_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_call0_v4 main_call0_v5 rfl shapeCasts_S1x3200000_S3200000,
    StableHlo.binary main_call0_v5 main_call0_v0 main_call0_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_call0_cst ((constant S_ .f32 0x3F800000#32) : (⟨S_, .f32⟩ : BufTy).Contents (Elt F)),
    StableHlo.unary main_call0_cst main_call0_v7 ((broadcastInDim S3300000 ![] bcast_S_S3300000) : (⟨S_, .f32⟩ : BufTy).Contents (Elt F) → (⟨S3300000, .f32⟩ : BufTy).Contents (Elt F)),
    StableHlo.nullary main_call0_cst_0 ((constant S_ .f32 0x00000000#32) : (⟨S_, .f32⟩ : BufTy).Contents (Elt F)),
    StableHlo.unary main_call0_cst_0 main_call0_v8 ((broadcastInDim S100000 ![] bcast_S_S100000) : (⟨S_, .f32⟩ : BufTy).Contents (Elt F) → (⟨S100000, .f32⟩ : BufTy).Contents (Elt F)),
    StableHlo.unary main_call0_v6 main_call0_v9 ((broadcastInDim S3300000x1 ![0] bcast_S3300000_S3300000x1_0) : (⟨S3300000, .i32⟩ : BufTy).Contents (Elt F) → (⟨S3300000x1, .i32⟩ : BufTy).Contents (Elt F)),
    StableHlo.ternary main_call0_v8 main_call0_v9 main_call0_v7 main_call0_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.unary main_call0_v10 main_call0_v11 (Host.rsqrt : (⟨S100000, .f32⟩ : BufTy).Contents (Elt F) → (⟨S100000, .f32⟩ : BufTy).Contents (Elt F)),
    StableHlo.unary main_call0_v11 main_call0_v12 ((broadcastInDim S100000x1 ![0] bcast_S100000_S100000x1_0) : (⟨S100000, .f32⟩ : BufTy).Contents (Elt F) → (⟨S100000x1, .f32⟩ : BufTy).Contents (Elt F)) ]

/-- Stage 1 of the tail, plain. -/
abbrev pseg1 : List (HloOp τ sig (Elt F)) :=
  [ StableHlo.nullary main_call0_c ((constantI S_ 32 0#32) : (⟨S_, .i32⟩ : BufTy).Contents (Elt F)),
    StableHlo.unary main_call0_c main_call0_v14 ((broadcastInDim S3300000 ![] bcast_S_S3300000) : (⟨S_, .i32⟩ : BufTy).Contents (Elt F) → (⟨S3300000, .i32⟩ : BufTy).Contents (Elt F)),
    StableHlo.binary main_call0_v3 main_call0_v14 main_call0_v15 ((cmpi .slt) : (⟨S3300000, .i32⟩ : BufTy).Contents (Elt F) → (⟨S3300000, .i32⟩ : BufTy).Contents (Elt F) → (⟨S3300000, .i1⟩ : BufTy).Contents (Elt F)),
    StableHlo.nullary main_call0_c_1 ((constantI S_ 32 100000#32) : (⟨S_, .i32⟩ : BufTy).Contents (Elt F)),
    StableHlo.unary main_call0_c_1 main_call0_v16 ((broadcastInDim S3300000 ![] bcast_S_S3300000) : (⟨S_, .i32⟩ : BufTy).Contents (Elt F) → (⟨S3300000, .i32⟩ : BufTy).Contents (Elt F)),
    StableHlo.binary main_call0_v3 main_call0_v16 main_call0_v17 (addi : (⟨S3300000, .i32⟩ : BufTy).Contents (Elt F) → (⟨S3300000, .i32⟩ : BufTy).Contents (Elt F) → (⟨S3300000, .i32⟩ : BufTy).Contents (Elt F)),
    StableHlo.ternary main_call0_v15 main_call0_v17 main_call0_v3 main_call0_v18 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_call0_v18 main_call0_v19 ((broadcastInDim S3300000x1 ![0] bcast_S3300000_S3300000x1_0) : (⟨S3300000, .i32⟩ : BufTy).Contents (Elt F) → (⟨S3300000x1, .i32⟩ : BufTy).Contents (Elt F)),
    StableHlo.binary main_call0_v13 main_call0_v19 main_call0_v20 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.nullary main_call0_cst_2 ((constant S_ .f32 0x00000000#32) : (⟨S_, .f32⟩ : BufTy).Contents (Elt F)),
    StableHlo.unary main_call0_cst_2 main_call0_v21 ((broadcastInDim S100000x64 ![] bcast_S_S100000x64) : (⟨S_, .f32⟩ : BufTy).Contents (Elt F) → (⟨S100000x64, .f32⟩ : BufTy).Contents (Elt F)),
    StableHlo.unary main_call0_v6 main_call0_v22 ((broadcastInDim S3300000x1 ![0] bcast_S3300000_S3300000x1_0) : (⟨S3300000, .i32⟩ : BufTy).Contents (Elt F) → (⟨S3300000x1, .i32⟩ : BufTy).Contents (Elt F)),
    StableHlo.ternary main_call0_v21 main_call0_v22 main_call0_v20 main_call0_v23 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_call0_v12 main_call0_v24 ((broadcastInDim S100000x64 ![0, 1] bcast_S100000x1_S100000x64_0_1) : (⟨S100000x1, .f32⟩ : BufTy).Contents (Elt F) → (⟨S100000x64, .f32⟩ : BufTy).Contents (Elt F)),
    StableHlo.binary main_call0_v23 main_call0_v24 main_call0_v25 (mulf : (⟨S100000x64, .f32⟩ : BufTy).Contents (Elt F) → (⟨S100000x64, .f32⟩ : BufTy).Contents (Elt F) → (⟨S100000x64, .f32⟩ : BufTy).Contents (Elt F)),
    StableHlo.unary main_arg4 main_call0_v26 ((broadcastInDim S1x64 ![1] bcast_S64_S1x64_1) : (⟨S64, .f32⟩ : BufTy).Contents (Elt F) → (⟨S1x64, .f32⟩ : BufTy).Contents (Elt F)),
    StableHlo.unary main_call0_v26 main_call0_v27 ((broadcastInDim S100000x64 ![0, 1] bcast_S1x64_S100000x64_0_1) : (⟨S1x64, .f32⟩ : BufTy).Contents (Elt F) → (⟨S100000x64, .f32⟩ : BufTy).Contents (Elt F)),
    StableHlo.binary main_call0_v25 main_call0_v27 main_call0_v28 (addf : (⟨S100000x64, .f32⟩ : BufTy).Contents (Elt F) → (⟨S100000x64, .f32⟩ : BufTy).Contents (Elt F) → (⟨S100000x64, .f32⟩ : BufTy).Contents (Elt F)),
    StableHlo.nullary main_call0_cst_3 ((constant S_ .f32 0x3C23D70A#32) : (⟨S_, .f32⟩ : BufTy).Contents (Elt F)),
    StableHlo.nullary main_call0_call0_cst ((constant S_ .f32 0x00000000#32) : (⟨S_, .f32⟩ : BufTy).Contents (Elt F)),
    StableHlo.unary main_call0_call0_cst main_call0_call0_v0 ((broadcastInDim S100000x64 ![] bcast_S_S100000x64) : (⟨S_, .f32⟩ : BufTy).Contents (Elt F) → (⟨S100000x64, .f32⟩ : BufTy).Contents (Elt F)),
    StableHlo.binary main_call0_v28 main_call0_call0_v0 main_call0_call0_v1 ((cmpf .oge) : (⟨S100000x64, .f32⟩ : BufTy).Contents (Elt F) → (⟨S100000x64, .f32⟩ : BufTy).Contents (Elt F) → (⟨S100000x64, .i1⟩ : BufTy).Contents (Elt F)),
    StableHlo.unary main_call0_cst_3 main_call0_call0_v2 (id : (⟨S_, .f32⟩ : BufTy).Contents (Elt F) → (⟨S_, .f32⟩ : BufTy).Contents (Elt F)),
    StableHlo.unary main_call0_call0_v2 main_call0_call0_v3 ((broadcastInDim S100000x64 ![] bcast_S_S100000x64) : (⟨S_, .f32⟩ : BufTy).Contents (Elt F) → (⟨S100000x64, .f32⟩ : BufTy).Contents (Elt F)),
    StableHlo.binary main_call0_call0_v3 main_call0_v28 main_call0_call0_v4 (mulf : (⟨S100000x64, .f32⟩ : BufTy).Contents (Elt F) → (⟨S100000x64, .f32⟩ : BufTy).Contents (Elt F) → (⟨S100000x64, .f32⟩ : BufTy).Contents (Elt F)),
    StableHlo.ternary main_call0_call0_v1 main_call0_v28 main_call0_call0_v4 main_call0_v29 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Stage 2 of the tail, plain. -/
abbrev pseg2 : List (HloOp τ sig (Elt F)) :=
  [ StableHlo.binary main_call0_v29 main_arg5 main_call0_v30 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    StableHlo.unary main_call0_v12 main_call0_v31 ((broadcastInDim S100000x4 ![0, 1] bcast_S100000x1_S100000x4_0_1) : (⟨S100000x1, .f32⟩ : BufTy).Contents (Elt F) → (⟨S100000x4, .f32⟩ : BufTy).Contents (Elt F)),
    StableHlo.binary main_call0_v30 main_call0_v31 main_call0_v32 (mulf : (⟨S100000x4, .f32⟩ : BufTy).Contents (Elt F) → (⟨S100000x4, .f32⟩ : BufTy).Contents (Elt F) → (⟨S100000x4, .f32⟩ : BufTy).Contents (Elt F)),
    StableHlo.nullary main_call0_c_4 ((constantI S_ 32 0#32) : (⟨S_, .i32⟩ : BufTy).Contents (Elt F)),
    StableHlo.unary main_call0_c_4 main_call0_v33 ((broadcastInDim S3300000 ![] bcast_S_S3300000) : (⟨S_, .i32⟩ : BufTy).Contents (Elt F) → (⟨S3300000, .i32⟩ : BufTy).Contents (Elt F)),
    StableHlo.binary main_call0_v3 main_call0_v33 main_call0_v34 ((cmpi .slt) : (⟨S3300000, .i32⟩ : BufTy).Contents (Elt F) → (⟨S3300000, .i32⟩ : BufTy).Contents (Elt F) → (⟨S3300000, .i1⟩ : BufTy).Contents (Elt F)),
    StableHlo.nullary main_call0_c_5 ((constantI S_ 32 100000#32) : (⟨S_, .i32⟩ : BufTy).Contents (Elt F)),
    StableHlo.unary main_call0_c_5 main_call0_v35 ((broadcastInDim S3300000 ![] bcast_S_S3300000) : (⟨S_, .i32⟩ : BufTy).Contents (Elt F) → (⟨S3300000, .i32⟩ : BufTy).Contents (Elt F)),
    StableHlo.binary main_call0_v3 main_call0_v35 main_call0_v36 (addi : (⟨S3300000, .i32⟩ : BufTy).Contents (Elt F) → (⟨S3300000, .i32⟩ : BufTy).Contents (Elt F) → (⟨S3300000, .i32⟩ : BufTy).Contents (Elt F)),
    StableHlo.ternary main_call0_v34 main_call0_v36 main_call0_v3 main_call0_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_call0_v37 main_call0_v38 ((broadcastInDim S3300000x1 ![0] bcast_S3300000_S3300000x1_0) : (⟨S3300000, .i32⟩ : BufTy).Contents (Elt F) → (⟨S3300000x1, .i32⟩ : BufTy).Contents (Elt F)),
    StableHlo.binary main_call0_v32 main_call0_v38 main_call0_v39 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    StableHlo.nullary main_call0_cst_6 ((constant S_ .f32 0x00000000#32) : (⟨S_, .f32⟩ : BufTy).Contents (Elt F)),
    StableHlo.unary main_call0_cst_6 main_call0_v40 ((broadcastInDim S100000x4 ![] bcast_S_S100000x4) : (⟨S_, .f32⟩ : BufTy).Contents (Elt F) → (⟨S100000x4, .f32⟩ : BufTy).Contents (Elt F)),
    StableHlo.unary main_call0_v6 main_call0_v41 ((broadcastInDim S3300000x1 ![0] bcast_S3300000_S3300000x1_0) : (⟨S3300000, .i32⟩ : BufTy).Contents (Elt F) → (⟨S3300000x1, .i32⟩ : BufTy).Contents (Elt F)),
    StableHlo.ternary main_call0_v40 main_call0_v41 main_call0_v39 main_call0_v42 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)),
    StableHlo.unary main_call0_v12 main_call0_v43 ((broadcastInDim S100000x4 ![0, 1] bcast_S100000x1_S100000x4_0_1) : (⟨S100000x1, .f32⟩ : BufTy).Contents (Elt F) → (⟨S100000x4, .f32⟩ : BufTy).Contents (Elt F)),
    StableHlo.binary main_call0_v42 main_call0_v43 main_call0_v44 (mulf : (⟨S100000x4, .f32⟩ : BufTy).Contents (Elt F) → (⟨S100000x4, .f32⟩ : BufTy).Contents (Elt F) → (⟨S100000x4, .f32⟩ : BufTy).Contents (Elt F)),
    StableHlo.unary main_arg6 main_call0_v45 ((broadcastInDim S1x4 ![1] bcast_S4_S1x4_1) : (⟨S4, .f32⟩ : BufTy).Contents (Elt F) → (⟨S1x4, .f32⟩ : BufTy).Contents (Elt F)),
    StableHlo.unary main_call0_v45 main_call0_v46 ((broadcastInDim S100000x4 ![0, 1] bcast_S1x4_S100000x4_0_1) : (⟨S1x4, .f32⟩ : BufTy).Contents (Elt F) → (⟨S100000x4, .f32⟩ : BufTy).Contents (Elt F)),
    StableHlo.binary main_call0_v44 main_call0_v46 main_call0_v47 (addf : (⟨S100000x4, .f32⟩ : BufTy).Contents (Elt F) → (⟨S100000x4, .f32⟩ : BufTy).Contents (Elt F) → (⟨S100000x4, .f32⟩ : BufTy).Contents (Elt F)),
    StableHlo.nullary main_call0_cst_7 ((constant S_ .f32 0x3C23D70A#32) : (⟨S_, .f32⟩ : BufTy).Contents (Elt F)),
    StableHlo.nullary main_call0_call1_cst ((constant S_ .f32 0x00000000#32) : (⟨S_, .f32⟩ : BufTy).Contents (Elt F)),
    StableHlo.unary main_call0_call1_cst main_call0_call1_v0 ((broadcastInDim S100000x4 ![] bcast_S_S100000x4) : (⟨S_, .f32⟩ : BufTy).Contents (Elt F) → (⟨S100000x4, .f32⟩ : BufTy).Contents (Elt F)),
    StableHlo.binary main_call0_v47 main_call0_call1_v0 main_call0_call1_v1 ((cmpf .oge) : (⟨S100000x4, .f32⟩ : BufTy).Contents (Elt F) → (⟨S100000x4, .f32⟩ : BufTy).Contents (Elt F) → (⟨S100000x4, .i1⟩ : BufTy).Contents (Elt F)),
    StableHlo.unary main_call0_cst_7 main_call0_call1_v2 (id : (⟨S_, .f32⟩ : BufTy).Contents (Elt F) → (⟨S_, .f32⟩ : BufTy).Contents (Elt F)),
    StableHlo.unary main_call0_call1_v2 main_call0_call1_v3 ((broadcastInDim S100000x4 ![] bcast_S_S100000x4) : (⟨S_, .f32⟩ : BufTy).Contents (Elt F) → (⟨S100000x4, .f32⟩ : BufTy).Contents (Elt F)),
    StableHlo.binary main_call0_call1_v3 main_call0_v47 main_call0_call1_v4 (mulf : (⟨S100000x4, .f32⟩ : BufTy).Contents (Elt F) → (⟨S100000x4, .f32⟩ : BufTy).Contents (Elt F) → (⟨S100000x4, .f32⟩ : BufTy).Contents (Elt F)),
    StableHlo.ternary main_call0_call1_v1 main_call0_v47 main_call0_call1_v4 main_call0_v48 (select : (⟨S100000x4, .i1⟩ : BufTy).Contents (Elt F) → (⟨S100000x4, .f32⟩ : BufTy).Contents (Elt F) → (⟨S100000x4, .f32⟩ : BufTy).Contents (Elt F) → (⟨S100000x4, .f32⟩ : BufTy).Contents (Elt F)) ]

/-- Stage 3 of the tail, plain. -/
abbrev pseg3 : List (HloOp τ sig (Elt F)) :=
  [ StableHlo.binary main_call0_v48 main_arg7 main_call0_v49 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)),
    StableHlo.unary main_call0_v12 main_call0_v50 ((broadcastInDim S100000x2 ![0, 1] bcast_S100000x1_S100000x2_0_1) : (⟨S100000x1, .f32⟩ : BufTy).Contents (Elt F) → (⟨S100000x2, .f32⟩ : BufTy).Contents (Elt F)),
    StableHlo.binary main_call0_v49 main_call0_v50 main_call0_v51 (mulf : (⟨S100000x2, .f32⟩ : BufTy).Contents (Elt F) → (⟨S100000x2, .f32⟩ : BufTy).Contents (Elt F) → (⟨S100000x2, .f32⟩ : BufTy).Contents (Elt F)),
    StableHlo.nullary main_call0_c_8 ((constantI S_ 32 0#32) : (⟨S_, .i32⟩ : BufTy).Contents (Elt F)),
    StableHlo.unary main_call0_c_8 main_call0_v52 ((broadcastInDim S3300000 ![] bcast_S_S3300000) : (⟨S_, .i32⟩ : BufTy).Contents (Elt F) → (⟨S3300000, .i32⟩ : BufTy).Contents (Elt F)),
    StableHlo.binary main_call0_v3 main_call0_v52 main_call0_v53 ((cmpi .slt) : (⟨S3300000, .i32⟩ : BufTy).Contents (Elt F) → (⟨S3300000, .i32⟩ : BufTy).Contents (Elt F) → (⟨S3300000, .i1⟩ : BufTy).Contents (Elt F)),
    StableHlo.nullary main_call0_c_9 ((constantI S_ 32 100000#32) : (⟨S_, .i32⟩ : BufTy).Contents (Elt F)),
    StableHlo.unary main_call0_c_9 main_call0_v54 ((broadcastInDim S3300000 ![] bcast_S_S3300000) : (⟨S_, .i32⟩ : BufTy).Contents (Elt F) → (⟨S3300000, .i32⟩ : BufTy).Contents (Elt F)),
    StableHlo.binary main_call0_v3 main_call0_v54 main_call0_v55 (addi : (⟨S3300000, .i32⟩ : BufTy).Contents (Elt F) → (⟨S3300000, .i32⟩ : BufTy).Contents (Elt F) → (⟨S3300000, .i32⟩ : BufTy).Contents (Elt F)),
    StableHlo.ternary main_call0_v53 main_call0_v55 main_call0_v3 main_call0_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_call0_v56 main_call0_v57 ((broadcastInDim S3300000x1 ![0] bcast_S3300000_S3300000x1_0) : (⟨S3300000, .i32⟩ : BufTy).Contents (Elt F) → (⟨S3300000x1, .i32⟩ : BufTy).Contents (Elt F)),
    StableHlo.binary main_call0_v51 main_call0_v57 main_call0_v58 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    StableHlo.nullary main_call0_cst_10 ((constant S_ .f32 0x00000000#32) : (⟨S_, .f32⟩ : BufTy).Contents (Elt F)),
    StableHlo.unary main_call0_cst_10 main_call0_v59 ((broadcastInDim S100000x2 ![] bcast_S_S100000x2) : (⟨S_, .f32⟩ : BufTy).Contents (Elt F) → (⟨S100000x2, .f32⟩ : BufTy).Contents (Elt F)),
    StableHlo.unary main_call0_v6 main_call0_v60 ((broadcastInDim S3300000x1 ![0] bcast_S3300000_S3300000x1_0) : (⟨S3300000, .i32⟩ : BufTy).Contents (Elt F) → (⟨S3300000x1, .i32⟩ : BufTy).Contents (Elt F)),
    StableHlo.ternary main_call0_v59 main_call0_v60 main_call0_v58 main_call0_v61 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    StableHlo.unary main_call0_v12 main_call0_v62 ((broadcastInDim S100000x2 ![0, 1] bcast_S100000x1_S100000x2_0_1) : (⟨S100000x1, .f32⟩ : BufTy).Contents (Elt F) → (⟨S100000x2, .f32⟩ : BufTy).Contents (Elt F)),
    StableHlo.binary main_call0_v61 main_call0_v62 main_call0_v63 (mulf : (⟨S100000x2, .f32⟩ : BufTy).Contents (Elt F) → (⟨S100000x2, .f32⟩ : BufTy).Contents (Elt F) → (⟨S100000x2, .f32⟩ : BufTy).Contents (Elt F)),
    StableHlo.unary main_arg8 main_call0_v64 ((broadcastInDim S1x2 ![1] bcast_S2_S1x2_1) : (⟨S2, .f32⟩ : BufTy).Contents (Elt F) → (⟨S1x2, .f32⟩ : BufTy).Contents (Elt F)),
    StableHlo.unary main_call0_v64 main_call0_v65 ((broadcastInDim S100000x2 ![0, 1] bcast_S1x2_S100000x2_0_1) : (⟨S1x2, .f32⟩ : BufTy).Contents (Elt F) → (⟨S100000x2, .f32⟩ : BufTy).Contents (Elt F)),
    StableHlo.binary main_call0_v63 main_call0_v65 main_call0_v66 (addf : (⟨S100000x2, .f32⟩ : BufTy).Contents (Elt F) → (⟨S100000x2, .f32⟩ : BufTy).Contents (Elt F) → (⟨S100000x2, .f32⟩ : BufTy).Contents (Elt F)),
    StableHlo.nullary main_call0_cst_11 ((constant S_ .f32 0x3C23D70A#32) : (⟨S_, .f32⟩ : BufTy).Contents (Elt F)),
    StableHlo.nullary main_call0_call2_cst ((constant S_ .f32 0x00000000#32) : (⟨S_, .f32⟩ : BufTy).Contents (Elt F)),
    StableHlo.unary main_call0_call2_cst main_call0_call2_v0 ((broadcastInDim S100000x2 ![] bcast_S_S100000x2) : (⟨S_, .f32⟩ : BufTy).Contents (Elt F) → (⟨S100000x2, .f32⟩ : BufTy).Contents (Elt F)),
    StableHlo.binary main_call0_v66 main_call0_call2_v0 main_call0_call2_v1 ((cmpf .oge) : (⟨S100000x2, .f32⟩ : BufTy).Contents (Elt F) → (⟨S100000x2, .f32⟩ : BufTy).Contents (Elt F) → (⟨S100000x2, .i1⟩ : BufTy).Contents (Elt F)),
    StableHlo.unary main_call0_cst_11 main_call0_call2_v2 (id : (⟨S_, .f32⟩ : BufTy).Contents (Elt F) → (⟨S_, .f32⟩ : BufTy).Contents (Elt F)),
    StableHlo.unary main_call0_call2_v2 main_call0_call2_v3 ((broadcastInDim S100000x2 ![] bcast_S_S100000x2) : (⟨S_, .f32⟩ : BufTy).Contents (Elt F) → (⟨S100000x2, .f32⟩ : BufTy).Contents (Elt F)),
    StableHlo.binary main_call0_call2_v3 main_call0_v66 main_call0_call2_v4 (mulf : (⟨S100000x2, .f32⟩ : BufTy).Contents (Elt F) → (⟨S100000x2, .f32⟩ : BufTy).Contents (Elt F) → (⟨S100000x2, .f32⟩ : BufTy).Contents (Elt F)),
    StableHlo.ternary main_call0_call2_v1 main_call0_v66 main_call0_call2_v4 main_call0_v67 (select : (⟨S100000x2, .i1⟩ : BufTy).Contents (Elt F) → (⟨S100000x2, .f32⟩ : BufTy).Contents (Elt F) → (⟨S100000x2, .f32⟩ : BufTy).Contents (Elt F) → (⟨S100000x2, .f32⟩ : BufTy).Contents (Elt F)) ]

/-- Stage 4 of the tail, plain. -/
abbrev pseg4 : List (HloOp τ sig (Elt F)) :=
  [ StableHlo.binary main_call0_v67 main_arg9 main_call0_v68 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    StableHlo.binary main_call0_v68 main_call0_v12 main_call0_v69 (mulf : (⟨S100000x1, .f32⟩ : BufTy).Contents (Elt F) → (⟨S100000x1, .f32⟩ : BufTy).Contents (Elt F) → (⟨S100000x1, .f32⟩ : BufTy).Contents (Elt F)),
    StableHlo.nullary main_call0_c_12 ((constantI S_ 32 0#32) : (⟨S_, .i32⟩ : BufTy).Contents (Elt F)),
    StableHlo.unary main_call0_c_12 main_call0_v70 ((broadcastInDim S3300000 ![] bcast_S_S3300000) : (⟨S_, .i32⟩ : BufTy).Contents (Elt F) → (⟨S3300000, .i32⟩ : BufTy).Contents (Elt F)),
    StableHlo.binary main_call0_v3 main_call0_v70 main_call0_v71 ((cmpi .slt) : (⟨S3300000, .i32⟩ : BufTy).Contents (Elt F) → (⟨S3300000, .i32⟩ : BufTy).Contents (Elt F) → (⟨S3300000, .i1⟩ : BufTy).Contents (Elt F)),
    StableHlo.nullary main_call0_c_13 ((constantI S_ 32 100000#32) : (⟨S_, .i32⟩ : BufTy).Contents (Elt F)),
    StableHlo.unary main_call0_c_13 main_call0_v72 ((broadcastInDim S3300000 ![] bcast_S_S3300000) : (⟨S_, .i32⟩ : BufTy).Contents (Elt F) → (⟨S3300000, .i32⟩ : BufTy).Contents (Elt F)),
    StableHlo.binary main_call0_v3 main_call0_v72 main_call0_v73 (addi : (⟨S3300000, .i32⟩ : BufTy).Contents (Elt F) → (⟨S3300000, .i32⟩ : BufTy).Contents (Elt F) → (⟨S3300000, .i32⟩ : BufTy).Contents (Elt F)),
    StableHlo.ternary main_call0_v71 main_call0_v73 main_call0_v3 main_call0_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_call0_v74 main_call0_v75 ((broadcastInDim S3300000x1 ![0] bcast_S3300000_S3300000x1_0) : (⟨S3300000, .i32⟩ : BufTy).Contents (Elt F) → (⟨S3300000x1, .i32⟩ : BufTy).Contents (Elt F)),
    StableHlo.binary main_call0_v69 main_call0_v75 main_call0_v76 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    StableHlo.nullary main_call0_cst_14 ((constant S_ .f32 0x00000000#32) : (⟨S_, .f32⟩ : BufTy).Contents (Elt F)),
    StableHlo.unary main_call0_cst_14 main_call0_v77 ((broadcastInDim S100000x1 ![] bcast_S_S100000x1) : (⟨S_, .f32⟩ : BufTy).Contents (Elt F) → (⟨S100000x1, .f32⟩ : BufTy).Contents (Elt F)),
    StableHlo.unary main_call0_v6 main_call0_v78 ((broadcastInDim S3300000x1 ![0] bcast_S3300000_S3300000x1_0) : (⟨S3300000, .i32⟩ : BufTy).Contents (Elt F) → (⟨S3300000x1, .i32⟩ : BufTy).Contents (Elt F)),
    StableHlo.ternary main_call0_v77 main_call0_v78 main_call0_v76 main_call0_v79 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    StableHlo.binary main_call0_v79 main_call0_v12 main_call0_v80 (mulf : (⟨S100000x1, .f32⟩ : BufTy).Contents (Elt F) → (⟨S100000x1, .f32⟩ : BufTy).Contents (Elt F) → (⟨S100000x1, .f32⟩ : BufTy).Contents (Elt F)),
    StableHlo.unary main_arg10 main_call0_v81 ((broadcastInDim S1x1 ![1] bcast_S1_S1x1_1) : (⟨S1, .f32⟩ : BufTy).Contents (Elt F) → (⟨S1x1, .f32⟩ : BufTy).Contents (Elt F)),
    StableHlo.unary main_call0_v81 main_call0_v82 ((broadcastInDim S100000x1 ![0, 1] bcast_S1x1_S100000x1_0_1) : (⟨S1x1, .f32⟩ : BufTy).Contents (Elt F) → (⟨S100000x1, .f32⟩ : BufTy).Contents (Elt F)),
    StableHlo.binary main_call0_v80 main_call0_v82 main_call0_v83 (addf : (⟨S100000x1, .f32⟩ : BufTy).Contents (Elt F) → (⟨S100000x1, .f32⟩ : BufTy).Contents (Elt F) → (⟨S100000x1, .f32⟩ : BufTy).Contents (Elt F)),
    StableHlo.nullary main_call0_cst_15 ((constant S_ .f32 0x3C23D70A#32) : (⟨S_, .f32⟩ : BufTy).Contents (Elt F)),
    StableHlo.nullary main_call0_call3_cst ((constant S_ .f32 0x00000000#32) : (⟨S_, .f32⟩ : BufTy).Contents (Elt F)),
    StableHlo.unary main_call0_call3_cst main_call0_call3_v0 ((broadcastInDim S100000x1 ![] bcast_S_S100000x1) : (⟨S_, .f32⟩ : BufTy).Contents (Elt F) → (⟨S100000x1, .f32⟩ : BufTy).Contents (Elt F)),
    StableHlo.binary main_call0_v83 main_call0_call3_v0 main_call0_call3_v1 ((cmpf .oge) : (⟨S100000x1, .f32⟩ : BufTy).Contents (Elt F) → (⟨S100000x1, .f32⟩ : BufTy).Contents (Elt F) → (⟨S100000x1, .i1⟩ : BufTy).Contents (Elt F)),
    StableHlo.unary main_call0_cst_15 main_call0_call3_v2 (id : (⟨S_, .f32⟩ : BufTy).Contents (Elt F) → (⟨S_, .f32⟩ : BufTy).Contents (Elt F)),
    StableHlo.unary main_call0_call3_v2 main_call0_call3_v3 ((broadcastInDim S100000x1 ![] bcast_S_S100000x1) : (⟨S_, .f32⟩ : BufTy).Contents (Elt F) → (⟨S100000x1, .f32⟩ : BufTy).Contents (Elt F)),
    StableHlo.binary main_call0_call3_v3 main_call0_v83 main_call0_call3_v4 (mulf : (⟨S100000x1, .f32⟩ : BufTy).Contents (Elt F) → (⟨S100000x1, .f32⟩ : BufTy).Contents (Elt F) → (⟨S100000x1, .f32⟩ : BufTy).Contents (Elt F)),
    StableHlo.ternary main_call0_call3_v1 main_call0_v83 main_call0_call3_v4 main_call0_v84 (select : (⟨S100000x1, .i1⟩ : BufTy).Contents (Elt F) → (⟨S100000x1, .f32⟩ : BufTy).Contents (Elt F) → (⟨S100000x1, .f32⟩ : BufTy).Contents (Elt F) → (⟨S100000x1, .f32⟩ : BufTy).Contents (Elt F)) ]

/-- Stage 5 of the tail, plain. -/
abbrev pseg5 : List (HloOp τ sig (Elt F)) :=
  [ StableHlo.nullary main_call0_cst_16 ((constant S_ .f32 0x00000000#32) : (⟨S_, .f32⟩ : BufTy).Contents (Elt F)),
    StableHlo.unary main_call0_cst_16 main_call0_v85 ((broadcastInDim S512x1 ![] bcast_S_S512x1) : (⟨S_, .f32⟩ : BufTy).Contents (Elt F) → (⟨S512x1, .f32⟩ : BufTy).Contents (Elt F)),
    StableHlo.unary main_arg2 main_call0_v86 ((broadcastInDim S100000x1 ![0] bcast_S100000_S100000x1_0) : (⟨S100000, .i32⟩ : BufTy).Contents (Elt F) → (⟨S100000x1, .i32⟩ : BufTy).Contents (Elt F)),
    StableHlo.ternary main_call0_v85 main_call0_v86 main_call0_v84 main_call0_v87 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    StableHlo.nullary main_call0_cst_17 ((constant S_ .f32 0x3F800000#32) : (⟨S_, .f32⟩ : BufTy).Contents (Elt F)),
    StableHlo.unary main_call0_cst_17 main_call0_v88 ((broadcastInDim S100000 ![] bcast_S_S100000) : (⟨S_, .f32⟩ : BufTy).Contents (Elt F) → (⟨S100000, .f32⟩ : BufTy).Contents (Elt F)),
    StableHlo.nullary main_call0_cst_18 ((constant S_ .f32 0x00000000#32) : (⟨S_, .f32⟩ : BufTy).Contents (Elt F)),
    StableHlo.unary main_call0_cst_18 main_call0_v89 ((broadcastInDim S512 ![] bcast_S_S512) : (⟨S_, .f32⟩ : BufTy).Contents (Elt F) → (⟨S512, .f32⟩ : BufTy).Contents (Elt F)),
    StableHlo.unary main_arg2 main_call0_v90 ((broadcastInDim S100000x1 ![0] bcast_S100000_S100000x1_0) : (⟨S100000, .i32⟩ : BufTy).Contents (Elt F) → (⟨S100000x1, .i32⟩ : BufTy).Contents (Elt F)),
    StableHlo.ternary main_call0_v89 main_call0_v90 main_call0_v88 main_call0_v91 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_call0_cst_19 ((constant S_ .f32 0x3F800000#32) : (⟨S_, .f32⟩ : BufTy).Contents (Elt F)),
    StableHlo.unary main_call0_cst_19 main_call0_v92 ((broadcastInDim S512 ![] bcast_S_S512) : (⟨S_, .f32⟩ : BufTy).Contents (Elt F) → (⟨S512, .f32⟩ : BufTy).Contents (Elt F)),
    StableHlo.binary main_call0_v91 main_call0_v92 main_call0_v93 (maximumf : (⟨S512, .f32⟩ : BufTy).Contents (Elt F) → (⟨S512, .f32⟩ : BufTy).Contents (Elt F) → (⟨S512, .f32⟩ : BufTy).Contents (Elt F)),
    StableHlo.unary main_call0_v93 main_call0_v94 ((broadcastInDim S512x1 ![0] bcast_S512_S512x1_0) : (⟨S512, .f32⟩ : BufTy).Contents (Elt F) → (⟨S512x1, .f32⟩ : BufTy).Contents (Elt F)),
    StableHlo.binary main_call0_v87 main_call0_v94 main_call0_v95 (Host.divf : (⟨S512x1, .f32⟩ : BufTy).Contents (Elt F) → (⟨S512x1, .f32⟩ : BufTy).Contents (Elt F) → (⟨S512x1, .f32⟩ : BufTy).Contents (Elt F)),
    StableHlo.binary main_call0_v95 main_arg11 main_call0_v96 ((fun l r => Host.dotGeneral dot_S512x1_S1x1_S512x1_1_0_0_1_n_n none l r) : (⟨S512x1, .f32⟩ : BufTy).Contents (Elt F) → (⟨S1x1, .f32⟩ : BufTy).Contents (Elt F) → (⟨S512x1, .f32⟩ : BufTy).Contents (Elt F)),
    StableHlo.unary main_arg12 main_call0_v97 ((broadcastInDim S1x1 ![1] bcast_S1_S1x1_1) : (⟨S1, .f32⟩ : BufTy).Contents (Elt F) → (⟨S1x1, .f32⟩ : BufTy).Contents (Elt F)),
    StableHlo.unary main_call0_v97 main_call0_v98 ((broadcastInDim S512x1 ![0, 1] bcast_S1x1_S512x1_0_1) : (⟨S1x1, .f32⟩ : BufTy).Contents (Elt F) → (⟨S512x1, .f32⟩ : BufTy).Contents (Elt F)),
    StableHlo.binary main_call0_v96 main_call0_v98 main_call0_v99 (addf : (⟨S512x1, .f32⟩ : BufTy).Contents (Elt F) → (⟨S512x1, .f32⟩ : BufTy).Contents (Elt F) → (⟨S512x1, .f32⟩ : BufTy).Contents (Elt F)),
    StableHlo.unary main_call0_v99 main_call0_v100 (Host.negf : (⟨S512x1, .f32⟩ : BufTy).Contents (Elt F) → (⟨S512x1, .f32⟩ : BufTy).Contents (Elt F)),
    StableHlo.unary main_call0_v100 main_call0_v101 (Host.exp : (⟨S512x1, .f32⟩ : BufTy).Contents (Elt F) → (⟨S512x1, .f32⟩ : BufTy).Contents (Elt F)),
    StableHlo.nullary main_call0_cst_20 ((constant S_ .f32 0x3F800000#32) : (⟨S_, .f32⟩ : BufTy).Contents (Elt F)),
    StableHlo.unary main_call0_cst_20 main_call0_v102 ((broadcastInDim S512x1 ![] bcast_S_S512x1) : (⟨S_, .f32⟩ : BufTy).Contents (Elt F) → (⟨S512x1, .f32⟩ : BufTy).Contents (Elt F)),
    StableHlo.binary main_call0_v102 main_call0_v101 main_call0_v103 (addf : (⟨S512x1, .f32⟩ : BufTy).Contents (Elt F) → (⟨S512x1, .f32⟩ : BufTy).Contents (Elt F) → (⟨S512x1, .f32⟩ : BufTy).Contents (Elt F)),
    StableHlo.nullary main_call0_cst_21 ((constant S_ .f32 0x3F800000#32) : (⟨S_, .f32⟩ : BufTy).Contents (Elt F)),
    StableHlo.unary main_call0_cst_21 main_call0_v104 ((broadcastInDim S512x1 ![] bcast_S_S512x1) : (⟨S_, .f32⟩ : BufTy).Contents (Elt F) → (⟨S512x1, .f32⟩ : BufTy).Contents (Elt F)),
    StableHlo.binary main_call0_v104 main_call0_v103 main_v0 (Host.divf : (⟨S512x1, .f32⟩ : BufTy).Contents (Elt F) → (⟨S512x1, .f32⟩ : BufTy).Contents (Elt F) → (⟨S512x1, .f32⟩ : BufTy).Contents (Elt F)) ]

set_option maxRecDepth 65536 in
set_option maxHeartbeats 4000000 in
theorem hostOps0_eq : (hostOps0 : List (HloOp τ sig (Elt F))) = pseg0 := rfl
set_option maxRecDepth 65536 in
set_option maxHeartbeats 4000000 in
theorem kseg1_eq : (KS.kseg1 : List (HloOp τ sig (Elt F))) = pseg1 := rfl
set_option maxRecDepth 65536 in
set_option maxHeartbeats 4000000 in
theorem kseg2_eq : (KS.kseg2 : List (HloOp τ sig (Elt F))) = pseg2 := rfl
set_option maxRecDepth 65536 in
set_option maxHeartbeats 4000000 in
theorem kseg3_eq : (KS.kseg3 : List (HloOp τ sig (Elt F))) = pseg3 := rfl
set_option maxRecDepth 65536 in
set_option maxHeartbeats 4000000 in
theorem kseg4_eq : (KS.kseg4 : List (HloOp τ sig (Elt F))) = pseg4 := rfl
set_option maxRecDepth 65536 in
set_option maxHeartbeats 4000000 in
theorem kseg5_eq : (KS.kseg5 : List (HloOp τ sig (Elt F))) = pseg5 := rfl

end Cert.KernelIdeal.KP

end
-- ==== Proof.LibScatterAdd.lean ====
/-
  The host's accumulating float scatter at the exact instance, and a nonnegative finite factor moved across it.

  At the exact instance `hostScatterAdd d x idx upd` read at `i` is `x i` plus the sum of the updates that land on
  `i`. The extended reals are not a ring: `(y + z) * a = y * a + z * a` can fail when `a` is infinite or negative
  and `y`, `z` are infinities of opposite signs. For `0 ≤ a < ⊤` it holds for all `y`, `z`, so such an `a` moves
  across a finite sum, and across the scatter: scaling the operand's element and every landing update by `a` scales
  the result's element by `a`.

  Also here: the reciprocal square root of a positive natural number is a nonnegative finite real, and the scatter
  of ones from zeros counts the landing updates.
-/
import Idealize.ShloMosaic.PureOps.Ideal

noncomputable section

namespace Idealize.ShloMosaic.ScatterAddLaws

open scoped BigOperators

/-- A nonnegative finite factor distributes over a finite sum of extended reals. -/
theorem sum_mul_of_nonneg_ne_top {ι : Type} (S : Finset ι) (f : ι → EReal) {a : EReal} (ha0 : 0 ≤ a) (hat : a ≠ ⊤) :
    (∑ j ∈ S, f j) * a = ∑ j ∈ S, f j * a := by
  classical
  induction S using Finset.induction_on with
  | empty => simp
  | insert j S hj ih =>
    rw [Finset.sum_insert hj, Finset.sum_insert hj, EReal.right_distrib_of_nonneg_of_ne_top ha0 hat, ih]

/-- The accumulating scatter at the exact instance, read at an element. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- Scaling the operand's element at `i` and every update that lands on `i` by a nonnegative finite `a` scales the
    scatter's element at `i` by `a`. -/
theorem hostScatterAdd_mul_right {s si su : Shape} (d : ScatterDims s si su) {w : Nat} (idx : IVec si w)
    (x x' : s.Idx → EReal) (u u' : su.Idx → EReal) (i : s.Idx) {a : EReal} (ha0 : 0 ≤ a) (hat : a ≠ ⊤)
    (hx : x' i = x i * a) (hu : ∀ j, d.resultIdx? j idx = some i → u' j = u j * a) :
    Ideal.hostScatterAdd d x' idx u' i = Ideal.hostScatterAdd d x idx u i * a := by
  rw [hostScatterAdd_apply, hostScatterAdd_apply, EReal.right_distrib_of_nonneg_of_ne_top ha0 hat,
    sum_mul_of_nonneg_ne_top _ _ ha0 hat, hx]
  refine congrArg _ (Finset.sum_congr rfl fun j hj => hu j (Finset.mem_filter.mp hj).2)

/-- Two scatters through the same indices whose operands agree at `i` and whose updates agree wherever they land on
    `i` agree at `i`. -/
theorem hostScatterAdd_congr_at {s si su : Shape} (d : ScatterDims s si su) {w : Nat} (idx : IVec si w)
    (x x' : s.Idx → EReal) (u u' : su.Idx → EReal) (i : s.Idx)
    (hx : x' i = x i) (hu : ∀ j, d.resultIdx? j idx = some i → u' j = u j) :
    Ideal.hostScatterAdd d x' idx u' i = Ideal.hostScatterAdd d x idx u i := by
  rw [hostScatterAdd_apply, hostScatterAdd_apply, hx]
  refine congrArg _ (Finset.sum_congr rfl fun j hj => hu j (Finset.mem_filter.mp hj).2)

/-- The scatter of ones from zero counts the updates that land on `i`. -/
theorem hostScatterAdd_ones {s si su : Shape} (d : ScatterDims s si su) {w : Nat} (idx : IVec si w)
    (x : s.Idx → EReal) (u : su.Idx → EReal) (i : s.Idx) (hx : x i = 0) (hu : ∀ j, u j = 1) :
    Ideal.hostScatterAdd d x idx u i
      = (((Finset.univ.filter (fun j => d.resultIdx? j idx = some i)).card : ℝ) : EReal) := by
  rw [hostScatterAdd_apply, hx, zero_add, Finset.sum_congr rfl (fun j _ => hu j), Finset.sum_const, EReal.nsmul_eq_mul, mul_one]
  norm_cast

/-- The reciprocal square root of a positive natural number is a nonnegative finite extended real. -/
theorem rsqrt_natCast_pos {n : ℕ} (hn : 0 < n) :
    0 ≤ Ideal.rsqrt (((n : ℝ) : EReal)) ∧ Ideal.rsqrt (((n : ℝ) : EReal)) ≠ ⊤ := by
  have hpos : (0 : ℝ) < (n : ℝ) := by exact_mod_cast hn
  have e : Ideal.rsqrt (((n : ℝ) : EReal)) = (((Real.sqrt (n : ℝ))⁻¹ : ℝ) : EReal) := by
    show (if (n : ℝ) < 0 then (⊥ : EReal) else if (n : ℝ) = 0 then ⊤ else ((Real.sqrt (n : ℝ))⁻¹ : ℝ)) = _
    rw [if_neg (not_lt.mpr hpos.le), if_neg hpos.ne']
  rw [e]
  refine ⟨?_, EReal.coe_ne_top _⟩
  exact_mod_cast inv_nonneg.mpr (Real.sqrt_nonneg _)

end Idealize.ShloMosaic.ScatterAddLaws

end
-- ==== Proof.LibRowIdx.lean ====
/-
  Row gathers and row scatters read at an index.

  A graph layer moves rows: `h[src]` gathers row `src e` of an `[N, C]` array for every edge `e`, and a segment sum
  scatters row `e` of an `[M, C]` array onto row `dst e` of an `[N, C]` array. The start indices come as an `[M, 1]`
  array of words. A gather reads its start index as a signed integer and clamps it into `[0, N - 1]`; a scatter
  reads it signed and DROPS the row when it is outside `[0, N)`. The same for a flat `[N]` array and `[M]` updates.
  Each statement is for the dimension numbers as a record over any extents; a program's own record is one of these
  at its literal extents.
-/
import Idealize.ShloMosaic.PureOps.ShapeOps
import Idealize.ShloMosaic.Lib.ValueIdx

noncomputable section

namespace Idealize.ShloMosaic.RowIdx

open Idealize.ShloMosaic.ValueIdx

variable {α : Type}

/-- An axis is kept exactly when it is not among the removed ones. -/
theorem mem_kept {s : Shape} (axes : List (Fin s.rank)) (a : Fin s.rank) : a ∈ s.kept axes ↔ a ∉ axes := by
  simp [Shape.kept, List.mem_filter, List.mem_finRange]

theorem one_ne_zero_fin2 : (1 : Fin 2) ≠ 0 := by decide

/-! ## The four dimension-number records -/

/-- Rows of an `[N, C]` operand gathered at `[M, 1]` start indices into `[M, C]`. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Elements of an `[N]` operand gathered at `[M, 1]` start indices into `[M]`. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Rows of `[M, C]` updates scattered at `[M, 1]` indices onto an `[N, C]` operand. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Elements of `[M]` updates scattered at `[M, 1]` indices onto an `[N]` operand. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The row a gather reads for the start word `b`: `b` as a signed integer, clamped into `[0, N - 1]`. -/
def clampRow (N : Nat) {w : Nat} (hN : 0 < N) (b : BitVec w) : Fin N := ⟨min b.toInt.toNat (N - 1), by omega⟩

/-! ## The gathers -/

/-- The row gather at `(e, c)`: the operand at the clamped row of edge `e`, column `c`. -/
theorem rowGather_apply {N C M w : Nat} (hN : 0 < N) (wf) (x : (⟨2, ![N, C]⟩ : Shape).Idx → α) (idx : IVec ⟨2, ![M, 1]⟩ w)
    (e : Fin M) (c : Fin C) :
    Host.gather (rowGather N C M wf) x idx (ix2 e c) = x (ix2 (clampRow N hN (idx (ix2 e (0 : Fin 1)))) c) := by
  unfold Host.gather
  refine congrArg x (funext fun a => ?_)
  match a with
  | ⟨0, _⟩ =>
    refine Fin.ext ?_
    show (rowGather N C M wf).start (ix2 e c) idx 0 + (rowGather N C M wf).batchCoord (ix2 e c) 0
      + (rowGather N C M wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e c) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C M wf).start (ix2 e c) idx 1 + (rowGather N C M wf).batchCoord (ix2 e c) 1
      + (rowGather N C M wf).offCoord (ix2 e c) 1 = c.val
    rw [GatherDims.batchCoord_eq_zero _ _ _ List.not_mem_nil]
    have hs : (rowGather N C M wf).start (ix2 e c) idx 1 = 0 := by
      unfold GatherDims.start
      rw [dif_neg (show (1 : Fin 2) ∉ (rowGather N C M wf).startIndexMap from fun h => one_ne_zero_fin2 (List.mem_singleton.mp h))]
    have ho : (rowGather N C M wf).offCoord (ix2 e c) 1 = c.val := by
      unfold GatherDims.offCoord
      rw [dif_pos ((GatherDims.mem_sKept _ _).mpr ⟨fun h => one_ne_zero_fin2 (List.mem_singleton.mp h), List.not_mem_nil⟩)]
      rfl
    rw [hs, ho]; omega

/-- The flat gather at `e`: the operand at the clamped start of edge `e`. -/
theorem vecGather_apply {N M w : Nat} (hN : 0 < N) (wf) (x : (⟨1, ![N]⟩ : Shape).Idx → α) (idx : IVec ⟨2, ![M, 1]⟩ w)
    (e : Fin M) :
    Host.gather (vecGather N M wf) x idx (ix1 e) = x (ix1 (clampRow N hN (idx (ix2 e (0 : Fin 1))))) := by
  unfold Host.gather
  refine congrArg x (funext fun a => ?_)
  match a with
  | ⟨0, _⟩ =>
    refine Fin.ext ?_
    show (vecGather N M wf).start (ix1 e) idx 0 + (vecGather N M wf).batchCoord (ix1 e) 0
      + (vecGather N M wf).offCoord (ix1 e) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N M wf).startIndexMap from List.mem_singleton.mpr rfl)]
    have hsi : (vecGather N M wf).siIdx (ix1 e) ⟨List.idxOf (0 : Fin 1) (vecGather N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The scatters -/

/-- Where row `e`, column `c` of the updates lands: on row `idx e` read signed, same column, when that row is inside
    the operand; nowhere otherwise. -/
theorem rowScatter_resultIdx? {N C M w : Nat} (wf) (idx : IVec ⟨2, ![M, 1]⟩ w) (e : Fin M) (c : Fin C) :
    (rowScatter N C M wf).resultIdx? (ix2 e c) idx =
      if h : 0 ≤ (idx (ix2 e (0 : Fin 1))).toInt ∧ (idx (ix2 e (0 : Fin 1))).toInt < (N : Int) then
        some (ix2 (⟨(idx (ix2 e (0 : Fin 1))).toInt.toNat, by omega⟩ : Fin N) c)
      else none := by
  have hsi : (rowScatter N C M wf).siIdx (ix2 e c) ⟨List.idxOf (0 : Fin 2) (rowScatter N C M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl), hsi]
  have hs1 : (rowScatter N C M wf).start (ix2 e c) idx 1 = 0 := by
    unfold ScatterDims.start
    rw [dif_neg (show (1 : Fin 2) ∉ (rowScatter N C M wf).scatterDimsToOperandDims from fun h => one_ne_zero_fin2 (List.mem_singleton.mp h))]
  have hw0 : (rowScatter N C M wf).window (ix2 e c) 0 = 0 := by
    unfold ScatterDims.window
    rw [dif_neg (show (0 : Fin 2) ∉ (rowScatter N C M wf).sKept from fun h => (mem_kept _ _).mp h (List.mem_singleton.mpr rfl))]
  have hw1 : (rowScatter N C M wf).window (ix2 e c) 1 = c.val := by
    unfold ScatterDims.window
    rw [dif_pos (show (1 : Fin 2) ∈ (rowScatter N C M wf).sKept from (mem_kept _ _).mpr fun h => one_ne_zero_fin2 (List.mem_singleton.mp h))]
    rfl
  unfold ScatterDims.resultIdx?
  by_cases h : 0 ≤ (idx (ix2 e (0 : Fin 1))).toInt ∧ (idx (ix2 e (0 : Fin 1))).toInt < (N : Int)
  · have hall : ∀ a, 0 ≤ (rowScatter N C M wf).start (ix2 e c) idx a + (rowScatter N C M wf).window (ix2 e c) a ∧
        (rowScatter N C M wf).start (ix2 e c) idx a + (rowScatter N C M wf).window (ix2 e c) a
          < (⟨2, ![N, C]⟩ : Shape).size a := by
      intro a
      match a with
      | ⟨0, _⟩ =>
        show 0 ≤ (rowScatter N C M wf).start (ix2 e c) idx 0 + ((rowScatter N C M wf).window (ix2 e c) 0 : Int) ∧
          (rowScatter N C M wf).start (ix2 e c) idx 0 + ((rowScatter N C M wf).window (ix2 e c) 0 : Int) < (N : Int)
        rw [hs0, hw0]; omega
      | ⟨1, _⟩ =>
        show 0 ≤ (rowScatter N C M wf).start (ix2 e c) idx 1 + ((rowScatter N C M wf).window (ix2 e c) 1 : Int) ∧
          (rowScatter N C M wf).start (ix2 e c) idx 1 + ((rowScatter N C M wf).window (ix2 e c) 1 : Int) < (C : Int)
        rw [hs1, hw1]; have := c.isLt; omega
    rw [dif_pos hall, dif_pos h]
    refine congrArg some (funext fun a => ?_)
    match a with
    | ⟨0, _⟩ =>
      refine Fin.ext ?_
      show ((rowScatter N C M wf).start (ix2 e c) idx 0 + ((rowScatter N C M wf).window (ix2 e c) 0 : Int)).toNat
        = (idx (ix2 e (0 : Fin 1))).toInt.toNat
      rw [hs0, hw0]; simp
    | ⟨1, _⟩ =>
      refine Fin.ext ?_
      show ((rowScatter N C M wf).start (ix2 e c) idx 1 + ((rowScatter N C M wf).window (ix2 e c) 1 : Int)).toNat = c.val
      rw [hs1, hw1]; simp
  · rw [dif_neg h, dif_neg]
    intro hall
    have h0 := hall 0
    have h0' : 0 ≤ (rowScatter N C M wf).start (ix2 e c) idx 0 + ((rowScatter N C M wf).window (ix2 e c) 0 : Int) ∧
        (rowScatter N C M wf).start (ix2 e c) idx 0 + ((rowScatter N C M wf).window (ix2 e c) 0 : Int) < (N : Int) := h0
    rw [hs0, hw0] at h0'
    exact h ⟨by omega, by omega⟩

/-- Where element `e` of the updates lands: on `idx e` read signed, when that is inside the operand. -/
theorem vecScatter_resultIdx? {N M w : Nat} (wf) (idx : IVec ⟨2, ![M, 1]⟩ w) (e : Fin M) :
    (vecScatter N M wf).resultIdx? (ix1 e) idx =
      if h : 0 ≤ (idx (ix2 e (0 : Fin 1))).toInt ∧ (idx (ix2 e (0 : Fin 1))).toInt < (N : Int) then
        some (ix1 (⟨(idx (ix2 e (0 : Fin 1))).toInt.toNat, by omega⟩ : Fin N))
      else none := by
  have hsi : (vecScatter N M wf).siIdx (ix1 e) ⟨List.idxOf (0 : Fin 1) (vecScatter N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl), hsi]
  have hw0 : (vecScatter N M wf).window (ix1 e) 0 = 0 := by
    unfold ScatterDims.window
    rw [dif_neg (show (0 : Fin 1) ∉ (vecScatter N M wf).sKept from fun h => (mem_kept _ _).mp h (List.mem_singleton.mpr rfl))]
  unfold ScatterDims.resultIdx?
  by_cases h : 0 ≤ (idx (ix2 e (0 : Fin 1))).toInt ∧ (idx (ix2 e (0 : Fin 1))).toInt < (N : Int)
  · have hall : ∀ a, 0 ≤ (vecScatter N M wf).start (ix1 e) idx a + (vecScatter N M wf).window (ix1 e) a ∧
        (vecScatter N M wf).start (ix1 e) idx a + (vecScatter N M wf).window (ix1 e) a
          < (⟨1, ![N]⟩ : Shape).size a := by
      intro a
      match a with
      | ⟨0, _⟩ =>
        show 0 ≤ (vecScatter N M wf).start (ix1 e) idx 0 + ((vecScatter N M wf).window (ix1 e) 0 : Int) ∧
          (vecScatter N M wf).start (ix1 e) idx 0 + ((vecScatter N M wf).window (ix1 e) 0 : Int) < (N : Int)
        rw [hs0, hw0]; omega
    rw [dif_pos hall, dif_pos h]
    refine congrArg some (funext fun a => ?_)
    match a with
    | ⟨0, _⟩ =>
      refine Fin.ext ?_
      show ((vecScatter N M wf).start (ix1 e) idx 0 + ((vecScatter N M wf).window (ix1 e) 0 : Int)).toNat
        = (idx (ix2 e (0 : Fin 1))).toInt.toNat
      rw [hs0, hw0]; simp
  · rw [dif_neg h, dif_neg]
    intro hall
    have h0 := hall 0
    have h0' : 0 ≤ (vecScatter N M wf).start (ix1 e) idx 0 + ((vecScatter N M wf).window (ix1 e) 0 : Int) ∧
        (vecScatter N M wf).start (ix1 e) idx 0 + ((vecScatter N M wf).window (ix1 e) 0 : Int) < (N : Int) := h0
    rw [hs0, hw0] at h0'
    exact h ⟨by omega, by omega⟩

end Idealize.ShloMosaic.RowIdx

end
-- ==== Proof.GcnMath.lean ====
/-
  One graph-convolution layer, written two ways, is one function on the extended reals.

  Let `d : [N]` hold nonnegative finite reals (the nodes' `degree^(-1/2)`), `t : [N, C]` any extended reals (the layer's
  dense transform), `src`, `dst` the edges' endpoints as words (`dst` read as it is by the scatter, which drops an edge
  whose target is outside `[0, N)`; the gathers read their index clamped into `[0, N - 1]`, and `dstn` is `dst` wherever
  `dst` is inside). Then for every node `n` and channel `c`

      ( ∑_{e : dst e = n} t[src e, c] · d[src e] ) · d[n]   =   ∑_{e : dst e = n} t[src e, c] · ( d[src e] · d[dstn e] )

  — the target's factor moved out of the sum. Every edge in the sum has `dstn e = dst e = n`, the product of extended
  reals is associative, and a nonnegative FINITE factor distributes over a sum of extended reals whatever the summands
  (an infinite factor, or a negative one against `+∞ + -∞`, would not). Adding the same bias to both sides keeps them equal.
-/
import Idealize.ShloMosaic.PureOps.Ideal
import Idealize.ShloMosaic.Lib.ValueIdx
import Idealize.ShloMosaic.Lib.Pipeline.Value
import Idealize.ShloMosaic.Lib.IdealHost
import Idealize.ShloMosaic.Lib.ValueLayout
import proofs.«144057_j23888608100399_2_alg».proof.Proof.LibScatterAdd
import proofs.«144057_j23888608100399_2_alg».proof.Proof.LibRowIdx

noncomputable section

namespace Idealize.ShloMosaic.GcnMath

open Idealize.ShloMosaic.ValueIdx Idealize.ShloMosaic.RowIdx Idealize.ShloMosaic.ScatterAddLaws

/-! ## Broadcasts read at an index -/

/-- A list `[M]` laid out as a column `[M, 1]` reads its entry. -/
theorem bcast_col_apply {α : Type} {M : Nat} (h : (⟨1, ![M]⟩ : Shape).BroadcastsInDim ⟨2, ![M, 1]⟩ ![0])
    (x : (⟨1, ![M]⟩ : Shape).Idx → α) (e : Fin M) :
    broadcastInDim ⟨2, ![M, 1]⟩ ![0] h x (ix2 e (0 : Fin 1)) = x (ix1 e) := by
  refine broadcastInDim_apply _ h x _ (ix1 e) fun a => ?_
  match a with
  | ⟨0, _⟩ =>
    show e.val = if M = 1 then 0 else e.val
    split
    · next hM => have := e.isLt; omega
    · rfl

/-- A column `[N, 1]` repeated along the channels `[N, C]` reads the row's entry. -/
theorem bcast_rows_apply {α : Type} {N C : Nat} (h : (⟨2, ![N, 1]⟩ : Shape).BroadcastsInDim ⟨2, ![N, C]⟩ ![0, 1])
    (x : (⟨2, ![N, 1]⟩ : Shape).Idx → α) (n : Fin N) (c : Fin C) :
    broadcastInDim ⟨2, ![N, C]⟩ ![0, 1] h x (ix2 n c) = x (ix2 n (0 : Fin 1)) := by
  refine broadcastInDim_apply _ h x _ (ix2 n (0 : Fin 1)) fun a => ?_
  match a with
  | ⟨0, _⟩ =>
    show n.val = if N = 1 then 0 else n.val
    split
    · next hN => have := n.isLt; omega
    · rfl
  | ⟨1, _⟩ =>
    show (0 : Nat) = if (1 : Nat) = 1 then 0 else c.val
    rw [if_pos rfl]

/-- A zero scalar spread over any shape reads zero. -/
theorem zero_bcast_apply {s : Shape} (hz : (⟨0, ![]⟩ : Shape).BroadcastsInDim s ![]) (i : s.Idx) :
    broadcastInDim s ![] hz (constant (F := Ideal) ⟨0, ![]⟩ .f32 0x00000000#32) i = 0 := by
  rw [broadcastInDim_scalar_apply]
  exact Ideal.ofBits_zero_f32

/-- The index as jnp wraps it — `x + k` where `x` is negative, `x` elsewhere — is `x` itself at a nonnegative entry. -/
theorem wrap_apply_of_nonneg {M : Nat} (hs : (⟨0, ![]⟩ : Shape).BroadcastsInDim ⟨1, ![M]⟩ ![]) (x : IVec ⟨1, ![M]⟩ 32)
    (k : BitVec 32) (e : Fin M) (h : 0 ≤ (x (ix1 e)).toInt) :
    select (cmpi .slt x (broadcastInDim ⟨1, ![M]⟩ ![] hs (constantI ⟨0, ![]⟩ 32 0#32)))
        (addi x (broadcastInDim ⟨1, ![M]⟩ ![] hs (constantI ⟨0, ![]⟩ 32 k))) x (ix1 e) = x (ix1 e) := by
  show Scalar.select (IntOp.cmpi .slt (x (ix1 e)) (broadcastInDim ⟨1, ![M]⟩ ![] hs (constantI ⟨0, ![]⟩ 32 0#32) (ix1 e))) _ _ = _
  rw [broadcastInDim_scalar_apply]
  have hb : IntOp.cmpi .slt (x (ix1 e)) (constantI (⟨0, ![]⟩ : Shape) 32 0#32 ix0) = 0#1 := by
    show BitVec.ofBool ((x (ix1 e)).slt 0#32) = 0#1
    have : (x (ix1 e)).slt 0#32 = false := by
      simp only [BitVec.slt, BitVec.toInt_zero, decide_eq_false_iff_not, not_lt]
      exact h
    rw [this]; rfl
  rw [hb]
  exact select_zero _ _

/-! ## The layer -/

variable {N C M : Nat}

/-- The aggregated, rescaled and biased transform of a layer is the same array whether the target's factor
    `d[n]` multiplies each edge's message (right) or the finished sum (left). -/
theorem conv_rel (hN : 0 < N) (wfg) (wfs) (wfv)
    (t : FVec Ideal ⟨2, ![N, C]⟩ .f32) (dinv : FVec Ideal ⟨1, ![N]⟩ .f32)
    (hdinv : ∀ n : Fin N, 0 ≤ dinv (ix1 n) ∧ dinv (ix1 n) ≠ ⊤)
    (srcI dstI dstnI : IVec ⟨2, ![M, 1]⟩ 32)
    (hdst : ∀ e : Fin M, 0 ≤ (dstI (ix2 e (0 : Fin 1))).toInt → (dstI (ix2 e (0 : Fin 1))).toInt < (N : Int) →
        dstnI (ix2 e (0 : Fin 1)) = dstI (ix2 e (0 : Fin 1)))
    (dinvb : FVec Ideal ⟨2, ![N, C]⟩ .f32) (hdb : ∀ (n : Fin N) (c : Fin C), dinvb (ix2 n c) = dinv (ix1 n))
    (normb : FVec Ideal ⟨2, ![M, C]⟩ .f32)
    (hnb : ∀ (e : Fin M) (c : Fin C), normb (ix2 e c) =
        Host.gather (vecGather N M wfv) dinv srcI (ix1 e) * Host.gather (vecGather N M wfv) dinv dstnI (ix1 e))
    (zK zR : FVec Ideal ⟨2, ![N, C]⟩ .f32) (hzK : ∀ i, zK i = 0) (hzR : ∀ i, zR i = 0)
    (bb : FVec Ideal ⟨2, ![N, C]⟩ .f32) :
    addf (mulf (Host.scatterAdd (rowScatter N C M wfs) zK dstI (Host.gather (rowGather N C M wfg) (mulf t dinvb) srcI)) dinvb) bb
      = addf (Host.scatterAdd (rowScatter N C M wfs) zR dstI (mulf (Host.gather (rowGather N C M wfg) t srcI) normb)) bb := by
  funext i
  obtain ⟨n, c, rfl⟩ : ∃ (n : Fin N) (c : Fin C), i = ix2 n c := ⟨i 0, i 1, eq_ix2 i⟩
  show Ideal.hostScatterAdd (rowScatter N C M wfs) zK dstI (Host.gather (rowGather N C M wfg) (mulf t dinvb) srcI) (ix2 n c)
        * dinvb (ix2 n c) + bb (ix2 n c)
      = Ideal.hostScatterAdd (rowScatter N C M wfs) zR dstI (mulf (Host.gather (rowGather N C M wfg) t srcI) normb) (ix2 n c)
        + bb (ix2 n c)
  refine congrArg (· + bb (ix2 n c)) ?_
  rw [hdb]
  symm
  refine hostScatterAdd_mul_right _ dstI zK zR _ _ (ix2 n c) (hdinv n).1 (hdinv n).2 ?_ ?_
  · rw [hzK, hzR, zero_mul]
  · intro j hj
    obtain ⟨e, c', rfl⟩ : ∃ (e : Fin M) (c' : Fin C), j = ix2 e c' := ⟨j 0, j 1, eq_ix2 j⟩
    rw [rowScatter_resultIdx?] at hj
    by_cases hin : 0 ≤ (dstI (ix2 e (0 : Fin 1))).toInt ∧ (dstI (ix2 e (0 : Fin 1))).toInt < (N : Int)
    · rw [dif_pos hin] at hj
      have hji := Option.some.inj hj
      have hn : (dstI (ix2 e (0 : Fin 1))).toInt.toNat = n.val := congrArg Fin.val (congrFun hji 0)
      have hc : c' = c := congrFun hji 1
      subst hc
      have hcl : clampRow N hN (dstI (ix2 e (0 : Fin 1))) = n := by
        refine Fin.ext ?_
        show min (dstI (ix2 e (0 : Fin 1))).toInt.toNat (N - 1) = n.val
        rw [hn]; exact Nat.min_eq_left (by have := n.isLt; omega)
      show Host.gather (rowGather N C M wfg) t srcI (ix2 e c') * normb (ix2 e c')
        = Host.gather (rowGather N C M wfg) (mulf t dinvb) srcI (ix2 e c') * dinv (ix1 n)
      rw [rowGather_apply hN, rowGather_apply hN, hnb, vecGather_apply hN, vecGather_apply hN, hdst e hin.1 hin.2, hcl]
      show t _ * (dinv _ * dinv (ix1 n)) = (t _ * dinvb _) * dinv (ix1 n)
      rw [hdb, mul_assoc]
    · rw [dif_neg hin] at hj
      exact absurd hj (by simp)

end Idealize.ShloMosaic.GcnMath

end
-- ==== Proof.BridgeDefs.lean ====
/-
  The quantities the two programs share, and what is carried unchanged from stage to stage.

  Both programs build the edge lists (sources `src`, targets `dst`, each followed by the self loops), the degree
  `deg[n] = #{e : dst e = n}` and `d = deg^(-1/2)`. The kernel program keeps `d` as a column; the reference keeps the
  per-edge factor `d[src e] · d[dst e]`, gathered at the endpoints as jnp wraps them. A stage of either program reads
  these, the weights and the biases, and writes none of them: `Carried` collects the equations that therefore hold
  between the two programs' buffers at every stage boundary.
-/
import proofs.«144057_j23888608100399_2_alg».proof.Proof.KPlain
import proofs.«144057_j23888608100399_2_alg».proof.Proof.RefRun
import proofs.«144057_j23888608100399_2_alg».proof.Proof.GcnMath
import Idealize.ShloMosaic.PureOps.Ideal

noncomputable section

namespace Cert.Bridge

open Idealize.ShloMosaic Idealize.ShloMosaic.TcCoe Idealize.SL.Sem Idealize.ShloMosaic.StableHlo
open Idealize.ShloMosaic.ValueIdx

/-- An edge endpoint list as jnp wraps it before a gather: `x + 100000` where `x` is negative, `x` elsewhere. -/
abbrev wrapR (x : IVec Cert.ReferenceIdeal.S3300000 32) : IVec Cert.ReferenceIdeal.S3300000 32 :=
  select (cmpi .slt x (broadcastInDim Cert.ReferenceIdeal.S3300000 ![] Cert.ReferenceIdeal.Gen.bcast_S_S3300000 (constantI Cert.ReferenceIdeal.S_ 32 0#32)))
    (addi x (broadcastInDim Cert.ReferenceIdeal.S3300000 ![] Cert.ReferenceIdeal.Gen.bcast_S_S3300000 (constantI Cert.ReferenceIdeal.S_ 32 100000#32))) x

/-- An endpoint list as the column of start indices a gather or scatter reads. -/
abbrev colR (x : IVec Cert.ReferenceIdeal.S3300000 32) : IVec Cert.ReferenceIdeal.S3300000x1 32 :=
  broadcastInDim Cert.ReferenceIdeal.S3300000x1 ![0] Cert.ReferenceIdeal.Gen.bcast_S3300000_S3300000x1_0 x

/-- The reference's per-edge factor `d[src] · d[dst]` from the nodes' `d` and the two endpoint lists. -/
abbrev normOf (dinv : FVec Ideal Cert.ReferenceIdeal.S100000 .f32) (src dst : IVec Cert.ReferenceIdeal.S3300000 32) :
    FVec Ideal Cert.ReferenceIdeal.S3300000 .f32 :=
  mulf (Host.gather Cert.ReferenceIdeal.gather_S100000_S3300000x1_S3300000_n_0_n_n_0_1_1 dinv (colR (wrapR src)))
    (Host.gather Cert.ReferenceIdeal.gather_S100000_S3300000x1_S3300000_n_0_n_n_0_1_1 dinv (colR (wrapR dst)))

/-- The kernel program's `d` as a column. -/
abbrev dcolOf (dinv : FVec Ideal Cert.ReferenceIdeal.S100000 .f32) : FVec Ideal Cert.ReferenceIdeal.S100000x1 .f32 :=
  broadcastInDim Cert.ReferenceIdeal.S100000x1 ![0] Cert.ReferenceIdeal.Gen.bcast_S100000_S100000x1_0 dinv

/-- What every stage leaves in place, as equations between the two programs' buffers: the edge lists, `d` as the
    kernel program's column and as the reference's per-edge factor, the graph ids, the weights and the biases. -/
structure Carried (dinv : FVec Ideal Cert.ReferenceIdeal.S100000 .f32)
    (VK : Valuation Cert.KernelIdeal.τ Cert.KernelIdeal.sig (Elt Ideal))
    (VR : Valuation Cert.ReferenceIdeal.τ Cert.ReferenceIdeal.sig (Elt Ideal)) : Prop where
  src : (VK (Proc.devRef .tc Cert.KernelIdeal.main_call0_v3) : IVec Cert.ReferenceIdeal.S3300000 32) = VR (Proc.devRef .tc Cert.ReferenceIdeal.main_v3)
  dst : (VK (Proc.devRef .tc Cert.KernelIdeal.main_call0_v6) : IVec Cert.ReferenceIdeal.S3300000 32) = VR (Proc.devRef .tc Cert.ReferenceIdeal.main_v6)
  dcol : (VK (Proc.devRef .tc Cert.KernelIdeal.main_call0_v12) : FVec Ideal Cert.ReferenceIdeal.S100000x1 .f32) = dcolOf dinv
  norm : (VR (Proc.devRef .tc Cert.ReferenceIdeal.main_v26) : FVec Ideal Cert.ReferenceIdeal.S3300000 .f32)
    = normOf dinv (VR (Proc.devRef .tc Cert.ReferenceIdeal.main_v3)) (VR (Proc.devRef .tc Cert.ReferenceIdeal.main_v6))
  a2 : (VK (Proc.devRef .tc Cert.KernelIdeal.main_arg2) : IVec Cert.ReferenceIdeal.S100000 32) = VR (Proc.devRef .tc Cert.ReferenceIdeal.main_arg2)
  a4 : (VK (Proc.devRef .tc Cert.KernelIdeal.main_arg4) : FVec Ideal Cert.ReferenceIdeal.S64 .f32) = VR (Proc.devRef .tc Cert.ReferenceIdeal.main_arg4)
  a5 : (VK (Proc.devRef .tc Cert.KernelIdeal.main_arg5) : FVec Ideal Cert.ReferenceIdeal.S64x4 .f32) = VR (Proc.devRef .tc Cert.ReferenceIdeal.main_arg5)
  a6 : (VK (Proc.devRef .tc Cert.KernelIdeal.main_arg6) : FVec Ideal Cert.ReferenceIdeal.S4 .f32) = VR (Proc.devRef .tc Cert.ReferenceIdeal.main_arg6)
  a7 : (VK (Proc.devRef .tc Cert.KernelIdeal.main_arg7) : FVec Ideal Cert.ReferenceIdeal.S4x2 .f32) = VR (Proc.devRef .tc Cert.ReferenceIdeal.main_arg7)
  a8 : (VK (Proc.devRef .tc Cert.KernelIdeal.main_arg8) : FVec Ideal Cert.ReferenceIdeal.S2 .f32) = VR (Proc.devRef .tc Cert.ReferenceIdeal.main_arg8)
  a9 : (VK (Proc.devRef .tc Cert.KernelIdeal.main_arg9) : FVec Ideal Cert.ReferenceIdeal.S2x1 .f32) = VR (Proc.devRef .tc Cert.ReferenceIdeal.main_arg9)
  a10 : (VK (Proc.devRef .tc Cert.KernelIdeal.main_arg10) : FVec Ideal Cert.ReferenceIdeal.S1 .f32) = VR (Proc.devRef .tc Cert.ReferenceIdeal.main_arg10)
  a11 : (VK (Proc.devRef .tc Cert.KernelIdeal.main_arg11) : FVec Ideal Cert.ReferenceIdeal.S1x1 .f32) = VR (Proc.devRef .tc Cert.ReferenceIdeal.main_arg11)
  a12 : (VK (Proc.devRef .tc Cert.KernelIdeal.main_arg12) : FVec Ideal Cert.ReferenceIdeal.S1 .f32) = VR (Proc.devRef .tc Cert.ReferenceIdeal.main_arg12)

/-- The nodes' `d` is a nonnegative finite real everywhere. -/
def DinvPos (dinv : FVec Ideal Cert.ReferenceIdeal.S100000 .f32) : Prop :=
  ∀ n : Fin 100000, 0 ≤ dinv (ix1 n) ∧ dinv (ix1 n) ≠ ⊤

end Cert.Bridge

end
-- ==== Proof.RPlain.lean ====
/-
  The four layers' lists with the leaky rectifier's seven operations written over the buffers' own names.

  In the straight line of @main the rectifier's operations — zero, its broadcast, the comparison with zero, the slope,
  its broadcast, the scaled value, the select — stand over the typed references of the call's record. A typed reference
  made from a literal reference is that reference, and contents carried across its type equation are the same
  contents, so each such operation IS the plain builder's operation at the buffer (`segK_eq`, by computation). The
  plain form is the one the result lemmas read a buffer off.
-/
import proofs.«144057_j23888608100399_2_alg».proof.Proof.RefRun

noncomputable section

namespace Cert.ReferenceIdeal.HRP

open Cert.ReferenceIdeal Cert.ReferenceIdeal.Gen Idealize.ShloMosaic Idealize.ShloMosaic.TcCoe Idealize.SL.Sem Idealize.ShloMosaic.StableHlo

variable {F : FTy → Type} [FloatOps F]

/-- Layer 1's operations (`HR.seg1`), the rectifier's seven over the buffers' own names. -/
abbrev rseg1 : List (HloOp τ sig (Elt F)) :=
  [ binary main_arg0 main_arg3 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_4 (constantI S_ 32 0#32),
    unary main_c_4 main_v28 (broadcastInDim S3300000 ![] bcast_S_S3300000 : (⟨S_, .i32⟩ : BufTy).Contents (Elt F) → (⟨S3300000, .i32⟩ : BufTy).Contents (Elt F)),
    binary main_v3 main_v28 main_v29 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v30 (broadcastInDim S3300000 ![] bcast_S_S3300000 : (⟨S_, .i32⟩ : BufTy).Contents (Elt F) → (⟨S3300000, .i32⟩ : BufTy).Contents (Elt F)),
    binary main_v3 main_v30 main_v31 (addi : (⟨S3300000, .i32⟩ : BufTy).Contents (Elt F) → (⟨S3300000, .i32⟩ : BufTy).Contents (Elt F) → (⟨S3300000, .i32⟩ : BufTy).Contents (Elt F)),
    ternary main_v29 main_v31 main_v3 main_v32 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v32 main_v33 (broadcastInDim S3300000x1 ![0] bcast_S3300000_S3300000x1_0 : (⟨S3300000, .i32⟩ : BufTy).Contents (Elt F) → (⟨S3300000x1, .i32⟩ : BufTy).Contents (Elt F)),
    binary main_v27 main_v33 main_v34 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v26 main_v35 (broadcastInDim S3300000x1 ![0] bcast_S3300000_S3300000x1_0 : (⟨S3300000, .f32⟩ : BufTy).Contents (Elt F) → (⟨S3300000x1, .f32⟩ : BufTy).Contents (Elt F)),
    unary main_v35 main_v36 (broadcastInDim S3300000x64 ![0, 1] bcast_S3300000x1_S3300000x64_0_1 : (⟨S3300000x1, .f32⟩ : BufTy).Contents (Elt F) → (⟨S3300000x64, .f32⟩ : BufTy).Contents (Elt F)),
    binary main_v34 main_v36 main_v37 (mulf : (⟨S3300000x64, .f32⟩ : BufTy).Contents (Elt F) → (⟨S3300000x64, .f32⟩ : BufTy).Contents (Elt F) → (⟨S3300000x64, .f32⟩ : BufTy).Contents (Elt F)),
    nullary main_cst_6 (constant S_ .f32 0x00000000#32),
    unary main_cst_6 main_v38 (broadcastInDim S100000x64 ![] bcast_S_S100000x64 : (⟨S_, .f32⟩ : BufTy).Contents (Elt F) → (⟨S100000x64, .f32⟩ : BufTy).Contents (Elt F)),
    unary main_v6 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)),
    nullary main_call0_cst (constant S_ .f32 0x00000000#32),
    unary main_call0_cst main_call0_v0 (broadcastInDim S100000x64 ![] bcast_S_S100000x64 : (⟨S_, .f32⟩ : BufTy).Contents (Elt F) → (⟨S100000x64, .f32⟩ : BufTy).Contents (Elt F)),
    binary main_v43 main_call0_v0 main_call0_v1 (cmpf .oge : (⟨S100000x64, .f32⟩ : BufTy).Contents (Elt F) → (⟨S100000x64, .f32⟩ : BufTy).Contents (Elt F) → (⟨S100000x64, .i1⟩ : BufTy).Contents (Elt F)),
    nullary main_call0_cst_0 (constant S_ .f32 0x3C23D70A#32),
    unary main_call0_cst_0 main_call0_v2 (broadcastInDim S100000x64 ![] bcast_S_S100000x64 : (⟨S_, .f32⟩ : BufTy).Contents (Elt F) → (⟨S100000x64, .f32⟩ : BufTy).Contents (Elt F)),
    binary main_call0_v2 main_v43 main_call0_v3 (mulf : (⟨S100000x64, .f32⟩ : BufTy).Contents (Elt F) → (⟨S100000x64, .f32⟩ : BufTy).Contents (Elt F) → (⟨S100000x64, .f32⟩ : BufTy).Contents (Elt F)),
    ternary main_call0_v1 main_v43 main_call0_v3 main_v44 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Layer 2's operations (`HR.seg2`), the rectifier's seven over the buffers' own names. -/
abbrev rseg2 : List (HloOp τ sig (Elt F)) :=
  [ binary main_v44 main_arg5 main_v45 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    nullary main_c_7 (constantI S_ 32 0#32),
    unary main_c_7 main_v46 (broadcastInDim S3300000 ![] bcast_S_S3300000 : (⟨S_, .i32⟩ : BufTy).Contents (Elt F) → (⟨S3300000, .i32⟩ : BufTy).Contents (Elt F)),
    binary main_v3 main_v46 main_v47 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v48 (broadcastInDim S3300000 ![] bcast_S_S3300000 : (⟨S_, .i32⟩ : BufTy).Contents (Elt F) → (⟨S3300000, .i32⟩ : BufTy).Contents (Elt F)),
    binary main_v3 main_v48 main_v49 (addi : (⟨S3300000, .i32⟩ : BufTy).Contents (Elt F) → (⟨S3300000, .i32⟩ : BufTy).Contents (Elt F) → (⟨S3300000, .i32⟩ : BufTy).Contents (Elt F)),
    ternary main_v47 main_v49 main_v3 main_v50 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v50 main_v51 (broadcastInDim S3300000x1 ![0] bcast_S3300000_S3300000x1_0 : (⟨S3300000, .i32⟩ : BufTy).Contents (Elt F) → (⟨S3300000x1, .i32⟩ : BufTy).Contents (Elt F)),
    binary main_v45 main_v51 main_v52 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    unary main_v26 main_v53 (broadcastInDim S3300000x1 ![0] bcast_S3300000_S3300000x1_0 : (⟨S3300000, .f32⟩ : BufTy).Contents (Elt F) → (⟨S3300000x1, .f32⟩ : BufTy).Contents (Elt F)),
    unary main_v53 main_v54 (broadcastInDim S3300000x4 ![0, 1] bcast_S3300000x1_S3300000x4_0_1 : (⟨S3300000x1, .f32⟩ : BufTy).Contents (Elt F) → (⟨S3300000x4, .f32⟩ : BufTy).Contents (Elt F)),
    binary main_v52 main_v54 main_v55 (mulf : (⟨S3300000x4, .f32⟩ : BufTy).Contents (Elt F) → (⟨S3300000x4, .f32⟩ : BufTy).Contents (Elt F) → (⟨S3300000x4, .f32⟩ : BufTy).Contents (Elt F)),
    nullary main_cst_9 (constant S_ .f32 0x00000000#32),
    unary main_cst_9 main_v56 (broadcastInDim S100000x4 ![] bcast_S_S100000x4 : (⟨S_, .f32⟩ : BufTy).Contents (Elt F) → (⟨S100000x4, .f32⟩ : BufTy).Contents (Elt F)),
    unary main_v6 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)),
    unary main_arg6 main_v59 (broadcastInDim S1x4 ![1] bcast_S4_S1x4_1 : (⟨S4, .f32⟩ : BufTy).Contents (Elt F) → (⟨S1x4, .f32⟩ : BufTy).Contents (Elt F)),
    unary main_v59 main_v60 (broadcastInDim S100000x4 ![0, 1] bcast_S1x4_S100000x4_0_1 : (⟨S1x4, .f32⟩ : BufTy).Contents (Elt F) → (⟨S100000x4, .f32⟩ : BufTy).Contents (Elt F)),
    binary main_v58 main_v60 main_v61 (addf : (⟨S100000x4, .f32⟩ : BufTy).Contents (Elt F) → (⟨S100000x4, .f32⟩ : BufTy).Contents (Elt F) → (⟨S100000x4, .f32⟩ : BufTy).Contents (Elt F)),
    nullary main_call1_cst (constant S_ .f32 0x00000000#32),
    unary main_call1_cst main_call1_v0 (broadcastInDim S100000x4 ![] bcast_S_S100000x4 : (⟨S_, .f32⟩ : BufTy).Contents (Elt F) → (⟨S100000x4, .f32⟩ : BufTy).Contents (Elt F)),
    binary main_v61 main_call1_v0 main_call1_v1 (cmpf .oge : (⟨S100000x4, .f32⟩ : BufTy).Contents (Elt F) → (⟨S100000x4, .f32⟩ : BufTy).Contents (Elt F) → (⟨S100000x4, .i1⟩ : BufTy).Contents (Elt F)),
    nullary main_call1_cst_0 (constant S_ .f32 0x3C23D70A#32),
    unary main_call1_cst_0 main_call1_v2 (broadcastInDim S100000x4 ![] bcast_S_S100000x4 : (⟨S_, .f32⟩ : BufTy).Contents (Elt F) → (⟨S100000x4, .f32⟩ : BufTy).Contents (Elt F)),
    binary main_call1_v2 main_v61 main_call1_v3 (mulf : (⟨S100000x4, .f32⟩ : BufTy).Contents (Elt F) → (⟨S100000x4, .f32⟩ : BufTy).Contents (Elt F) → (⟨S100000x4, .f32⟩ : BufTy).Contents (Elt F)),
    ternary main_call1_v1 main_v61 main_call1_v3 main_v62 (select : (⟨S100000x4, .i1⟩ : BufTy).Contents (Elt F) → (⟨S100000x4, .f32⟩ : BufTy).Contents (Elt F) → (⟨S100000x4, .f32⟩ : BufTy).Contents (Elt F) → (⟨S100000x4, .f32⟩ : BufTy).Contents (Elt F)) ]

/-- Layer 3's operations (`HR.seg3`), the rectifier's seven over the buffers' own names. -/
abbrev rseg3 : List (HloOp τ sig (Elt F)) :=
  [ binary main_v62 main_arg7 main_v63 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)),
    nullary main_c_10 (constantI S_ 32 0#32),
    unary main_c_10 main_v64 (broadcastInDim S3300000 ![] bcast_S_S3300000 : (⟨S_, .i32⟩ : BufTy).Contents (Elt F) → (⟨S3300000, .i32⟩ : BufTy).Contents (Elt F)),
    binary main_v3 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v66 (broadcastInDim S3300000 ![] bcast_S_S3300000 : (⟨S_, .i32⟩ : BufTy).Contents (Elt F) → (⟨S3300000, .i32⟩ : BufTy).Contents (Elt F)),
    binary main_v3 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v3 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v26 main_v71 (broadcastInDim S3300000x1 ![0] bcast_S3300000_S3300000x1_0 : (⟨S3300000, .f32⟩ : BufTy).Contents (Elt F) → (⟨S3300000x1, .f32⟩ : BufTy).Contents (Elt F)),
    unary main_v71 main_v72 (broadcastInDim S3300000x2 ![0, 1] bcast_S3300000x1_S3300000x2_0_1 : (⟨S3300000x1, .f32⟩ : BufTy).Contents (Elt F) → (⟨S3300000x2, .f32⟩ : BufTy).Contents (Elt F)),
    binary main_v70 main_v72 main_v73 (mulf : (⟨S3300000x2, .f32⟩ : BufTy).Contents (Elt F) → (⟨S3300000x2, .f32⟩ : BufTy).Contents (Elt F) → (⟨S3300000x2, .f32⟩ : BufTy).Contents (Elt F)),
    nullary main_cst_12 (constant S_ .f32 0x00000000#32),
    unary main_cst_12 main_v74 (broadcastInDim S100000x2 ![] bcast_S_S100000x2 : (⟨S_, .f32⟩ : BufTy).Contents (Elt F) → (⟨S100000x2, .f32⟩ : BufTy).Contents (Elt F)),
    unary main_v6 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg8 main_v77 (broadcastInDim S1x2 ![1] bcast_S2_S1x2_1 : (⟨S2, .f32⟩ : BufTy).Contents (Elt F) → (⟨S1x2, .f32⟩ : BufTy).Contents (Elt F)),
    unary main_v77 main_v78 (broadcastInDim S100000x2 ![0, 1] bcast_S1x2_S100000x2_0_1 : (⟨S1x2, .f32⟩ : BufTy).Contents (Elt F) → (⟨S100000x2, .f32⟩ : BufTy).Contents (Elt F)),
    binary main_v76 main_v78 main_v79 (addf : (⟨S100000x2, .f32⟩ : BufTy).Contents (Elt F) → (⟨S100000x2, .f32⟩ : BufTy).Contents (Elt F) → (⟨S100000x2, .f32⟩ : BufTy).Contents (Elt F)),
    nullary main_call2_cst (constant S_ .f32 0x00000000#32),
    unary main_call2_cst main_call2_v0 (broadcastInDim S100000x2 ![] bcast_S_S100000x2 : (⟨S_, .f32⟩ : BufTy).Contents (Elt F) → (⟨S100000x2, .f32⟩ : BufTy).Contents (Elt F)),
    binary main_v79 main_call2_v0 main_call2_v1 (cmpf .oge : (⟨S100000x2, .f32⟩ : BufTy).Contents (Elt F) → (⟨S100000x2, .f32⟩ : BufTy).Contents (Elt F) → (⟨S100000x2, .i1⟩ : BufTy).Contents (Elt F)),
    nullary main_call2_cst_0 (constant S_ .f32 0x3C23D70A#32),
    unary main_call2_cst_0 main_call2_v2 (broadcastInDim S100000x2 ![] bcast_S_S100000x2 : (⟨S_, .f32⟩ : BufTy).Contents (Elt F) → (⟨S100000x2, .f32⟩ : BufTy).Contents (Elt F)),
    binary main_call2_v2 main_v79 main_call2_v3 (mulf : (⟨S100000x2, .f32⟩ : BufTy).Contents (Elt F) → (⟨S100000x2, .f32⟩ : BufTy).Contents (Elt F) → (⟨S100000x2, .f32⟩ : BufTy).Contents (Elt F)),
    ternary main_call2_v1 main_v79 main_call2_v3 main_v80 (select : (⟨S100000x2, .i1⟩ : BufTy).Contents (Elt F) → (⟨S100000x2, .f32⟩ : BufTy).Contents (Elt F) → (⟨S100000x2, .f32⟩ : BufTy).Contents (Elt F) → (⟨S100000x2, .f32⟩ : BufTy).Contents (Elt F)) ]

/-- Layer 4's operations (`HR.seg4`), the rectifier's seven over the buffers' own names. -/
abbrev rseg4 : List (HloOp τ sig (Elt F)) :=
  [ binary main_v80 main_arg9 main_v81 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    nullary main_c_13 (constantI S_ 32 0#32),
    unary main_c_13 main_v82 (broadcastInDim S3300000 ![] bcast_S_S3300000 : (⟨S_, .i32⟩ : BufTy).Contents (Elt F) → (⟨S3300000, .i32⟩ : BufTy).Contents (Elt F)),
    binary main_v3 main_v82 main_v83 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v84 (broadcastInDim S3300000 ![] bcast_S_S3300000 : (⟨S_, .i32⟩ : BufTy).Contents (Elt F) → (⟨S3300000, .i32⟩ : BufTy).Contents (Elt F)),
    binary main_v3 main_v84 main_v85 (addi : (⟨S3300000, .i32⟩ : BufTy).Contents (Elt F) → (⟨S3300000, .i32⟩ : BufTy).Contents (Elt F) → (⟨S3300000, .i32⟩ : BufTy).Contents (Elt F)),
    ternary main_v83 main_v85 main_v3 main_v86 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v86 main_v87 (broadcastInDim S3300000x1 ![0] bcast_S3300000_S3300000x1_0 : (⟨S3300000, .i32⟩ : BufTy).Contents (Elt F) → (⟨S3300000x1, .i32⟩ : BufTy).Contents (Elt F)),
    binary main_v81 main_v87 main_v88 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v26 main_v89 (broadcastInDim S3300000x1 ![0] bcast_S3300000_S3300000x1_0 : (⟨S3300000, .f32⟩ : BufTy).Contents (Elt F) → (⟨S3300000x1, .f32⟩ : BufTy).Contents (Elt F)),
    binary main_v88 main_v89 main_v90 (mulf : (⟨S3300000x1, .f32⟩ : BufTy).Contents (Elt F) → (⟨S3300000x1, .f32⟩ : BufTy).Contents (Elt F) → (⟨S3300000x1, .f32⟩ : BufTy).Contents (Elt F)),
    nullary main_cst_15 (constant S_ .f32 0x00000000#32),
    unary main_cst_15 main_v91 (broadcastInDim S100000x1 ![] bcast_S_S100000x1 : (⟨S_, .f32⟩ : BufTy).Contents (Elt F) → (⟨S100000x1, .f32⟩ : BufTy).Contents (Elt F)),
    unary main_v6 main_v92 (broadcastInDim S3300000x1 ![0] bcast_S3300000_S3300000x1_0 : (⟨S3300000, .i32⟩ : BufTy).Contents (Elt F) → (⟨S3300000x1, .i32⟩ : BufTy).Contents (Elt F)),
    ternary main_v91 main_v92 main_v90 main_v93 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg10 main_v94 (broadcastInDim S1x1 ![1] bcast_S1_S1x1_1 : (⟨S1, .f32⟩ : BufTy).Contents (Elt F) → (⟨S1x1, .f32⟩ : BufTy).Contents (Elt F)),
    unary main_v94 main_v95 (broadcastInDim S100000x1 ![0, 1] bcast_S1x1_S100000x1_0_1 : (⟨S1x1, .f32⟩ : BufTy).Contents (Elt F) → (⟨S100000x1, .f32⟩ : BufTy).Contents (Elt F)),
    binary main_v93 main_v95 main_v96 (addf : (⟨S100000x1, .f32⟩ : BufTy).Contents (Elt F) → (⟨S100000x1, .f32⟩ : BufTy).Contents (Elt F) → (⟨S100000x1, .f32⟩ : BufTy).Contents (Elt F)),
    nullary main_call3_cst (constant S_ .f32 0x00000000#32),
    unary main_call3_cst main_call3_v0 (broadcastInDim S100000x1 ![] bcast_S_S100000x1 : (⟨S_, .f32⟩ : BufTy).Contents (Elt F) → (⟨S100000x1, .f32⟩ : BufTy).Contents (Elt F)),
    binary main_v96 main_call3_v0 main_call3_v1 (cmpf .oge : (⟨S100000x1, .f32⟩ : BufTy).Contents (Elt F) → (⟨S100000x1, .f32⟩ : BufTy).Contents (Elt F) → (⟨S100000x1, .i1⟩ : BufTy).Contents (Elt F)),
    nullary main_call3_cst_0 (constant S_ .f32 0x3C23D70A#32),
    unary main_call3_cst_0 main_call3_v2 (broadcastInDim S100000x1 ![] bcast_S_S100000x1 : (⟨S_, .f32⟩ : BufTy).Contents (Elt F) → (⟨S100000x1, .f32⟩ : BufTy).Contents (Elt F)),
    binary main_call3_v2 main_v96 main_call3_v3 (mulf : (⟨S100000x1, .f32⟩ : BufTy).Contents (Elt F) → (⟨S100000x1, .f32⟩ : BufTy).Contents (Elt F) → (⟨S100000x1, .f32⟩ : BufTy).Contents (Elt F)),
    ternary main_call3_v1 main_v96 main_call3_v3 main_v97 (select : (⟨S100000x1, .i1⟩ : BufTy).Contents (Elt F) → (⟨S100000x1, .f32⟩ : BufTy).Contents (Elt F) → (⟨S100000x1, .f32⟩ : BufTy).Contents (Elt F) → (⟨S100000x1, .f32⟩ : BufTy).Contents (Elt F)) ]

set_option maxRecDepth 65536 in
set_option maxHeartbeats 4000000 in
theorem seg1_eq : (HR.seg1 : List (HloOp τ sig (Elt F))) = rseg1 := rfl

set_option maxRecDepth 65536 in
set_option maxHeartbeats 4000000 in
theorem seg2_eq : (HR.seg2 : List (HloOp τ sig (Elt F))) = rseg2 := rfl

set_option maxRecDepth 65536 in
set_option maxHeartbeats 4000000 in
theorem seg3_eq : (HR.seg3 : List (HloOp τ sig (Elt F))) = rseg3 := rfl

set_option maxRecDepth 65536 in
set_option maxHeartbeats 4000000 in
theorem seg4_eq : (HR.seg4 : List (HloOp τ sig (Elt F))) = rseg4 := rfl

end Cert.ReferenceIdeal.HRP

end
-- ==== Proof.Layer1.lean ====
/-
  Layer 1: the two programs compute the same activations.

  Given equal activations of the layer before (and what the stages carry): the kernel program scales the dense transform by `d` per node
  before the edge sum and scales the sum by `d` after it; the reference scales each edge's message by `d[src] · d[dst]`.
  With `d` nonnegative and finite the two biased sums are one array (GcnMath.conv_rel), and the leaky rectifier
  `x ↦ if x ≥ 0 then x else 0.01 · x` is the same pointwise function of it in both programs.
-/
import proofs.«144057_j23888608100399_2_alg».proof.Proof.BridgeDefs
import proofs.«144057_j23888608100399_2_alg».proof.Proof.RPlain

noncomputable section

namespace Cert.Bridge

open Idealize.ShloMosaic Idealize.ShloMosaic.TcCoe Idealize.SL.Sem Idealize.ShloMosaic.StableHlo
open Idealize.ShloMosaic.ValueIdx Idealize.ShloMosaic.GcnMath Idealize.ShloMosaic.RowIdx

/-- The leaky rectifier as the kernel program spells it: `x` where `x ≥ 0`, `0.01 · x` elsewhere. -/
def lreluK1 (X : FVec Ideal Cert.KernelIdeal.S100000x64 .f32) : FVec Ideal Cert.KernelIdeal.S100000x64 .f32 :=
  select (cmpf .oge X (broadcastInDim Cert.KernelIdeal.S100000x64 ![] Cert.KernelIdeal.Gen.bcast_S_S100000x64 (constant Cert.KernelIdeal.S_ .f32 0x00000000#32)))
    X (mulf (broadcastInDim Cert.KernelIdeal.S100000x64 ![] Cert.KernelIdeal.Gen.bcast_S_S100000x64 (id (constant Cert.KernelIdeal.S_ .f32 0x3C23D70A#32))) X)

/-- The leaky rectifier as the reference spells it. -/
def lreluR1 (X : FVec Ideal Cert.ReferenceIdeal.S100000x64 .f32) : FVec Ideal Cert.ReferenceIdeal.S100000x64 .f32 :=
  select (cmpf .oge X (broadcastInDim Cert.ReferenceIdeal.S100000x64 ![] Cert.ReferenceIdeal.Gen.bcast_S_S100000x64 (constant Cert.ReferenceIdeal.S_ .f32 0x00000000#32)))
    X (mulf (broadcastInDim Cert.ReferenceIdeal.S100000x64 ![] Cert.ReferenceIdeal.Gen.bcast_S_S100000x64 (constant Cert.ReferenceIdeal.S_ .f32 0x3C23D70A#32)) X)

set_option maxRecDepth 8192 in
set_option maxHeartbeats 4000000 in
/-- The kernel program's activations are the leaky rectifier of its biased sum. -/
theorem k1_act (VK : Valuation Cert.KernelIdeal.τ Cert.KernelIdeal.sig (Elt Ideal)) :
    after (Cert.KernelIdeal.KP.pseg1 (F := Ideal)) VK (Proc.devRef .tc Cert.KernelIdeal.main_call0_v29)
      = lreluK1 (after (Cert.KernelIdeal.KP.pseg1 (F := Ideal)) VK (Proc.devRef .tc Cert.KernelIdeal.main_call0_v28)) := by
  after_results_simp
  rfl

set_option maxRecDepth 8192 in
set_option maxHeartbeats 4000000 in
/-- The reference's activations are the leaky rectifier of its biased sum. -/
theorem r1_act (VR : Valuation Cert.ReferenceIdeal.τ Cert.ReferenceIdeal.sig (Elt Ideal)) :
    after (Cert.ReferenceIdeal.HRP.rseg1 (F := Ideal)) VR (Proc.devRef .tc Cert.ReferenceIdeal.main_v44)
      = lreluR1 (after (Cert.ReferenceIdeal.HRP.rseg1 (F := Ideal)) VR (Proc.devRef .tc Cert.ReferenceIdeal.main_v43)) := by
  after_results_simp
  rfl

set_option maxRecDepth 8192 in
set_option maxHeartbeats 4000000 in
/-- The two programs' biased sums of layer 1 are one array. -/
theorem conv1_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (x : FVec Ideal Cert.ReferenceIdeal.S100000x128 .f32) (w : FVec Ideal Cert.ReferenceIdeal.S128x64 .f32)
    (hx : VR (Proc.devRef .tc Cert.ReferenceIdeal.main_arg0) = x) (hw : VR (Proc.devRef .tc Cert.ReferenceIdeal.main_arg3) = w)
    (hpre : (VK (Proc.devRef .tc Cert.KernelIdeal.main_call0_v13) : FVec Ideal Cert.ReferenceIdeal.S100000x64 .f32)
      = mulf (Host.dotGeneral (F := Ideal) Cert.ReferenceIdeal.dot_S100000x128_S128x64_S100000x64_1_0_0_1_n_n none x w)
          (broadcastInDim Cert.ReferenceIdeal.S100000x64 ![0, 1] Cert.KernelIdeal.Gen.bcast_S100000x1_S100000x64_0_1 (dcolOf dinv)))
    : (after (Cert.KernelIdeal.KP.pseg1 (F := Ideal)) VK (Proc.devRef .tc Cert.KernelIdeal.main_call0_v28)
        : FVec Ideal Cert.ReferenceIdeal.S100000x64 .f32)
      = after (Cert.ReferenceIdeal.HRP.rseg1 (F := Ideal)) VR (Proc.devRef .tc Cert.ReferenceIdeal.main_v43) := by
  after_results_simp
  rw [hpre, hx, hw, hc.a4, hc.src, hc.dst, hc.dcol, hc.norm]
  refine conv_rel (N := 100000) (C := 64) (M := 3300000) (by decide) _ _
    Cert.ReferenceIdeal.gather_S100000_S3300000x1_S3300000_n_0_n_n_0_1_1.wf _ dinv hpos _ _
    (colR (wrapR (VR (Proc.devRef .tc Cert.ReferenceIdeal.main_v6)))) ?_ _ ?_ _ ?_ _ _ ?_ ?_ _
  · intro e h0 h1
    rw [bcast_col_apply] at h0 h1 ⊢
    exact (bcast_col_apply _ _ e).trans (wrap_apply_of_nonneg _ _ _ e h0)
  · intro n c
    rw [bcast_rows_apply]
    exact bcast_col_apply _ _ n
  · intro e c
    rw [bcast_rows_apply, bcast_col_apply]
    rfl
  · intro i; exact zero_bcast_apply _ i
  · intro i; exact zero_bcast_apply _ i

set_option maxRecDepth 8192 in
/-- The activations of layer 1 agree. -/
theorem layer1_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (x : FVec Ideal Cert.ReferenceIdeal.S100000x128 .f32) (w : FVec Ideal Cert.ReferenceIdeal.S128x64 .f32)
    (hx : VR (Proc.devRef .tc Cert.ReferenceIdeal.main_arg0) = x) (hw : VR (Proc.devRef .tc Cert.ReferenceIdeal.main_arg3) = w)
    (hpre : (VK (Proc.devRef .tc Cert.KernelIdeal.main_call0_v13) : FVec Ideal Cert.ReferenceIdeal.S100000x64 .f32)
      = mulf (Host.dotGeneral (F := Ideal) Cert.ReferenceIdeal.dot_S100000x128_S128x64_S100000x64_1_0_0_1_n_n none x w)
          (broadcastInDim Cert.ReferenceIdeal.S100000x64 ![0, 1] Cert.KernelIdeal.Gen.bcast_S100000x1_S100000x64_0_1 (dcolOf dinv)))
    : (after (Cert.KernelIdeal.KP.pseg1 (F := Ideal)) VK (Proc.devRef .tc Cert.KernelIdeal.main_call0_v29)
        : FVec Ideal Cert.ReferenceIdeal.S100000x64 .f32)
      = after (Cert.ReferenceIdeal.HRP.rseg1 (F := Ideal)) VR (Proc.devRef .tc Cert.ReferenceIdeal.main_v44) := by
  rw [k1_act, r1_act, conv1_rel VK VR dinv hpos hc x w hx hw hpre]
  generalize after (Cert.ReferenceIdeal.HRP.rseg1 (F := Ideal)) VR (Proc.devRef .tc Cert.ReferenceIdeal.main_v43) = Y
  rfl

end Cert.Bridge

end
-- ==== Proof.Layer2.lean ====
/-
  Layer 2: the two programs compute the same activations.

  Given equal activations of the layer before (and everything the stages carry): the kernel program scales the dense transform by `d` per node
  before the edge sum and scales the sum by `d` after it; the reference scales each edge's message by `d[src] · d[dst]`.
  With `d` nonnegative and finite the two biased sums are one array (GcnMath.conv_rel), and the leaky rectifier
  `x ↦ if x ≥ 0 then x else 0.01 · x` is the same pointwise function of it in both programs.
-/
import proofs.«144057_j23888608100399_2_alg».proof.Proof.BridgeDefs
import proofs.«144057_j23888608100399_2_alg».proof.Proof.RPlain

noncomputable section

namespace Cert.Bridge

open Idealize.ShloMosaic Idealize.ShloMosaic.TcCoe Idealize.SL.Sem Idealize.ShloMosaic.StableHlo
open Idealize.ShloMosaic.ValueIdx Idealize.ShloMosaic.GcnMath Idealize.ShloMosaic.RowIdx

/-- The leaky rectifier as the kernel program spells it: `x` where `x ≥ 0`, `0.01 · x` elsewhere. -/
def lreluK2 (X : FVec Ideal Cert.KernelIdeal.S100000x4 .f32) : FVec Ideal Cert.KernelIdeal.S100000x4 .f32 :=
  select (cmpf .oge X (broadcastInDim Cert.KernelIdeal.S100000x4 ![] Cert.KernelIdeal.Gen.bcast_S_S100000x4 (constant Cert.KernelIdeal.S_ .f32 0x00000000#32)))
    X (mulf (broadcastInDim Cert.KernelIdeal.S100000x4 ![] Cert.KernelIdeal.Gen.bcast_S_S100000x4 (id (constant Cert.KernelIdeal.S_ .f32 0x3C23D70A#32))) X)

/-- The leaky rectifier as the reference spells it. -/
def lreluR2 (X : FVec Ideal Cert.ReferenceIdeal.S100000x4 .f32) : FVec Ideal Cert.ReferenceIdeal.S100000x4 .f32 :=
  select (cmpf .oge X (broadcastInDim Cert.ReferenceIdeal.S100000x4 ![] Cert.ReferenceIdeal.Gen.bcast_S_S100000x4 (constant Cert.ReferenceIdeal.S_ .f32 0x00000000#32)))
    X (mulf (broadcastInDim Cert.ReferenceIdeal.S100000x4 ![] Cert.ReferenceIdeal.Gen.bcast_S_S100000x4 (constant Cert.ReferenceIdeal.S_ .f32 0x3C23D70A#32)) X)

set_option maxRecDepth 8192 in
set_option maxHeartbeats 4000000 in
/-- The kernel program's activations are the leaky rectifier of its biased sum. -/
theorem k2_act (VK : Valuation Cert.KernelIdeal.τ Cert.KernelIdeal.sig (Elt Ideal)) :
    after (Cert.KernelIdeal.KP.pseg2 (F := Ideal)) VK (Proc.devRef .tc Cert.KernelIdeal.main_call0_v48)
      = lreluK2 (after (Cert.KernelIdeal.KP.pseg2 (F := Ideal)) VK (Proc.devRef .tc Cert.KernelIdeal.main_call0_v47)) := by
  after_results_simp
  rfl

set_option maxRecDepth 8192 in
set_option maxHeartbeats 4000000 in
/-- The reference's activations are the leaky rectifier of its biased sum. -/
theorem r2_act (VR : Valuation Cert.ReferenceIdeal.τ Cert.ReferenceIdeal.sig (Elt Ideal)) :
    after (Cert.ReferenceIdeal.HRP.rseg2 (F := Ideal)) VR (Proc.devRef .tc Cert.ReferenceIdeal.main_v62)
      = lreluR2 (after (Cert.ReferenceIdeal.HRP.rseg2 (F := Ideal)) VR (Proc.devRef .tc Cert.ReferenceIdeal.main_v61)) := by
  after_results_simp
  rfl

set_option maxRecDepth 8192 in
set_option maxHeartbeats 4000000 in
/-- The two programs' biased sums of layer 2 are one array. -/
theorem conv2_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (hh : (VK (Proc.devRef .tc Cert.KernelIdeal.main_call0_v29) : FVec Ideal Cert.ReferenceIdeal.S100000x64 .f32)
      = VR (Proc.devRef .tc Cert.ReferenceIdeal.main_v44))
    : (after (Cert.KernelIdeal.KP.pseg2 (F := Ideal)) VK (Proc.devRef .tc Cert.KernelIdeal.main_call0_v47)
        : FVec Ideal Cert.ReferenceIdeal.S100000x4 .f32)
      = after (Cert.ReferenceIdeal.HRP.rseg2 (F := Ideal)) VR (Proc.devRef .tc Cert.ReferenceIdeal.main_v61) := by
  after_results_simp
  rw [hh, hc.a5, hc.a6, hc.src, hc.dst, hc.dcol, hc.norm]
  refine conv_rel (N := 100000) (C := 4) (M := 3300000) (by decide) _ _
    Cert.ReferenceIdeal.gather_S100000_S3300000x1_S3300000_n_0_n_n_0_1_1.wf _ dinv hpos _ _
    (colR (wrapR (VR (Proc.devRef .tc Cert.ReferenceIdeal.main_v6)))) ?_ _ ?_ _ ?_ _ _ ?_ ?_ _
  · intro e h0 h1
    rw [bcast_col_apply] at h0 h1 ⊢
    exact (bcast_col_apply _ _ e).trans (wrap_apply_of_nonneg _ _ _ e h0)
  · intro n c
    rw [bcast_rows_apply]
    exact bcast_col_apply _ _ n
  · intro e c
    rw [bcast_rows_apply, bcast_col_apply]
    rfl
  · intro i; exact zero_bcast_apply _ i
  · intro i; exact zero_bcast_apply _ i

set_option maxRecDepth 8192 in
/-- The activations of layer 2 agree. -/
theorem layer2_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (hh : (VK (Proc.devRef .tc Cert.KernelIdeal.main_call0_v29) : FVec Ideal Cert.ReferenceIdeal.S100000x64 .f32)
      = VR (Proc.devRef .tc Cert.ReferenceIdeal.main_v44))
    : (after (Cert.KernelIdeal.KP.pseg2 (F := Ideal)) VK (Proc.devRef .tc Cert.KernelIdeal.main_call0_v48)
        : FVec Ideal Cert.ReferenceIdeal.S100000x4 .f32)
      = after (Cert.ReferenceIdeal.HRP.rseg2 (F := Ideal)) VR (Proc.devRef .tc Cert.ReferenceIdeal.main_v62) := by
  rw [k2_act, r2_act, conv2_rel VK VR dinv hpos hc hh]
  generalize after (Cert.ReferenceIdeal.HRP.rseg2 (F := Ideal)) VR (Proc.devRef .tc Cert.ReferenceIdeal.main_v61) = Y
  rfl

end Cert.Bridge

end
-- ==== Proof.Layer3.lean ====
/-
  Layer 3: the two programs compute the same activations.

  Given equal activations of the layer before (and what the stages carry): the kernel program scales the dense transform by `d` per node
  before the edge sum and scales the sum by `d` after it; the reference scales each edge's message by `d[src] · d[dst]`.
  With `d` nonnegative and finite the two biased sums are one array (GcnMath.conv_rel), and the leaky rectifier
  `x ↦ if x ≥ 0 then x else 0.01 · x` is the same pointwise function of it in both programs.
-/
import proofs.«144057_j23888608100399_2_alg».proof.Proof.BridgeDefs
import proofs.«144057_j23888608100399_2_alg».proof.Proof.RPlain

noncomputable section

namespace Cert.Bridge

open Idealize.ShloMosaic Idealize.ShloMosaic.TcCoe Idealize.SL.Sem Idealize.ShloMosaic.StableHlo
open Idealize.ShloMosaic.ValueIdx Idealize.ShloMosaic.GcnMath Idealize.ShloMosaic.RowIdx

/-- The leaky rectifier as the kernel program spells it: `x` where `x ≥ 0`, `0.01 · x` elsewhere. -/
def lreluK3 (X : FVec Ideal Cert.KernelIdeal.S100000x2 .f32) : FVec Ideal Cert.KernelIdeal.S100000x2 .f32 :=
  select (cmpf .oge X (broadcastInDim Cert.KernelIdeal.S100000x2 ![] Cert.KernelIdeal.Gen.bcast_S_S100000x2 (constant Cert.KernelIdeal.S_ .f32 0x00000000#32)))
    X (mulf (broadcastInDim Cert.KernelIdeal.S100000x2 ![] Cert.KernelIdeal.Gen.bcast_S_S100000x2 (id (constant Cert.KernelIdeal.S_ .f32 0x3C23D70A#32))) X)

/-- The leaky rectifier as the reference spells it. -/
def lreluR3 (X : FVec Ideal Cert.ReferenceIdeal.S100000x2 .f32) : FVec Ideal Cert.ReferenceIdeal.S100000x2 .f32 :=
  select (cmpf .oge X (broadcastInDim Cert.ReferenceIdeal.S100000x2 ![] Cert.ReferenceIdeal.Gen.bcast_S_S100000x2 (constant Cert.ReferenceIdeal.S_ .f32 0x00000000#32)))
    X (mulf (broadcastInDim Cert.ReferenceIdeal.S100000x2 ![] Cert.ReferenceIdeal.Gen.bcast_S_S100000x2 (constant Cert.ReferenceIdeal.S_ .f32 0x3C23D70A#32)) X)

set_option maxRecDepth 8192 in
set_option maxHeartbeats 4000000 in
/-- The kernel program's activations are the leaky rectifier of its biased sum. -/
theorem k3_act (VK : Valuation Cert.KernelIdeal.τ Cert.KernelIdeal.sig (Elt Ideal)) :
    after (Cert.KernelIdeal.KP.pseg3 (F := Ideal)) VK (Proc.devRef .tc Cert.KernelIdeal.main_call0_v67)
      = lreluK3 (after (Cert.KernelIdeal.KP.pseg3 (F := Ideal)) VK (Proc.devRef .tc Cert.KernelIdeal.main_call0_v66)) := by
  after_results_simp
  rfl

set_option maxRecDepth 8192 in
set_option maxHeartbeats 4000000 in
/-- The reference's activations are the leaky rectifier of its biased sum. -/
theorem r3_act (VR : Valuation Cert.ReferenceIdeal.τ Cert.ReferenceIdeal.sig (Elt Ideal)) :
    after (Cert.ReferenceIdeal.HRP.rseg3 (F := Ideal)) VR (Proc.devRef .tc Cert.ReferenceIdeal.main_v80)
      = lreluR3 (after (Cert.ReferenceIdeal.HRP.rseg3 (F := Ideal)) VR (Proc.devRef .tc Cert.ReferenceIdeal.main_v79)) := by
  after_results_simp
  rfl

set_option maxRecDepth 8192 in
set_option maxHeartbeats 4000000 in
/-- The two programs' biased sums of layer 3 are one array. -/
theorem conv3_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (hh : (VK (Proc.devRef .tc Cert.KernelIdeal.main_call0_v48) : FVec Ideal Cert.ReferenceIdeal.S100000x4 .f32)
      = VR (Proc.devRef .tc Cert.ReferenceIdeal.main_v62))
    : (after (Cert.KernelIdeal.KP.pseg3 (F := Ideal)) VK (Proc.devRef .tc Cert.KernelIdeal.main_call0_v66)
        : FVec Ideal Cert.ReferenceIdeal.S100000x2 .f32)
      = after (Cert.ReferenceIdeal.HRP.rseg3 (F := Ideal)) VR (Proc.devRef .tc Cert.ReferenceIdeal.main_v79) := by
  after_results_simp
  rw [hh, hc.a7, hc.a8, hc.src, hc.dst, hc.dcol, hc.norm]
  refine conv_rel (N := 100000) (C := 2) (M := 3300000) (by decide) _ _
    Cert.ReferenceIdeal.gather_S100000_S3300000x1_S3300000_n_0_n_n_0_1_1.wf _ dinv hpos _ _
    (colR (wrapR (VR (Proc.devRef .tc Cert.ReferenceIdeal.main_v6)))) ?_ _ ?_ _ ?_ _ _ ?_ ?_ _
  · intro e h0 h1
    rw [bcast_col_apply] at h0 h1 ⊢
    exact (bcast_col_apply _ _ e).trans (wrap_apply_of_nonneg _ _ _ e h0)
  · intro n c
    rw [bcast_rows_apply]
    exact bcast_col_apply _ _ n
  · intro e c
    rw [bcast_rows_apply, bcast_col_apply]
    rfl
  · intro i; exact zero_bcast_apply _ i
  · intro i; exact zero_bcast_apply _ i

set_option maxRecDepth 8192 in
/-- The activations of layer 3 agree. -/
theorem layer3_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (hh : (VK (Proc.devRef .tc Cert.KernelIdeal.main_call0_v48) : FVec Ideal Cert.ReferenceIdeal.S100000x4 .f32)
      = VR (Proc.devRef .tc Cert.ReferenceIdeal.main_v62))
    : (after (Cert.KernelIdeal.KP.pseg3 (F := Ideal)) VK (Proc.devRef .tc Cert.KernelIdeal.main_call0_v67)
        : FVec Ideal Cert.ReferenceIdeal.S100000x2 .f32)
      = after (Cert.ReferenceIdeal.HRP.rseg3 (F := Ideal)) VR (Proc.devRef .tc Cert.ReferenceIdeal.main_v80) := by
  rw [k3_act, r3_act, conv3_rel VK VR dinv hpos hc hh]
  generalize after (Cert.ReferenceIdeal.HRP.rseg3 (F := Ideal)) VR (Proc.devRef .tc Cert.ReferenceIdeal.main_v79) = Y
  rfl

end Cert.Bridge

end
-- ==== Proof.Layer4.lean ====
/-
  Layer 4: the two programs compute the same activations.

  Given equal activations of the layer before (and what the stages carry): the kernel program scales the dense transform by `d` per node
  before the edge sum and scales the sum by `d` after it; the reference scales each edge's message by `d[src] · d[dst]`.
  With `d` nonnegative and finite the two biased sums are one array (GcnMath.conv_rel), and the leaky rectifier
  `x ↦ if x ≥ 0 then x else 0.01 · x` is the same pointwise function of it in both programs.
-/
import proofs.«144057_j23888608100399_2_alg».proof.Proof.BridgeDefs
import proofs.«144057_j23888608100399_2_alg».proof.Proof.RPlain

noncomputable section

namespace Cert.Bridge

open Idealize.ShloMosaic Idealize.ShloMosaic.TcCoe Idealize.SL.Sem Idealize.ShloMosaic.StableHlo
open Idealize.ShloMosaic.ValueIdx Idealize.ShloMosaic.GcnMath Idealize.ShloMosaic.RowIdx

/-- The leaky rectifier as the kernel program spells it: `x` where `x ≥ 0`, `0.01 · x` elsewhere. -/
def lreluK4 (X : FVec Ideal Cert.KernelIdeal.S100000x1 .f32) : FVec Ideal Cert.KernelIdeal.S100000x1 .f32 :=
  select (cmpf .oge X (broadcastInDim Cert.KernelIdeal.S100000x1 ![] Cert.KernelIdeal.Gen.bcast_S_S100000x1 (constant Cert.KernelIdeal.S_ .f32 0x00000000#32)))
    X (mulf (broadcastInDim Cert.KernelIdeal.S100000x1 ![] Cert.KernelIdeal.Gen.bcast_S_S100000x1 (id (constant Cert.KernelIdeal.S_ .f32 0x3C23D70A#32))) X)

/-- The leaky rectifier as the reference spells it. -/
def lreluR4 (X : FVec Ideal Cert.ReferenceIdeal.S100000x1 .f32) : FVec Ideal Cert.ReferenceIdeal.S100000x1 .f32 :=
  select (cmpf .oge X (broadcastInDim Cert.ReferenceIdeal.S100000x1 ![] Cert.ReferenceIdeal.Gen.bcast_S_S100000x1 (constant Cert.ReferenceIdeal.S_ .f32 0x00000000#32)))
    X (mulf (broadcastInDim Cert.ReferenceIdeal.S100000x1 ![] Cert.ReferenceIdeal.Gen.bcast_S_S100000x1 (constant Cert.ReferenceIdeal.S_ .f32 0x3C23D70A#32)) X)

set_option maxRecDepth 8192 in
set_option maxHeartbeats 4000000 in
/-- The kernel program's activations are the leaky rectifier of its biased sum. -/
theorem k4_act (VK : Valuation Cert.KernelIdeal.τ Cert.KernelIdeal.sig (Elt Ideal)) :
    after (Cert.KernelIdeal.KP.pseg4 (F := Ideal)) VK (Proc.devRef .tc Cert.KernelIdeal.main_call0_v84)
      = lreluK4 (after (Cert.KernelIdeal.KP.pseg4 (F := Ideal)) VK (Proc.devRef .tc Cert.KernelIdeal.main_call0_v83)) := by
  after_results_simp
  rfl

set_option maxRecDepth 8192 in
set_option maxHeartbeats 4000000 in
/-- The reference's activations are the leaky rectifier of its biased sum. -/
theorem r4_act (VR : Valuation Cert.ReferenceIdeal.τ Cert.ReferenceIdeal.sig (Elt Ideal)) :
    after (Cert.ReferenceIdeal.HRP.rseg4 (F := Ideal)) VR (Proc.devRef .tc Cert.ReferenceIdeal.main_v97)
      = lreluR4 (after (Cert.ReferenceIdeal.HRP.rseg4 (F := Ideal)) VR (Proc.devRef .tc Cert.ReferenceIdeal.main_v96)) := by
  after_results_simp
  rfl

set_option maxRecDepth 8192 in
set_option maxHeartbeats 4000000 in
/-- The two programs' biased sums of layer 4 are one array. -/
theorem conv4_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (hh : (VK (Proc.devRef .tc Cert.KernelIdeal.main_call0_v67) : FVec Ideal Cert.ReferenceIdeal.S100000x2 .f32)
      = VR (Proc.devRef .tc Cert.ReferenceIdeal.main_v80))
    : (after (Cert.KernelIdeal.KP.pseg4 (F := Ideal)) VK (Proc.devRef .tc Cert.KernelIdeal.main_call0_v83)
        : FVec Ideal Cert.ReferenceIdeal.S100000x1 .f32)
      = after (Cert.ReferenceIdeal.HRP.rseg4 (F := Ideal)) VR (Proc.devRef .tc Cert.ReferenceIdeal.main_v96) := by
  after_results_simp
  rw [hh, hc.a9, hc.a10, hc.src, hc.dst, hc.dcol, hc.norm]
  refine conv_rel (N := 100000) (C := 1) (M := 3300000) (by decide) _ _
    Cert.ReferenceIdeal.gather_S100000_S3300000x1_S3300000_n_0_n_n_0_1_1.wf _ dinv hpos _ _
    (colR (wrapR (VR (Proc.devRef .tc Cert.ReferenceIdeal.main_v6)))) ?_ _ ?_ _ ?_ _ _ ?_ ?_ _
  · intro e h0 h1
    rw [bcast_col_apply] at h0 h1 ⊢
    exact (bcast_col_apply _ _ e).trans (wrap_apply_of_nonneg _ _ _ e h0)
  · intro n c
    obtain rfl : c = 0 := Subsingleton.elim _ _
    exact bcast_col_apply _ _ n
  · intro e c
    obtain rfl : c = 0 := Subsingleton.elim _ _
    rw [bcast_col_apply]
    rfl
  · intro i; exact zero_bcast_apply _ i
  · intro i; exact zero_bcast_apply _ i

set_option maxRecDepth 8192 in
/-- The activations of layer 4 agree. -/
theorem layer4_rel (VK : Valuation Cert.KernelIdeal.τ Cert.KernelIdeal.sig (Elt Ideal))
    (VR : Valuation Cert.ReferenceIdeal.τ Cert.ReferenceIdeal.sig (Elt Ideal))
    (dinv : FVec Ideal Cert.ReferenceIdeal.S100000 .f32) (hpos : DinvPos dinv) (hc : Carried dinv VK VR)
    (hh : (VK (Proc.devRef .tc Cert.KernelIdeal.main_call0_v67) : FVec Ideal Cert.ReferenceIdeal.S100000x2 .f32)
      = VR (Proc.devRef .tc Cert.ReferenceIdeal.main_v80))
    : (after (Cert.KernelIdeal.KP.pseg4 (F := Ideal)) VK (Proc.devRef .tc Cert.KernelIdeal.main_call0_v84)
        : FVec Ideal Cert.ReferenceIdeal.S100000x1 .f32)
      = after (Cert.ReferenceIdeal.HRP.rseg4 (F := Ideal)) VR (Proc.devRef .tc Cert.ReferenceIdeal.main_v97) := by
  rw [k4_act, r4_act, conv4_rel VK VR dinv hpos hc hh]
  generalize after (Cert.ReferenceIdeal.HRP.rseg4 (F := Ideal)) VR (Proc.devRef .tc Cert.ReferenceIdeal.main_v96) = Y
  rfl

end Cert.Bridge

end
-- ==== Proof.Pool.lean ====
/-
  The last stage is the same function on both sides.

  Both programs end by pooling the last layer's activations per graph (a scatter-add of the activations and one of
  ones at the graph ids, the quotient by the count clamped below at one), the output transform, and the logistic
  function `1 / (1 + exp (-z))`, operation for operation. So from equal activations, graph ids and output weights
  they produce equal results; the stage is never opened.
-/
import proofs.«144057_j23888608100399_2_alg».proof.Proof.KPlain
import proofs.«144057_j23888608100399_2_alg».proof.Proof.RefRun
import Idealize.ShloMosaic.PureOps.Ideal

noncomputable section

namespace Cert.Bridge

open Idealize.ShloMosaic Idealize.ShloMosaic.TcCoe Idealize.SL.Sem Idealize.ShloMosaic.StableHlo

set_option maxRecDepth 8192 in
set_option maxHeartbeats 4000000 in
/-- The pooled, transformed and squashed result is the same function of the last activations, the graph ids and the
    output weights in both programs. -/
theorem pool_rel (VK : Valuation Cert.KernelIdeal.τ Cert.KernelIdeal.sig (Elt Ideal))
    (VR : Valuation Cert.ReferenceIdeal.τ Cert.ReferenceIdeal.sig (Elt Ideal))
    (h4 : (VK (Proc.devRef .tc Cert.KernelIdeal.main_call0_v84) : FVec Ideal Cert.KernelIdeal.S100000x1 .f32)
      = VR (Proc.devRef .tc Cert.ReferenceIdeal.main_v97))
    (hg : (VK (Proc.devRef .tc Cert.KernelIdeal.main_arg2) : IVec Cert.KernelIdeal.S100000 32)
      = VR (Proc.devRef .tc Cert.ReferenceIdeal.main_arg2))
    (hw : (VK (Proc.devRef .tc Cert.KernelIdeal.main_arg11) : FVec Ideal Cert.KernelIdeal.S1x1 .f32)
      = VR (Proc.devRef .tc Cert.ReferenceIdeal.main_arg11))
    (hb : (VK (Proc.devRef .tc Cert.KernelIdeal.main_arg12) : FVec Ideal Cert.KernelIdeal.S1 .f32)
      = VR (Proc.devRef .tc Cert.ReferenceIdeal.main_arg12)) :
    (after (Cert.KernelIdeal.KP.pseg5 (F := Ideal)) VK (Proc.devRef .tc Cert.KernelIdeal.main_v0)
        : FVec Ideal Cert.KernelIdeal.S512x1 .f32)
      = after (Cert.ReferenceIdeal.HR.seg5 (F := Ideal)) VR (Proc.devRef .tc Cert.ReferenceIdeal.main_v118) := by
  after_results_simp
  rw [h4, hg, hw, hb]
  rfl

end Cert.Bridge

end
-- ==== Proof.DegreeFacts.lean ====
/-
  The degree of a node and its reciprocal square root.

  Every node has a self loop: the list of edge targets is the given targets followed by each node once. A node's
  degree — the number of list entries equal to it, counted by a scatter-add of ones at the targets into zeros — is
  therefore a natural number at least one, so its reciprocal square root is a nonnegative finite real. Entry
  `3200000 + n` of the list is the word `n`, whose signed value is `n` (it is below `2^31`), so that update lands
  on node `n`.
-/
import proofs.«144057_j23888608100399_2_alg».proof.ReferenceIdeal
import proofs.«144057_j23888608100399_2_alg».proof.Proof.LibScatterAdd
import proofs.«144057_j23888608100399_2_alg».proof.Proof.LibRowIdx
import Idealize.ShloMosaic.Lib.ValueIdx
import Idealize.ShloMosaic.Lib.Pipeline.Value
import Idealize.ShloMosaic.Lib.IdealHost
import Idealize.ShloMosaic.PureOps.Ideal.Laws

noncomputable section

namespace Cert.Bridge.Degree

open Idealize.ShloMosaic Idealize.ShloMosaic.ValueIdx Cert.ReferenceIdeal
open Cert.ReferenceIdeal.Facts₀ Cert.ReferenceIdeal.Facts

variable [Cert.ReferenceIdeal.Facts]

/-- Entry `3200000 + n` of the target list — the targets `a`, then the nodes in order — is the word `n`. -/
theorem dst_self (a : IVec S3200000 32) (n : Fin 100000) :
    concatenate S3300000 0 [⟨S3200000, a⟩, ⟨S100000, iotaInDim S100000 32 0⟩] concatenates_S3200000_S100000_S3300000_d0
        (ix1 (⟨3200000 + n.val, by omega⟩ : Fin 3300000)) = BitVec.ofNat 32 n.val := by
  rw [concatenate_pair_apply_right (0 : Fin S3300000.rank) a (iotaInDim S100000 32 0) concatenates_S3200000_S100000_S3300000_d0
    (ix1 (⟨3200000 + n.val, by omega⟩ : Fin 3300000)) rfl rfl (ix1 n)
    (fun b hb => absurd (Subsingleton.elim _ _) hb)
    (by show n.val + 3200000 = 3200000 + n.val; omega)]
  rfl

/-- A word below `100000` read as a signed integer is that number. -/
theorem toInt_ofNat_small (n : Nat) (h : n < 100000) : (BitVec.ofNat 32 n).toInt = (n : Int) := by
  have h32 : (2 : Nat) ^ 32 = 4294967296 := by norm_num
  have e : (BitVec.ofNat 32 n).toNat = n := by
    rw [BitVec.toNat_ofNat]; exact Nat.mod_eq_of_lt (by omega)
  rw [BitVec.toInt_eq_toNat_of_lt (by rw [e]; omega), e]

/-- The list as a column, read at row `e`: the list's entry `e`. -/
theorem col_apply {α : Type} (x : S3300000.Idx → α) (e : Fin 3300000) :
    broadcastInDim S3300000x1 ![0] bcast_S3300000_S3300000x1_0 x (ix2 e (0 : Fin 1)) = x (ix1 e) :=
  broadcastInDim_apply _ _ x (ix2 e (0 : Fin 1)) (ix1 e) (fun b => by
    match b with
    | ⟨0, _⟩ => exact (if_neg (show ¬ ((3300000 : Nat) = 1) by decide)).symm)

/-- The degree scatter's dimension numbers are those of a flat scatter of `3300000` updates onto `100000` elements. -/
theorem scatter_is :
    scatter_S100000_S3300000x1_S3300000_n_0_0_1
      = RowIdx.vecScatter 100000 3300000 scatter_S100000_S3300000x1_S3300000_n_0_0_1_wf := rfl

/-- The target list: the given targets, then each node once. -/
def dstOf (a : IVec S3200000 32) : IVec S3300000 32 :=
  concatenate S3300000 0 [⟨S3200000, a⟩, ⟨S100000, iotaInDim S100000 32 0⟩] concatenates_S3200000_S100000_S3300000_d0

/-- The target list as a column of start indices. -/
def colOf (a : IVec S3200000 32) : IVec S3300000x1 32 :=
  broadcastInDim S3300000x1 ![0] bcast_S3300000_S3300000x1_0 (dstOf a)

/-- Zero at every node. -/
def zeros : FVec Ideal S100000 .f32 :=
  broadcastInDim S100000 ![] bcast_S_S100000 (constant (F := Ideal) S_ .f32 0x00000000#32)

/-- One at every list entry. -/
def ones : FVec Ideal S3300000 .f32 :=
  broadcastInDim S3300000 ![] bcast_S_S3300000 (constant (F := Ideal) S_ .f32 0x3F800000#32)

/-- The degrees: ones scatter-added at the targets into zeros. -/
def degOf (a : IVec S3200000 32) : FVec Ideal S100000 .f32 :=
  Host.scatterAdd (F := Ideal) scatter_S100000_S3300000x1_S3300000_n_0_0_1 zeros (colOf a) ones

/-- The reciprocal square roots of the degrees. -/
def dinvOf (a : IVec S3200000 32) : FVec Ideal S100000 .f32 := Host.rsqrt (F := Ideal) (degOf a)

theorem zeros_apply (i : S100000.Idx) : zeros i = 0 := by
  rw [zeros, broadcastInDim_scalar_apply, constant_apply, Ideal.ofBits_zero_f32]

theorem ones_apply (j : S3300000.Idx) : ones j = 1 := by
  rw [ones, broadcastInDim_scalar_apply, constant_apply, Ideal.ofBits_one_f32]

/-- Row `3200000 + n` of the column is the word `n`. -/
theorem colOf_self (a : IVec S3200000 32) (n : Fin 100000) :
    colOf a (ix2 (⟨3200000 + n.val, by omega⟩ : Fin 3300000) (0 : Fin 1)) = BitVec.ofNat 32 n.val := by
  rw [colOf, col_apply]; exact dst_self a n

/-- The self loop of node `n` — update `3200000 + n` — lands on node `n`. -/
theorem self_lands (a : IVec S3200000 32) (n : Fin 100000) :
    scatter_S100000_S3300000x1_S3300000_n_0_0_1.resultIdx? (ix1 (⟨3200000 + n.val, by omega⟩ : Fin 3300000)) (colOf a)
      = some (ix1 n) := by
  have hw := colOf_self a n
  have hi : (BitVec.ofNat 32 n.val).toInt = (n.val : Int) := toInt_ofNat_small n.val n.isLt
  rw [scatter_is, RowIdx.vecScatter_resultIdx?]
  have hc : 0 ≤ (colOf a (ix2 (⟨3200000 + n.val, by omega⟩ : Fin 3300000) (0 : Fin 1))).toInt
      ∧ (colOf a (ix2 (⟨3200000 + n.val, by omega⟩ : Fin 3300000) (0 : Fin 1))).toInt < ((100000 : Nat) : Int) := by
    rw [hw, hi]; have := n.isLt; omega
  rw [dif_pos hc]
  refine congrArg some (congrArg ix1 (Fin.ext ?_))
  show ((colOf a (ix2 (⟨3200000 + n.val, by omega⟩ : Fin 3300000) (0 : Fin 1))).toInt).toNat = n.val
  rw [hw, hi, Int.toNat_natCast]

/-- The host's reciprocal square root at the exact instance, read at an element. -/
theorem hostRsqrt_apply {s : Shape} {φ : FTy} (x : FVec Ideal s φ) (i : s.Idx) :
    Host.rsqrt (F := Ideal) x i = Ideal.rsqrt (x i) := rfl

/-- The host's accumulating scatter at the exact instance is the exact sum. -/
theorem hostScatterAdd_eq {s si su : Shape} {φ : FTy} {w : Nat} (d : ScatterDims s si su) (x : FVec Ideal s φ)
    (idx : IVec si w) (u : FVec Ideal su φ) :
    Host.scatterAdd (F := Ideal) d x idx u = Ideal.hostScatterAdd d x idx u := rfl

/-- A node's degree is a natural number, at least one. -/
theorem deg_natCast (a : IVec S3200000 32) (n : Fin 100000) :
    ∃ k : ℕ, 0 < k ∧ degOf a (ix1 n) = (((k : ℝ) : EReal)) := by
  rw [degOf, hostScatterAdd_eq,
    ScatterAddLaws.hostScatterAdd_ones _ _ _ _ _ (zeros_apply (ix1 n)) ones_apply]
  refine ⟨_, ?_, rfl⟩
  exact Finset.card_pos.mpr ⟨ix1 (⟨3200000 + n.val, by omega⟩ : Fin 3300000),
    Finset.mem_filter.mpr ⟨Finset.mem_univ _, self_lands a n⟩⟩

/-- The reciprocal square root of a node's degree is a nonnegative finite real. -/
theorem dinvOf_pos (a : IVec S3200000 32) (n : Fin 100000) :
    0 ≤ dinvOf a (ix1 n) ∧ dinvOf a (ix1 n) ≠ ⊤ := by
  obtain ⟨k, hk, e⟩ := deg_natCast a n
  rw [dinvOf, hostRsqrt_apply, e]
  exact ScatterAddLaws.rsqrt_natCast_pos hk

/-- `dinvOf` spelled out over the program's operations. -/
theorem dinvOf_eq (a : IVec S3200000 32) :
    dinvOf a = Host.rsqrt (F := Ideal) (Host.scatterAdd (F := Ideal) scatter_S100000_S3300000x1_S3300000_n_0_0_1
      (broadcastInDim S100000 ![] bcast_S_S100000 (constant (F := Ideal) S_ .f32 0x00000000#32))
      (broadcastInDim S3300000x1 ![0] bcast_S3300000_S3300000x1_0
        (concatenate S3300000 0 [⟨S3200000, a⟩, ⟨S100000, iotaInDim S100000 32 0⟩] concatenates_S3200000_S100000_S3300000_d0))
      (broadcastInDim S3300000 ![] bcast_S_S3300000 (constant (F := Ideal) S_ .f32 0x3F800000#32))) := rfl

/-- The same over the program's own term. -/
theorem dinv_pos (a : IVec S3200000 32) (n : Fin 100000) :
    0 ≤ Host.rsqrt (F := Ideal) (Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0
          (concatenate S3300000 0 [⟨S3200000, a⟩, ⟨S100000, iotaInDim S100000 32 0⟩] concatenates_S3200000_S100000_S3300000_d0))
        (broadcastInDim S3300000 ![] bcast_S_S3300000 (constant (F := Ideal) S_ .f32 0x3F800000#32))) (ix1 n)
      ∧ Host.rsqrt (F := Ideal) (Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0
          (concatenate S3300000 0 [⟨S3200000, a⟩, ⟨S100000, iotaInDim S100000 32 0⟩] concatenates_S3200000_S100000_S3300000_d0))
        (broadcastInDim S3300000 ![] bcast_S_S3300000 (constant (F := Ideal) S_ .f32 0x3F800000#32))) (ix1 n) ≠ ⊤ := by
  rw [← dinvOf_eq]
  exact dinvOf_pos a n

end Cert.Bridge.Degree

end
-- ==== Proof.Norm.lean ====
/-
  The edge lists and the degree are the same in both programs.

  Both programs read the edge array's two rows, append the self loops `0 … N-1` to each, count every node's incoming
  edges by a scatter-add of ones at the targets, and take the inverse square root `d`. The kernel program then keeps `d`
  as a column; the reference gathers `d` at the wrapped sources and targets of every edge and keeps the product.
  From equal edge arrays the lists agree, the kernel program's column is the reference's `d` as a column, and the
  reference's product is the per-edge factor of that `d`.
-/
import proofs.«144057_j23888608100399_2_alg».proof.Proof.BridgeDefs
import proofs.«144057_j23888608100399_2_alg».proof.Proof.DegreeFacts

noncomputable section

namespace Cert.Bridge

open Idealize.ShloMosaic Idealize.ShloMosaic.TcCoe Idealize.SL.Sem Idealize.ShloMosaic.StableHlo
open Idealize.ShloMosaic.ValueIdx

/-- The operations' results read one at a time by rewriting, where an operand sits inside a list of pieces (a
    concatenation's operands) that a single simplification pass does not enter. -/
macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

variable (LK : Valuation Cert.KernelIdeal.τ Cert.KernelIdeal.sig (Elt Ideal))
  (LR : Valuation Cert.ReferenceIdeal.τ Cert.ReferenceIdeal.sig (Elt Ideal))

set_option maxRecDepth 8192 in
/-- The source lists agree. -/
theorem n_src (he : (LK (Proc.devRef .tc Cert.KernelIdeal.main_arg1) : IVec Cert.ReferenceIdeal.S2x3200000 32)
      = LR (Proc.devRef .tc Cert.ReferenceIdeal.main_arg1)) :
    (after (Cert.KernelIdeal.KP.pseg0 (F := Ideal)) LK (Proc.devRef .tc Cert.KernelIdeal.main_call0_v3) : IVec Cert.ReferenceIdeal.S3300000 32)
      = after (Cert.ReferenceIdeal.HR.seg0 (F := Ideal)) LR (Proc.devRef .tc Cert.ReferenceIdeal.main_v3) := by
  after_results_simp
  results_rw
  rw [he]
  rfl

set_option maxRecDepth 8192 in
/-- The target lists agree. -/
theorem n_dst (he : (LK (Proc.devRef .tc Cert.KernelIdeal.main_arg1) : IVec Cert.ReferenceIdeal.S2x3200000 32)
      = LR (Proc.devRef .tc Cert.ReferenceIdeal.main_arg1)) :
    (after (Cert.KernelIdeal.KP.pseg0 (F := Ideal)) LK (Proc.devRef .tc Cert.KernelIdeal.main_call0_v6) : IVec Cert.ReferenceIdeal.S3300000 32)
      = after (Cert.ReferenceIdeal.HR.seg0 (F := Ideal)) LR (Proc.devRef .tc Cert.ReferenceIdeal.main_v6) := by
  after_results_simp
  results_rw
  rw [he]
  rfl

set_option maxRecDepth 8192 in
/-- The kernel program's column is the reference's `d`, as a column. -/
theorem n_dcol (he : (LK (Proc.devRef .tc Cert.KernelIdeal.main_arg1) : IVec Cert.ReferenceIdeal.S2x3200000 32)
      = LR (Proc.devRef .tc Cert.ReferenceIdeal.main_arg1)) :
    (after (Cert.KernelIdeal.KP.pseg0 (F := Ideal)) LK (Proc.devRef .tc Cert.KernelIdeal.main_call0_v12) : FVec Ideal Cert.ReferenceIdeal.S100000x1 .f32)
      = dcolOf (after (Cert.ReferenceIdeal.HR.seg0 (F := Ideal)) LR (Proc.devRef .tc Cert.ReferenceIdeal.main_v11)) := by
  after_results_simp
  results_rw
  rw [he]
  rfl

set_option maxRecDepth 8192 in
/-- The reference's per-edge product is the factor of its `d` at its wrapped endpoint lists. -/
theorem n_norm :
    (after (Cert.ReferenceIdeal.HR.seg0 (F := Ideal)) LR (Proc.devRef .tc Cert.ReferenceIdeal.main_v26) : FVec Ideal Cert.ReferenceIdeal.S3300000 .f32)
      = normOf (after (Cert.ReferenceIdeal.HR.seg0 (F := Ideal)) LR (Proc.devRef .tc Cert.ReferenceIdeal.main_v11))
          (after (Cert.ReferenceIdeal.HR.seg0 (F := Ideal)) LR (Proc.devRef .tc Cert.ReferenceIdeal.main_v3))
          (after (Cert.ReferenceIdeal.HR.seg0 (F := Ideal)) LR (Proc.devRef .tc Cert.ReferenceIdeal.main_v6)) := by
  after_results_simp
  results_rw

attribute [local instance] Cert.ReferenceIdeal.Gen.facts

set_option maxRecDepth 8192 in
/-- The reference's `d` is the inverse square root of a degree count taken with the self loops appended to the targets:
    a nonnegative finite real at every node. -/
theorem n_pos : DinvPos (after (Cert.ReferenceIdeal.HR.seg0 (F := Ideal)) LR (Proc.devRef .tc Cert.ReferenceIdeal.main_v11)) := by
  obtain ⟨a, e⟩ : ∃ a, (after (Cert.ReferenceIdeal.HR.seg0 (F := Ideal)) LR (Proc.devRef .tc Cert.ReferenceIdeal.main_v11)
      : FVec Ideal Cert.ReferenceIdeal.S100000 .f32) = Degree.dinvOf a :=
    ⟨_, by after_results_simp; results_rw; rfl⟩
  intro n
  rw [e]
  exact Degree.dinvOf_pos a n

end Cert.Bridge

end
-- ==== Proof.KernelTail.lean ====
/-
  The tail of the program, stage by stage.

  When the region ends, the buffers hold what they held when it was entered, except the region's four arrays, which
  hold what the run left in them. From those contents the 138 later operations run in order; cut into five stages,
  running the line is running the stages one after the other, and a stage changes only the buffers its operations
  write. The program's result is the last stage's last buffer.
-/
import proofs.«144057_j23888608100399_2_alg».proof.Proof.FrameKI
import proofs.«144057_j23888608100399_2_alg».proof.Proof.KSegs

-- membership in a list of up to 29 references, decided entry by entry
set_option maxRecDepth 16384

noncomputable section

namespace Cert.KernelIdeal.KT

open Cert.KernelIdeal Cert.KernelIdeal.Gen Cert.KernelIdeal.KS Idealize.ShloMosaic Idealize.ShloMosaic.StableHlo
open Idealize.ShloMosaic.TcCoe Idealize.SL.Sem

variable {F : FTy → Type} [FloatOps F]

/-! ## The contents the tail starts from -/

/-- Core `c`'s buffer contents when the region ends: the region-entry contents, with the region's four arrays at what the
    run left in them. -/
def tailStart (m : (ℓ : Loc nD τ sig) → Buf (Elt F) ℓ) (c : Dev nD) : Valuation τ sig (Elt F) :=
  Pipeline.withArrays spec0 c (HF.V0 m c) (fun w => (HF.dats m 0 c).arrAt w cfg0.N)

/-- The result buffer after the frame run is the result buffer after the 138 operations run from `tailStart`. -/
theorem tail_value (m : (ℓ : Loc nD τ sig) → Buf (Elt F) ℓ) (c : Dev nD) :
    Pipeline.afterTail₀ cfgs (HF.dats m) 0 (HF.V0 m) [hostOps1] c main_v0 = after hostOps1 (tailStart m c) (Proc.devRef .tc main_v0) := by
  unfold Pipeline.afterTail₀ tailStart
  rw [HF.flatten_one]

/-- The region's output array starts the tail at what the run left in it. -/
theorem tailStart_v13 (m : (ℓ : Loc nD τ sig) → Buf (Elt F) ℓ) (c : Dev nD) :
    tailStart m c (Proc.devRef .tc main_call0_v13) = (HF.dats m 0 c).arrAt 3 cfg0.N :=
  Pipeline.withArrays_arr spec0 launch0.win.arr_inj c _ _ 3

/-- A buffer that is none of the region's arrays starts the tail at its region-entry contents. -/
theorem tailStart_other (m : (ℓ : Loc nD τ sig) → Buf (Elt F) ℓ) (c : Dev nD) (b : Ref sig .tc) (hb : ∀ w, Pipeline.arrRef spec0 w ≠ b) :
    tailStart m c (Proc.devRef .tc b) = HF.V0 m c (Proc.devRef .tc b) :=
  Pipeline.withArrays_of_ne spec0 c (HF.V0 m c) _ b hb

/-- The scales' array is one the region only reads (its window 2): the run leaves it at its region-entry contents. -/
theorem tailStart_v12 (m : (ℓ : Loc nD τ sig) → Buf (Elt F) ℓ) (c : Dev nD) :
    tailStart m c (Proc.devRef .tc main_call0_v12) = HF.V0 m c (Proc.devRef .tc main_call0_v12) :=
  (Pipeline.withArrays_arr spec0 launch0.win.arr_inj c _ _ 2).trans (((HF.dats m 0 c).arrAt_in 2 rfl _).trans (HF.A_eq m c 2))
theorem tailStart_v3 (m : (ℓ : Loc nD τ sig) → Buf (Elt F) ℓ) (c : Dev nD) :
    tailStart m c (Proc.devRef .tc main_call0_v3) = HF.V0 m c (Proc.devRef .tc main_call0_v3) := tailStart_other m c main_call0_v3 (by decide)
theorem tailStart_v6 (m : (ℓ : Loc nD τ sig) → Buf (Elt F) ℓ) (c : Dev nD) :
    tailStart m c (Proc.devRef .tc main_call0_v6) = HF.V0 m c (Proc.devRef .tc main_call0_v6) := tailStart_other m c main_call0_v6 (by decide)
theorem tailStart_arg2 (m : (ℓ : Loc nD τ sig) → Buf (Elt F) ℓ) (c : Dev nD) :
    tailStart m c (Proc.devRef .tc main_arg2) = HF.V0 m c (Proc.devRef .tc main_arg2) := tailStart_other m c main_arg2 (by decide)
theorem tailStart_arg4 (m : (ℓ : Loc nD τ sig) → Buf (Elt F) ℓ) (c : Dev nD) :
    tailStart m c (Proc.devRef .tc main_arg4) = HF.V0 m c (Proc.devRef .tc main_arg4) := tailStart_other m c main_arg4 (by decide)
theorem tailStart_arg5 (m : (ℓ : Loc nD τ sig) → Buf (Elt F) ℓ) (c : Dev nD) :
    tailStart m c (Proc.devRef .tc main_arg5) = HF.V0 m c (Proc.devRef .tc main_arg5) := tailStart_other m c main_arg5 (by decide)
theorem tailStart_arg6 (m : (ℓ : Loc nD τ sig) → Buf (Elt F) ℓ) (c : Dev nD) :
    tailStart m c (Proc.devRef .tc main_arg6) = HF.V0 m c (Proc.devRef .tc main_arg6) := tailStart_other m c main_arg6 (by decide)
theorem tailStart_arg7 (m : (ℓ : Loc nD τ sig) → Buf (Elt F) ℓ) (c : Dev nD) :
    tailStart m c (Proc.devRef .tc main_arg7) = HF.V0 m c (Proc.devRef .tc main_arg7) := tailStart_other m c main_arg7 (by decide)
theorem tailStart_arg8 (m : (ℓ : Loc nD τ sig) → Buf (Elt F) ℓ) (c : Dev nD) :
    tailStart m c (Proc.devRef .tc main_arg8) = HF.V0 m c (Proc.devRef .tc main_arg8) := tailStart_other m c main_arg8 (by decide)
theorem tailStart_arg9 (m : (ℓ : Loc nD τ sig) → Buf (Elt F) ℓ) (c : Dev nD) :
    tailStart m c (Proc.devRef .tc main_arg9) = HF.V0 m c (Proc.devRef .tc main_arg9) := tailStart_other m c main_arg9 (by decide)
theorem tailStart_arg10 (m : (ℓ : Loc nD τ sig) → Buf (Elt F) ℓ) (c : Dev nD) :
    tailStart m c (Proc.devRef .tc main_arg10) = HF.V0 m c (Proc.devRef .tc main_arg10) := tailStart_other m c main_arg10 (by decide)
theorem tailStart_arg11 (m : (ℓ : Loc nD τ sig) → Buf (Elt F) ℓ) (c : Dev nD) :
    tailStart m c (Proc.devRef .tc main_arg11) = HF.V0 m c (Proc.devRef .tc main_arg11) := tailStart_other m c main_arg11 (by decide)
theorem tailStart_arg12 (m : (ℓ : Loc nD τ sig) → Buf (Elt F) ℓ) (c : Dev nD) :
    tailStart m c (Proc.devRef .tc main_arg12) = HF.V0 m c (Proc.devRef .tc main_arg12) := tailStart_other m c main_arg12 (by decide)

/-- A reference no operation before the region writes keeps, after those operations, what any launch contents `L` give it. -/
theorem head_kept' (L : Valuation τ sig (Elt F)) (b : Ref sig .tc) (hb : b ∉ HF.W0) :
    after hostOps0 L (Proc.devRef .tc b) = L (Proc.devRef .tc b) :=
  after_kept HF.hostOps0_writes L b hb

/-! ## The five stages -/

/-- Running the 138 operations is running the five stages in order. -/
theorem tail_split (V : Valuation τ sig (Elt F)) :
    after hostOps1 V = after kseg5 (after kseg4 (after kseg3 (after kseg2 (after kseg1 V)))) := by
  rw [KS.hostOps1_eq, after_append, after_append, after_append, after_append]

/-- Layer 1 after the region: the reference each operation writes, in order. -/
def kwr1 : List (Ref sig .tc) := [
    main_call0_c, main_call0_v14, main_call0_v15, main_call0_c_1, main_call0_v16, main_call0_v17,
    main_call0_v18, main_call0_v19, main_call0_v20, main_call0_cst_2, main_call0_v21, main_call0_v22,
    main_call0_v23, main_call0_v24, main_call0_v25, main_call0_v26, main_call0_v27, main_call0_v28,
    main_call0_cst_3, main_call0_call0_cst, main_call0_call0_v0, main_call0_call0_v1, main_call0_call0_v2, main_call0_call0_v3,
    main_call0_call0_v4, main_call0_v29 ]

/-- Layer 2: the reference each operation writes, in order. -/
def kwr2 : List (Ref sig .tc) := [
    main_call0_v30, main_call0_v31, main_call0_v32, main_call0_c_4, main_call0_v33, main_call0_v34,
    main_call0_c_5, main_call0_v35, main_call0_v36, main_call0_v37, main_call0_v38, main_call0_v39,
    main_call0_cst_6, main_call0_v40, main_call0_v41, main_call0_v42, main_call0_v43, main_call0_v44,
    main_call0_v45, main_call0_v46, main_call0_v47, main_call0_cst_7, main_call0_call1_cst, main_call0_call1_v0,
    main_call0_call1_v1, main_call0_call1_v2, main_call0_call1_v3, main_call0_call1_v4, main_call0_v48 ]

/-- Layer 3: the reference each operation writes, in order. -/
def kwr3 : List (Ref sig .tc) := [
    main_call0_v49, main_call0_v50, main_call0_v51, main_call0_c_8, main_call0_v52, main_call0_v53,
    main_call0_c_9, main_call0_v54, main_call0_v55, main_call0_v56, main_call0_v57, main_call0_v58,
    main_call0_cst_10, main_call0_v59, main_call0_v60, main_call0_v61, main_call0_v62, main_call0_v63,
    main_call0_v64, main_call0_v65, main_call0_v66, main_call0_cst_11, main_call0_call2_cst, main_call0_call2_v0,
    main_call0_call2_v1, main_call0_call2_v2, main_call0_call2_v3, main_call0_call2_v4, main_call0_v67 ]

/-- Layer 4: the reference each operation writes, in order. -/
def kwr4 : List (Ref sig .tc) := [
    main_call0_v68, main_call0_v69, main_call0_c_12, main_call0_v70, main_call0_v71, main_call0_c_13,
    main_call0_v72, main_call0_v73, main_call0_v74, main_call0_v75, main_call0_v76, main_call0_cst_14,
    main_call0_v77, main_call0_v78, main_call0_v79, main_call0_v80, main_call0_v81, main_call0_v82,
    main_call0_v83, main_call0_cst_15, main_call0_call3_cst, main_call0_call3_v0, main_call0_call3_v1, main_call0_call3_v2,
    main_call0_call3_v3, main_call0_call3_v4, main_call0_v84 ]

/-- The pooling and the output head: the reference each operation writes, in order. -/
def kwr5 : List (Ref sig .tc) := [
    main_call0_cst_16, main_call0_v85, main_call0_v86, main_call0_v87, main_call0_cst_17, main_call0_v88,
    main_call0_cst_18, main_call0_v89, main_call0_v90, main_call0_v91, main_call0_cst_19, main_call0_v92,
    main_call0_v93, main_call0_v94, main_call0_v95, main_call0_v96, main_call0_v97, main_call0_v98,
    main_call0_v99, main_call0_v100, main_call0_v101, main_call0_cst_20, main_call0_v102, main_call0_v103,
    main_call0_cst_21, main_call0_v104, main_v0 ]

/-- Each operation of stage 1 writes its own result reference only. -/
theorem kwrites1 : WritesIn (kseg1 : List (HloOp τ sig (Elt F))) kwr1 := by
  unfold kwr1
  repeat' first | exact WritesIn.nil | refine WritesIn.cons (Finset.Subset.refl _) ?_

/-- Each operation of stage 2 writes its own result reference only. -/
theorem kwrites2 : WritesIn (kseg2 : List (HloOp τ sig (Elt F))) kwr2 := by
  unfold kwr2
  repeat' first | exact WritesIn.nil | refine WritesIn.cons (Finset.Subset.refl _) ?_

/-- Each operation of stage 3 writes its own result reference only. -/
theorem kwrites3 : WritesIn (kseg3 : List (HloOp τ sig (Elt F))) kwr3 := by
  unfold kwr3
  repeat' first | exact WritesIn.nil | refine WritesIn.cons (Finset.Subset.refl _) ?_

/-- Each operation of stage 4 writes its own result reference only. -/
theorem kwrites4 : WritesIn (kseg4 : List (HloOp τ sig (Elt F))) kwr4 := by
  unfold kwr4
  repeat' first | exact WritesIn.nil | refine WritesIn.cons (Finset.Subset.refl _) ?_

/-- Each operation of stage 5 writes its own result reference only. -/
theorem kwrites5 : WritesIn (kseg5 : List (HloOp τ sig (Elt F))) kwr5 := by
  unfold kwr5
  repeat' first | exact WritesIn.nil | refine WritesIn.cons (Finset.Subset.refl _) ?_

/-- A reference stage 1 does not write holds after it what it held before. -/
theorem kkept1 (V : Valuation τ sig (Elt F)) (x : Ref sig .tc) (hx : x ∉ kwr1) :
    after kseg1 V (Proc.devRef .tc x) = V (Proc.devRef .tc x) :=
  after_kept kwrites1 V x hx

/-- A reference stage 2 does not write holds after it what it held before. -/
theorem kkept2 (V : Valuation τ sig (Elt F)) (x : Ref sig .tc) (hx : x ∉ kwr2) :
    after kseg2 V (Proc.devRef .tc x) = V (Proc.devRef .tc x) :=
  after_kept kwrites2 V x hx

/-- A reference stage 3 does not write holds after it what it held before. -/
theorem kkept3 (V : Valuation τ sig (Elt F)) (x : Ref sig .tc) (hx : x ∉ kwr3) :
    after kseg3 V (Proc.devRef .tc x) = V (Proc.devRef .tc x) :=
  after_kept kwrites3 V x hx

/-- A reference stage 4 does not write holds after it what it held before. -/
theorem kkept4 (V : Valuation τ sig (Elt F)) (x : Ref sig .tc) (hx : x ∉ kwr4) :
    after kseg4 V (Proc.devRef .tc x) = V (Proc.devRef .tc x) :=
  after_kept kwrites4 V x hx

/-- A reference stage 5 does not write holds after it what it held before. -/
theorem kkept5 (V : Valuation τ sig (Elt F)) (x : Ref sig .tc) (hx : x ∉ kwr5) :
    after kseg5 V (Proc.devRef .tc x) = V (Proc.devRef .tc x) :=
  after_kept kwrites5 V x hx

/-! ## The buffers every stage reads and none writes: the two index lists, the scales, and the arguments -/

theorem kkept1_v3 (V : Valuation τ sig (Elt F)) : after kseg1 V (Proc.devRef .tc main_call0_v3) = V (Proc.devRef .tc main_call0_v3) :=
  kkept1 V main_call0_v3 (by decide)
theorem kkept1_v6 (V : Valuation τ sig (Elt F)) : after kseg1 V (Proc.devRef .tc main_call0_v6) = V (Proc.devRef .tc main_call0_v6) :=
  kkept1 V main_call0_v6 (by decide)
theorem kkept1_v12 (V : Valuation τ sig (Elt F)) : after kseg1 V (Proc.devRef .tc main_call0_v12) = V (Proc.devRef .tc main_call0_v12) :=
  kkept1 V main_call0_v12 (by decide)
theorem kkept1_arg2 (V : Valuation τ sig (Elt F)) : after kseg1 V (Proc.devRef .tc main_arg2) = V (Proc.devRef .tc main_arg2) :=
  kkept1 V main_arg2 (by decide)
theorem kkept1_arg4 (V : Valuation τ sig (Elt F)) : after kseg1 V (Proc.devRef .tc main_arg4) = V (Proc.devRef .tc main_arg4) :=
  kkept1 V main_arg4 (by decide)
theorem kkept1_arg5 (V : Valuation τ sig (Elt F)) : after kseg1 V (Proc.devRef .tc main_arg5) = V (Proc.devRef .tc main_arg5) :=
  kkept1 V main_arg5 (by decide)
theorem kkept1_arg6 (V : Valuation τ sig (Elt F)) : after kseg1 V (Proc.devRef .tc main_arg6) = V (Proc.devRef .tc main_arg6) :=
  kkept1 V main_arg6 (by decide)
theorem kkept1_arg7 (V : Valuation τ sig (Elt F)) : after kseg1 V (Proc.devRef .tc main_arg7) = V (Proc.devRef .tc main_arg7) :=
  kkept1 V main_arg7 (by decide)
theorem kkept1_arg8 (V : Valuation τ sig (Elt F)) : after kseg1 V (Proc.devRef .tc main_arg8) = V (Proc.devRef .tc main_arg8) :=
  kkept1 V main_arg8 (by decide)
theorem kkept1_arg9 (V : Valuation τ sig (Elt F)) : after kseg1 V (Proc.devRef .tc main_arg9) = V (Proc.devRef .tc main_arg9) :=
  kkept1 V main_arg9 (by decide)
theorem kkept1_arg10 (V : Valuation τ sig (Elt F)) : after kseg1 V (Proc.devRef .tc main_arg10) = V (Proc.devRef .tc main_arg10) :=
  kkept1 V main_arg10 (by decide)
theorem kkept1_arg11 (V : Valuation τ sig (Elt F)) : after kseg1 V (Proc.devRef .tc main_arg11) = V (Proc.devRef .tc main_arg11) :=
  kkept1 V main_arg11 (by decide)
theorem kkept1_arg12 (V : Valuation τ sig (Elt F)) : after kseg1 V (Proc.devRef .tc main_arg12) = V (Proc.devRef .tc main_arg12) :=
  kkept1 V main_arg12 (by decide)

theorem kkept2_v3 (V : Valuation τ sig (Elt F)) : after kseg2 V (Proc.devRef .tc main_call0_v3) = V (Proc.devRef .tc main_call0_v3) :=
  kkept2 V main_call0_v3 (by decide)
theorem kkept2_v6 (V : Valuation τ sig (Elt F)) : after kseg2 V (Proc.devRef .tc main_call0_v6) = V (Proc.devRef .tc main_call0_v6) :=
  kkept2 V main_call0_v6 (by decide)
theorem kkept2_v12 (V : Valuation τ sig (Elt F)) : after kseg2 V (Proc.devRef .tc main_call0_v12) = V (Proc.devRef .tc main_call0_v12) :=
  kkept2 V main_call0_v12 (by decide)
theorem kkept2_arg2 (V : Valuation τ sig (Elt F)) : after kseg2 V (Proc.devRef .tc main_arg2) = V (Proc.devRef .tc main_arg2) :=
  kkept2 V main_arg2 (by decide)
theorem kkept2_arg4 (V : Valuation τ sig (Elt F)) : after kseg2 V (Proc.devRef .tc main_arg4) = V (Proc.devRef .tc main_arg4) :=
  kkept2 V main_arg4 (by decide)
theorem kkept2_arg5 (V : Valuation τ sig (Elt F)) : after kseg2 V (Proc.devRef .tc main_arg5) = V (Proc.devRef .tc main_arg5) :=
  kkept2 V main_arg5 (by decide)
theorem kkept2_arg6 (V : Valuation τ sig (Elt F)) : after kseg2 V (Proc.devRef .tc main_arg6) = V (Proc.devRef .tc main_arg6) :=
  kkept2 V main_arg6 (by decide)
theorem kkept2_arg7 (V : Valuation τ sig (Elt F)) : after kseg2 V (Proc.devRef .tc main_arg7) = V (Proc.devRef .tc main_arg7) :=
  kkept2 V main_arg7 (by decide)
theorem kkept2_arg8 (V : Valuation τ sig (Elt F)) : after kseg2 V (Proc.devRef .tc main_arg8) = V (Proc.devRef .tc main_arg8) :=
  kkept2 V main_arg8 (by decide)
theorem kkept2_arg9 (V : Valuation τ sig (Elt F)) : after kseg2 V (Proc.devRef .tc main_arg9) = V (Proc.devRef .tc main_arg9) :=
  kkept2 V main_arg9 (by decide)
theorem kkept2_arg10 (V : Valuation τ sig (Elt F)) : after kseg2 V (Proc.devRef .tc main_arg10) = V (Proc.devRef .tc main_arg10) :=
  kkept2 V main_arg10 (by decide)
theorem kkept2_arg11 (V : Valuation τ sig (Elt F)) : after kseg2 V (Proc.devRef .tc main_arg11) = V (Proc.devRef .tc main_arg11) :=
  kkept2 V main_arg11 (by decide)
theorem kkept2_arg12 (V : Valuation τ sig (Elt F)) : after kseg2 V (Proc.devRef .tc main_arg12) = V (Proc.devRef .tc main_arg12) :=
  kkept2 V main_arg12 (by decide)

theorem kkept3_v3 (V : Valuation τ sig (Elt F)) : after kseg3 V (Proc.devRef .tc main_call0_v3) = V (Proc.devRef .tc main_call0_v3) :=
  kkept3 V main_call0_v3 (by decide)
theorem kkept3_v6 (V : Valuation τ sig (Elt F)) : after kseg3 V (Proc.devRef .tc main_call0_v6) = V (Proc.devRef .tc main_call0_v6) :=
  kkept3 V main_call0_v6 (by decide)
theorem kkept3_v12 (V : Valuation τ sig (Elt F)) : after kseg3 V (Proc.devRef .tc main_call0_v12) = V (Proc.devRef .tc main_call0_v12) :=
  kkept3 V main_call0_v12 (by decide)
theorem kkept3_arg2 (V : Valuation τ sig (Elt F)) : after kseg3 V (Proc.devRef .tc main_arg2) = V (Proc.devRef .tc main_arg2) :=
  kkept3 V main_arg2 (by decide)
theorem kkept3_arg4 (V : Valuation τ sig (Elt F)) : after kseg3 V (Proc.devRef .tc main_arg4) = V (Proc.devRef .tc main_arg4) :=
  kkept3 V main_arg4 (by decide)
theorem kkept3_arg5 (V : Valuation τ sig (Elt F)) : after kseg3 V (Proc.devRef .tc main_arg5) = V (Proc.devRef .tc main_arg5) :=
  kkept3 V main_arg5 (by decide)
theorem kkept3_arg6 (V : Valuation τ sig (Elt F)) : after kseg3 V (Proc.devRef .tc main_arg6) = V (Proc.devRef .tc main_arg6) :=
  kkept3 V main_arg6 (by decide)
theorem kkept3_arg7 (V : Valuation τ sig (Elt F)) : after kseg3 V (Proc.devRef .tc main_arg7) = V (Proc.devRef .tc main_arg7) :=
  kkept3 V main_arg7 (by decide)
theorem kkept3_arg8 (V : Valuation τ sig (Elt F)) : after kseg3 V (Proc.devRef .tc main_arg8) = V (Proc.devRef .tc main_arg8) :=
  kkept3 V main_arg8 (by decide)
theorem kkept3_arg9 (V : Valuation τ sig (Elt F)) : after kseg3 V (Proc.devRef .tc main_arg9) = V (Proc.devRef .tc main_arg9) :=
  kkept3 V main_arg9 (by decide)
theorem kkept3_arg10 (V : Valuation τ sig (Elt F)) : after kseg3 V (Proc.devRef .tc main_arg10) = V (Proc.devRef .tc main_arg10) :=
  kkept3 V main_arg10 (by decide)
theorem kkept3_arg11 (V : Valuation τ sig (Elt F)) : after kseg3 V (Proc.devRef .tc main_arg11) = V (Proc.devRef .tc main_arg11) :=
  kkept3 V main_arg11 (by decide)
theorem kkept3_arg12 (V : Valuation τ sig (Elt F)) : after kseg3 V (Proc.devRef .tc main_arg12) = V (Proc.devRef .tc main_arg12) :=
  kkept3 V main_arg12 (by decide)

theorem kkept4_v3 (V : Valuation τ sig (Elt F)) : after kseg4 V (Proc.devRef .tc main_call0_v3) = V (Proc.devRef .tc main_call0_v3) :=
  kkept4 V main_call0_v3 (by decide)
theorem kkept4_v6 (V : Valuation τ sig (Elt F)) : after kseg4 V (Proc.devRef .tc main_call0_v6) = V (Proc.devRef .tc main_call0_v6) :=
  kkept4 V main_call0_v6 (by decide)
theorem kkept4_v12 (V : Valuation τ sig (Elt F)) : after kseg4 V (Proc.devRef .tc main_call0_v12) = V (Proc.devRef .tc main_call0_v12) :=
  kkept4 V main_call0_v12 (by decide)
theorem kkept4_arg2 (V : Valuation τ sig (Elt F)) : after kseg4 V (Proc.devRef .tc main_arg2) = V (Proc.devRef .tc main_arg2) :=
  kkept4 V main_arg2 (by decide)
theorem kkept4_arg4 (V : Valuation τ sig (Elt F)) : after kseg4 V (Proc.devRef .tc main_arg4) = V (Proc.devRef .tc main_arg4) :=
  kkept4 V main_arg4 (by decide)
theorem kkept4_arg5 (V : Valuation τ sig (Elt F)) : after kseg4 V (Proc.devRef .tc main_arg5) = V (Proc.devRef .tc main_arg5) :=
  kkept4 V main_arg5 (by decide)
theorem kkept4_arg6 (V : Valuation τ sig (Elt F)) : after kseg4 V (Proc.devRef .tc main_arg6) = V (Proc.devRef .tc main_arg6) :=
  kkept4 V main_arg6 (by decide)
theorem kkept4_arg7 (V : Valuation τ sig (Elt F)) : after kseg4 V (Proc.devRef .tc main_arg7) = V (Proc.devRef .tc main_arg7) :=
  kkept4 V main_arg7 (by decide)
theorem kkept4_arg8 (V : Valuation τ sig (Elt F)) : after kseg4 V (Proc.devRef .tc main_arg8) = V (Proc.devRef .tc main_arg8) :=
  kkept4 V main_arg8 (by decide)
theorem kkept4_arg9 (V : Valuation τ sig (Elt F)) : after kseg4 V (Proc.devRef .tc main_arg9) = V (Proc.devRef .tc main_arg9) :=
  kkept4 V main_arg9 (by decide)
theorem kkept4_arg10 (V : Valuation τ sig (Elt F)) : after kseg4 V (Proc.devRef .tc main_arg10) = V (Proc.devRef .tc main_arg10) :=
  kkept4 V main_arg10 (by decide)
theorem kkept4_arg11 (V : Valuation τ sig (Elt F)) : after kseg4 V (Proc.devRef .tc main_arg11) = V (Proc.devRef .tc main_arg11) :=
  kkept4 V main_arg11 (by decide)
theorem kkept4_arg12 (V : Valuation τ sig (Elt F)) : after kseg4 V (Proc.devRef .tc main_arg12) = V (Proc.devRef .tc main_arg12) :=
  kkept4 V main_arg12 (by decide)

theorem kkept5_v3 (V : Valuation τ sig (Elt F)) : after kseg5 V (Proc.devRef .tc main_call0_v3) = V (Proc.devRef .tc main_call0_v3) :=
  kkept5 V main_call0_v3 (by decide)
theorem kkept5_v6 (V : Valuation τ sig (Elt F)) : after kseg5 V (Proc.devRef .tc main_call0_v6) = V (Proc.devRef .tc main_call0_v6) :=
  kkept5 V main_call0_v6 (by decide)
theorem kkept5_v12 (V : Valuation τ sig (Elt F)) : after kseg5 V (Proc.devRef .tc main_call0_v12) = V (Proc.devRef .tc main_call0_v12) :=
  kkept5 V main_call0_v12 (by decide)
theorem kkept5_arg2 (V : Valuation τ sig (Elt F)) : after kseg5 V (Proc.devRef .tc main_arg2) = V (Proc.devRef .tc main_arg2) :=
  kkept5 V main_arg2 (by decide)
theorem kkept5_arg4 (V : Valuation τ sig (Elt F)) : after kseg5 V (Proc.devRef .tc main_arg4) = V (Proc.devRef .tc main_arg4) :=
  kkept5 V main_arg4 (by decide)
theorem kkept5_arg5 (V : Valuation τ sig (Elt F)) : after kseg5 V (Proc.devRef .tc main_arg5) = V (Proc.devRef .tc main_arg5) :=
  kkept5 V main_arg5 (by decide)
theorem kkept5_arg6 (V : Valuation τ sig (Elt F)) : after kseg5 V (Proc.devRef .tc main_arg6) = V (Proc.devRef .tc main_arg6) :=
  kkept5 V main_arg6 (by decide)
theorem kkept5_arg7 (V : Valuation τ sig (Elt F)) : after kseg5 V (Proc.devRef .tc main_arg7) = V (Proc.devRef .tc main_arg7) :=
  kkept5 V main_arg7 (by decide)
theorem kkept5_arg8 (V : Valuation τ sig (Elt F)) : after kseg5 V (Proc.devRef .tc main_arg8) = V (Proc.devRef .tc main_arg8) :=
  kkept5 V main_arg8 (by decide)
theorem kkept5_arg9 (V : Valuation τ sig (Elt F)) : after kseg5 V (Proc.devRef .tc main_arg9) = V (Proc.devRef .tc main_arg9) :=
  kkept5 V main_arg9 (by decide)
theorem kkept5_arg10 (V : Valuation τ sig (Elt F)) : after kseg5 V (Proc.devRef .tc main_arg10) = V (Proc.devRef .tc main_arg10) :=
  kkept5 V main_arg10 (by decide)
theorem kkept5_arg11 (V : Valuation τ sig (Elt F)) : after kseg5 V (Proc.devRef .tc main_arg11) = V (Proc.devRef .tc main_arg11) :=
  kkept5 V main_arg11 (by decide)
theorem kkept5_arg12 (V : Valuation τ sig (Elt F)) : after kseg5 V (Proc.devRef .tc main_arg12) = V (Proc.devRef .tc main_arg12) :=
  kkept5 V main_arg12 (by decide)

end Cert.KernelIdeal.KT

end
-- ==== Proof.RefKept.lean ====
/-
  A stage changes only the buffers it writes, and the whole line is the six stages in order.

  `ops_split`: the contents after the line are the contents after the sixth stage run from those after the fifth, and so
  on down to the first. `rkeptK_x`: stage `K` writes none of the references it only reads from earlier stages — the two
  edge lists `main_v3` and `main_v6`, the reciprocal square roots of the degrees `main_v11`, the edge weights
  `main_v26` — nor any argument, so each holds after the stage what it held before it (`x` is not in the stage's list
  of written references, by inspection of the list).
-/
import proofs.«144057_j23888608100399_2_alg».proof.Proof.RefRun

set_option maxRecDepth 4096

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-- The line is its six stages in order. -/
theorem ops_split (V : Valuation τ sig (Elt F)) :
    after (ops (F := F)) V = after seg5 (after seg4 (after seg3 (after seg2 (after seg1 (after seg0 V))))) :=
  (after_append seg0 _ V).trans ((after_append seg1 _ _).trans ((after_append seg2 _ _).trans
    ((after_append seg3 _ _).trans (after_append seg4 seg5 _))))

/-! ## The first stage keeps the arguments -/

theorem rkept0_arg0 (V : Valuation τ sig (Elt F)) :
    after (seg0 (F := F)) V (Proc.devRef .tc main_arg0) = V (Proc.devRef .tc main_arg0) :=
  after_kept writes0 V main_arg0 (by decide)

theorem rkept0_arg1 (V : Valuation τ sig (Elt F)) :
    after (seg0 (F := F)) V (Proc.devRef .tc main_arg1) = V (Proc.devRef .tc main_arg1) :=
  after_kept writes0 V main_arg1 (by decide)

theorem rkept0_arg2 (V : Valuation τ sig (Elt F)) :
    after (seg0 (F := F)) V (Proc.devRef .tc main_arg2) = V (Proc.devRef .tc main_arg2) :=
  after_kept writes0 V main_arg2 (by decide)

theorem rkept0_arg3 (V : Valuation τ sig (Elt F)) :
    after (seg0 (F := F)) V (Proc.devRef .tc main_arg3) = V (Proc.devRef .tc main_arg3) :=
  after_kept writes0 V main_arg3 (by decide)

theorem rkept0_arg4 (V : Valuation τ sig (Elt F)) :
    after (seg0 (F := F)) V (Proc.devRef .tc main_arg4) = V (Proc.devRef .tc main_arg4) :=
  after_kept writes0 V main_arg4 (by decide)

theorem rkept0_arg5 (V : Valuation τ sig (Elt F)) :
    after (seg0 (F := F)) V (Proc.devRef .tc main_arg5) = V (Proc.devRef .tc main_arg5) :=
  after_kept writes0 V main_arg5 (by decide)

theorem rkept0_arg6 (V : Valuation τ sig (Elt F)) :
    after (seg0 (F := F)) V (Proc.devRef .tc main_arg6) = V (Proc.devRef .tc main_arg6) :=
  after_kept writes0 V main_arg6 (by decide)

theorem rkept0_arg7 (V : Valuation τ sig (Elt F)) :
    after (seg0 (F := F)) V (Proc.devRef .tc main_arg7) = V (Proc.devRef .tc main_arg7) :=
  after_kept writes0 V main_arg7 (by decide)

theorem rkept0_arg8 (V : Valuation τ sig (Elt F)) :
    after (seg0 (F := F)) V (Proc.devRef .tc main_arg8) = V (Proc.devRef .tc main_arg8) :=
  after_kept writes0 V main_arg8 (by decide)

theorem rkept0_arg9 (V : Valuation τ sig (Elt F)) :
    after (seg0 (F := F)) V (Proc.devRef .tc main_arg9) = V (Proc.devRef .tc main_arg9) :=
  after_kept writes0 V main_arg9 (by decide)

theorem rkept0_arg10 (V : Valuation τ sig (Elt F)) :
    after (seg0 (F := F)) V (Proc.devRef .tc main_arg10) = V (Proc.devRef .tc main_arg10) :=
  after_kept writes0 V main_arg10 (by decide)

theorem rkept0_arg11 (V : Valuation τ sig (Elt F)) :
    after (seg0 (F := F)) V (Proc.devRef .tc main_arg11) = V (Proc.devRef .tc main_arg11) :=
  after_kept writes0 V main_arg11 (by decide)

theorem rkept0_arg12 (V : Valuation τ sig (Elt F)) :
    after (seg0 (F := F)) V (Proc.devRef .tc main_arg12) = V (Proc.devRef .tc main_arg12) :=
  after_kept writes0 V main_arg12 (by decide)

/-! ## Stage 2 keeps the edge lists, the normalisation and the arguments -/

theorem rkept1_v3 (V : Valuation τ sig (Elt F)) :
    after (seg1 (F := F)) V (Proc.devRef .tc main_v3) = V (Proc.devRef .tc main_v3) :=
  after_kept writes1 V main_v3 (by decide)

theorem rkept1_v6 (V : Valuation τ sig (Elt F)) :
    after (seg1 (F := F)) V (Proc.devRef .tc main_v6) = V (Proc.devRef .tc main_v6) :=
  after_kept writes1 V main_v6 (by decide)

theorem rkept1_v11 (V : Valuation τ sig (Elt F)) :
    after (seg1 (F := F)) V (Proc.devRef .tc main_v11) = V (Proc.devRef .tc main_v11) :=
  after_kept writes1 V main_v11 (by decide)

theorem rkept1_v26 (V : Valuation τ sig (Elt F)) :
    after (seg1 (F := F)) V (Proc.devRef .tc main_v26) = V (Proc.devRef .tc main_v26) :=
  after_kept writes1 V main_v26 (by decide)

theorem rkept1_arg0 (V : Valuation τ sig (Elt F)) :
    after (seg1 (F := F)) V (Proc.devRef .tc main_arg0) = V (Proc.devRef .tc main_arg0) :=
  after_kept writes1 V main_arg0 (by decide)

theorem rkept1_arg2 (V : Valuation τ sig (Elt F)) :
    after (seg1 (F := F)) V (Proc.devRef .tc main_arg2) = V (Proc.devRef .tc main_arg2) :=
  after_kept writes1 V main_arg2 (by decide)

theorem rkept1_arg3 (V : Valuation τ sig (Elt F)) :
    after (seg1 (F := F)) V (Proc.devRef .tc main_arg3) = V (Proc.devRef .tc main_arg3) :=
  after_kept writes1 V main_arg3 (by decide)

theorem rkept1_arg4 (V : Valuation τ sig (Elt F)) :
    after (seg1 (F := F)) V (Proc.devRef .tc main_arg4) = V (Proc.devRef .tc main_arg4) :=
  after_kept writes1 V main_arg4 (by decide)

theorem rkept1_arg5 (V : Valuation τ sig (Elt F)) :
    after (seg1 (F := F)) V (Proc.devRef .tc main_arg5) = V (Proc.devRef .tc main_arg5) :=
  after_kept writes1 V main_arg5 (by decide)

theorem rkept1_arg6 (V : Valuation τ sig (Elt F)) :
    after (seg1 (F := F)) V (Proc.devRef .tc main_arg6) = V (Proc.devRef .tc main_arg6) :=
  after_kept writes1 V main_arg6 (by decide)

theorem rkept1_arg7 (V : Valuation τ sig (Elt F)) :
    after (seg1 (F := F)) V (Proc.devRef .tc main_arg7) = V (Proc.devRef .tc main_arg7) :=
  after_kept writes1 V main_arg7 (by decide)

theorem rkept1_arg8 (V : Valuation τ sig (Elt F)) :
    after (seg1 (F := F)) V (Proc.devRef .tc main_arg8) = V (Proc.devRef .tc main_arg8) :=
  after_kept writes1 V main_arg8 (by decide)

theorem rkept1_arg9 (V : Valuation τ sig (Elt F)) :
    after (seg1 (F := F)) V (Proc.devRef .tc main_arg9) = V (Proc.devRef .tc main_arg9) :=
  after_kept writes1 V main_arg9 (by decide)

theorem rkept1_arg10 (V : Valuation τ sig (Elt F)) :
    after (seg1 (F := F)) V (Proc.devRef .tc main_arg10) = V (Proc.devRef .tc main_arg10) :=
  after_kept writes1 V main_arg10 (by decide)

theorem rkept1_arg11 (V : Valuation τ sig (Elt F)) :
    after (seg1 (F := F)) V (Proc.devRef .tc main_arg11) = V (Proc.devRef .tc main_arg11) :=
  after_kept writes1 V main_arg11 (by decide)

theorem rkept1_arg12 (V : Valuation τ sig (Elt F)) :
    after (seg1 (F := F)) V (Proc.devRef .tc main_arg12) = V (Proc.devRef .tc main_arg12) :=
  after_kept writes1 V main_arg12 (by decide)

/-! ## Stage 3 keeps the edge lists, the normalisation and the arguments -/

theorem rkept2_v3 (V : Valuation τ sig (Elt F)) :
    after (seg2 (F := F)) V (Proc.devRef .tc main_v3) = V (Proc.devRef .tc main_v3) :=
  after_kept writes2 V main_v3 (by decide)

theorem rkept2_v6 (V : Valuation τ sig (Elt F)) :
    after (seg2 (F := F)) V (Proc.devRef .tc main_v6) = V (Proc.devRef .tc main_v6) :=
  after_kept writes2 V main_v6 (by decide)

theorem rkept2_v11 (V : Valuation τ sig (Elt F)) :
    after (seg2 (F := F)) V (Proc.devRef .tc main_v11) = V (Proc.devRef .tc main_v11) :=
  after_kept writes2 V main_v11 (by decide)

theorem rkept2_v26 (V : Valuation τ sig (Elt F)) :
    after (seg2 (F := F)) V (Proc.devRef .tc main_v26) = V (Proc.devRef .tc main_v26) :=
  after_kept writes2 V main_v26 (by decide)

theorem rkept2_arg0 (V : Valuation τ sig (Elt F)) :
    after (seg2 (F := F)) V (Proc.devRef .tc main_arg0) = V (Proc.devRef .tc main_arg0) :=
  after_kept writes2 V main_arg0 (by decide)

theorem rkept2_arg2 (V : Valuation τ sig (Elt F)) :
    after (seg2 (F := F)) V (Proc.devRef .tc main_arg2) = V (Proc.devRef .tc main_arg2) :=
  after_kept writes2 V main_arg2 (by decide)

theorem rkept2_arg3 (V : Valuation τ sig (Elt F)) :
    after (seg2 (F := F)) V (Proc.devRef .tc main_arg3) = V (Proc.devRef .tc main_arg3) :=
  after_kept writes2 V main_arg3 (by decide)

theorem rkept2_arg4 (V : Valuation τ sig (Elt F)) :
    after (seg2 (F := F)) V (Proc.devRef .tc main_arg4) = V (Proc.devRef .tc main_arg4) :=
  after_kept writes2 V main_arg4 (by decide)

theorem rkept2_arg5 (V : Valuation τ sig (Elt F)) :
    after (seg2 (F := F)) V (Proc.devRef .tc main_arg5) = V (Proc.devRef .tc main_arg5) :=
  after_kept writes2 V main_arg5 (by decide)

theorem rkept2_arg6 (V : Valuation τ sig (Elt F)) :
    after (seg2 (F := F)) V (Proc.devRef .tc main_arg6) = V (Proc.devRef .tc main_arg6) :=
  after_kept writes2 V main_arg6 (by decide)

theorem rkept2_arg7 (V : Valuation τ sig (Elt F)) :
    after (seg2 (F := F)) V (Proc.devRef .tc main_arg7) = V (Proc.devRef .tc main_arg7) :=
  after_kept writes2 V main_arg7 (by decide)

theorem rkept2_arg8 (V : Valuation τ sig (Elt F)) :
    after (seg2 (F := F)) V (Proc.devRef .tc main_arg8) = V (Proc.devRef .tc main_arg8) :=
  after_kept writes2 V main_arg8 (by decide)

theorem rkept2_arg9 (V : Valuation τ sig (Elt F)) :
    after (seg2 (F := F)) V (Proc.devRef .tc main_arg9) = V (Proc.devRef .tc main_arg9) :=
  after_kept writes2 V main_arg9 (by decide)

theorem rkept2_arg10 (V : Valuation τ sig (Elt F)) :
    after (seg2 (F := F)) V (Proc.devRef .tc main_arg10) = V (Proc.devRef .tc main_arg10) :=
  after_kept writes2 V main_arg10 (by decide)

theorem rkept2_arg11 (V : Valuation τ sig (Elt F)) :
    after (seg2 (F := F)) V (Proc.devRef .tc main_arg11) = V (Proc.devRef .tc main_arg11) :=
  after_kept writes2 V main_arg11 (by decide)

theorem rkept2_arg12 (V : Valuation τ sig (Elt F)) :
    after (seg2 (F := F)) V (Proc.devRef .tc main_arg12) = V (Proc.devRef .tc main_arg12) :=
  after_kept writes2 V main_arg12 (by decide)

/-! ## Stage 4 keeps the edge lists, the normalisation and the arguments -/

theorem rkept3_v3 (V : Valuation τ sig (Elt F)) :
    after (seg3 (F := F)) V (Proc.devRef .tc main_v3) = V (Proc.devRef .tc main_v3) :=
  after_kept writes3 V main_v3 (by decide)

theorem rkept3_v6 (V : Valuation τ sig (Elt F)) :
    after (seg3 (F := F)) V (Proc.devRef .tc main_v6) = V (Proc.devRef .tc main_v6) :=
  after_kept writes3 V main_v6 (by decide)

theorem rkept3_v11 (V : Valuation τ sig (Elt F)) :
    after (seg3 (F := F)) V (Proc.devRef .tc main_v11) = V (Proc.devRef .tc main_v11) :=
  after_kept writes3 V main_v11 (by decide)

theorem rkept3_v26 (V : Valuation τ sig (Elt F)) :
    after (seg3 (F := F)) V (Proc.devRef .tc main_v26) = V (Proc.devRef .tc main_v26) :=
  after_kept writes3 V main_v26 (by decide)

theorem rkept3_arg0 (V : Valuation τ sig (Elt F)) :
    after (seg3 (F := F)) V (Proc.devRef .tc main_arg0) = V (Proc.devRef .tc main_arg0) :=
  after_kept writes3 V main_arg0 (by decide)

theorem rkept3_arg2 (V : Valuation τ sig (Elt F)) :
    after (seg3 (F := F)) V (Proc.devRef .tc main_arg2) = V (Proc.devRef .tc main_arg2) :=
  after_kept writes3 V main_arg2 (by decide)

theorem rkept3_arg3 (V : Valuation τ sig (Elt F)) :
    after (seg3 (F := F)) V (Proc.devRef .tc main_arg3) = V (Proc.devRef .tc main_arg3) :=
  after_kept writes3 V main_arg3 (by decide)

theorem rkept3_arg4 (V : Valuation τ sig (Elt F)) :
    after (seg3 (F := F)) V (Proc.devRef .tc main_arg4) = V (Proc.devRef .tc main_arg4) :=
  after_kept writes3 V main_arg4 (by decide)

theorem rkept3_arg5 (V : Valuation τ sig (Elt F)) :
    after (seg3 (F := F)) V (Proc.devRef .tc main_arg5) = V (Proc.devRef .tc main_arg5) :=
  after_kept writes3 V main_arg5 (by decide)

theorem rkept3_arg6 (V : Valuation τ sig (Elt F)) :
    after (seg3 (F := F)) V (Proc.devRef .tc main_arg6) = V (Proc.devRef .tc main_arg6) :=
  after_kept writes3 V main_arg6 (by decide)

theorem rkept3_arg7 (V : Valuation τ sig (Elt F)) :
    after (seg3 (F := F)) V (Proc.devRef .tc main_arg7) = V (Proc.devRef .tc main_arg7) :=
  after_kept writes3 V main_arg7 (by decide)

theorem rkept3_arg8 (V : Valuation τ sig (Elt F)) :
    after (seg3 (F := F)) V (Proc.devRef .tc main_arg8) = V (Proc.devRef .tc main_arg8) :=
  after_kept writes3 V main_arg8 (by decide)

theorem rkept3_arg9 (V : Valuation τ sig (Elt F)) :
    after (seg3 (F := F)) V (Proc.devRef .tc main_arg9) = V (Proc.devRef .tc main_arg9) :=
  after_kept writes3 V main_arg9 (by decide)

theorem rkept3_arg10 (V : Valuation τ sig (Elt F)) :
    after (seg3 (F := F)) V (Proc.devRef .tc main_arg10) = V (Proc.devRef .tc main_arg10) :=
  after_kept writes3 V main_arg10 (by decide)

theorem rkept3_arg11 (V : Valuation τ sig (Elt F)) :
    after (seg3 (F := F)) V (Proc.devRef .tc main_arg11) = V (Proc.devRef .tc main_arg11) :=
  after_kept writes3 V main_arg11 (by decide)

theorem rkept3_arg12 (V : Valuation τ sig (Elt F)) :
    after (seg3 (F := F)) V (Proc.devRef .tc main_arg12) = V (Proc.devRef .tc main_arg12) :=
  after_kept writes3 V main_arg12 (by decide)

/-! ## Stage 5 keeps the edge lists, the normalisation and the arguments -/

theorem rkept4_v3 (V : Valuation τ sig (Elt F)) :
    after (seg4 (F := F)) V (Proc.devRef .tc main_v3) = V (Proc.devRef .tc main_v3) :=
  after_kept writes4 V main_v3 (by decide)

theorem rkept4_v6 (V : Valuation τ sig (Elt F)) :
    after (seg4 (F := F)) V (Proc.devRef .tc main_v6) = V (Proc.devRef .tc main_v6) :=
  after_kept writes4 V main_v6 (by decide)

theorem rkept4_v11 (V : Valuation τ sig (Elt F)) :
    after (seg4 (F := F)) V (Proc.devRef .tc main_v11) = V (Proc.devRef .tc main_v11) :=
  after_kept writes4 V main_v11 (by decide)

theorem rkept4_v26 (V : Valuation τ sig (Elt F)) :
    after (seg4 (F := F)) V (Proc.devRef .tc main_v26) = V (Proc.devRef .tc main_v26) :=
  after_kept writes4 V main_v26 (by decide)

theorem rkept4_arg0 (V : Valuation τ sig (Elt F)) :
    after (seg4 (F := F)) V (Proc.devRef .tc main_arg0) = V (Proc.devRef .tc main_arg0) :=
  after_kept writes4 V main_arg0 (by decide)

theorem rkept4_arg2 (V : Valuation τ sig (Elt F)) :
    after (seg4 (F := F)) V (Proc.devRef .tc main_arg2) = V (Proc.devRef .tc main_arg2) :=
  after_kept writes4 V main_arg2 (by decide)

theorem rkept4_arg3 (V : Valuation τ sig (Elt F)) :
    after (seg4 (F := F)) V (Proc.devRef .tc main_arg3) = V (Proc.devRef .tc main_arg3) :=
  after_kept writes4 V main_arg3 (by decide)

theorem rkept4_arg4 (V : Valuation τ sig (Elt F)) :
    after (seg4 (F := F)) V (Proc.devRef .tc main_arg4) = V (Proc.devRef .tc main_arg4) :=
  after_kept writes4 V main_arg4 (by decide)

theorem rkept4_arg5 (V : Valuation τ sig (Elt F)) :
    after (seg4 (F := F)) V (Proc.devRef .tc main_arg5) = V (Proc.devRef .tc main_arg5) :=
  after_kept writes4 V main_arg5 (by decide)

theorem rkept4_arg6 (V : Valuation τ sig (Elt F)) :
    after (seg4 (F := F)) V (Proc.devRef .tc main_arg6) = V (Proc.devRef .tc main_arg6) :=
  after_kept writes4 V main_arg6 (by decide)

theorem rkept4_arg7 (V : Valuation τ sig (Elt F)) :
    after (seg4 (F := F)) V (Proc.devRef .tc main_arg7) = V (Proc.devRef .tc main_arg7) :=
  after_kept writes4 V main_arg7 (by decide)

theorem rkept4_arg8 (V : Valuation τ sig (Elt F)) :
    after (seg4 (F := F)) V (Proc.devRef .tc main_arg8) = V (Proc.devRef .tc main_arg8) :=
  after_kept writes4 V main_arg8 (by decide)

theorem rkept4_arg9 (V : Valuation τ sig (Elt F)) :
    after (seg4 (F := F)) V (Proc.devRef .tc main_arg9) = V (Proc.devRef .tc main_arg9) :=
  after_kept writes4 V main_arg9 (by decide)

theorem rkept4_arg10 (V : Valuation τ sig (Elt F)) :
    after (seg4 (F := F)) V (Proc.devRef .tc main_arg10) = V (Proc.devRef .tc main_arg10) :=
  after_kept writes4 V main_arg10 (by decide)

theorem rkept4_arg11 (V : Valuation τ sig (Elt F)) :
    after (seg4 (F := F)) V (Proc.devRef .tc main_arg11) = V (Proc.devRef .tc main_arg11) :=
  after_kept writes4 V main_arg11 (by decide)

theorem rkept4_arg12 (V : Valuation τ sig (Elt F)) :
    after (seg4 (F := F)) V (Proc.devRef .tc main_arg12) = V (Proc.devRef .tc main_arg12) :=
  after_kept writes4 V main_arg12 (by decide)

/-! ## Stage 6 keeps the edge lists, the normalisation and the arguments -/

theorem rkept5_v3 (V : Valuation τ sig (Elt F)) :
    after (seg5 (F := F)) V (Proc.devRef .tc main_v3) = V (Proc.devRef .tc main_v3) :=
  after_kept writes5 V main_v3 (by decide)

theorem rkept5_v6 (V : Valuation τ sig (Elt F)) :
    after (seg5 (F := F)) V (Proc.devRef .tc main_v6) = V (Proc.devRef .tc main_v6) :=
  after_kept writes5 V main_v6 (by decide)

theorem rkept5_v11 (V : Valuation τ sig (Elt F)) :
    after (seg5 (F := F)) V (Proc.devRef .tc main_v11) = V (Proc.devRef .tc main_v11) :=
  after_kept writes5 V main_v11 (by decide)

theorem rkept5_v26 (V : Valuation τ sig (Elt F)) :
    after (seg5 (F := F)) V (Proc.devRef .tc main_v26) = V (Proc.devRef .tc main_v26) :=
  after_kept writes5 V main_v26 (by decide)

theorem rkept5_arg0 (V : Valuation τ sig (Elt F)) :
    after (seg5 (F := F)) V (Proc.devRef .tc main_arg0) = V (Proc.devRef .tc main_arg0) :=
  after_kept writes5 V main_arg0 (by decide)

theorem rkept5_arg2 (V : Valuation τ sig (Elt F)) :
    after (seg5 (F := F)) V (Proc.devRef .tc main_arg2) = V (Proc.devRef .tc main_arg2) :=
  after_kept writes5 V main_arg2 (by decide)

theorem rkept5_arg3 (V : Valuation τ sig (Elt F)) :
    after (seg5 (F := F)) V (Proc.devRef .tc main_arg3) = V (Proc.devRef .tc main_arg3) :=
  after_kept writes5 V main_arg3 (by decide)

theorem rkept5_arg4 (V : Valuation τ sig (Elt F)) :
    after (seg5 (F := F)) V (Proc.devRef .tc main_arg4) = V (Proc.devRef .tc main_arg4) :=
  after_kept writes5 V main_arg4 (by decide)

theorem rkept5_arg5 (V : Valuation τ sig (Elt F)) :
    after (seg5 (F := F)) V (Proc.devRef .tc main_arg5) = V (Proc.devRef .tc main_arg5) :=
  after_kept writes5 V main_arg5 (by decide)

theorem rkept5_arg6 (V : Valuation τ sig (Elt F)) :
    after (seg5 (F := F)) V (Proc.devRef .tc main_arg6) = V (Proc.devRef .tc main_arg6) :=
  after_kept writes5 V main_arg6 (by decide)

theorem rkept5_arg7 (V : Valuation τ sig (Elt F)) :
    after (seg5 (F := F)) V (Proc.devRef .tc main_arg7) = V (Proc.devRef .tc main_arg7) :=
  after_kept writes5 V main_arg7 (by decide)

theorem rkept5_arg8 (V : Valuation τ sig (Elt F)) :
    after (seg5 (F := F)) V (Proc.devRef .tc main_arg8) = V (Proc.devRef .tc main_arg8) :=
  after_kept writes5 V main_arg8 (by decide)

theorem rkept5_arg9 (V : Valuation τ sig (Elt F)) :
    after (seg5 (F := F)) V (Proc.devRef .tc main_arg9) = V (Proc.devRef .tc main_arg9) :=
  after_kept writes5 V main_arg9 (by decide)

theorem rkept5_arg10 (V : Valuation τ sig (Elt F)) :
    after (seg5 (F := F)) V (Proc.devRef .tc main_arg10) = V (Proc.devRef .tc main_arg10) :=
  after_kept writes5 V main_arg10 (by decide)

theorem rkept5_arg11 (V : Valuation τ sig (Elt F)) :
    after (seg5 (F := F)) V (Proc.devRef .tc main_arg11) = V (Proc.devRef .tc main_arg11) :=
  after_kept writes5 V main_arg11 (by decide)

theorem rkept5_arg12 (V : Valuation τ sig (Elt F)) :
    after (seg5 (F := F)) V (Proc.devRef .tc main_arg12) = V (Proc.devRef .tc main_arg12) :=
  after_kept writes5 V main_arg12 (by decide)

end Cert.ReferenceIdeal.HR

end
-- ==== Proof.Carry.lean ====
/-
  What the stages carry, passed along.

  A stage of either program writes only its own result buffers. So the equations between the two programs' edge lists,
  `d`, graph ids, weights and biases that hold before a stage hold after it.
-/
import proofs.«144057_j23888608100399_2_alg».proof.Proof.BridgeDefs
import proofs.«144057_j23888608100399_2_alg».proof.Proof.KernelTail
import proofs.«144057_j23888608100399_2_alg».proof.Proof.RefKept
import proofs.«144057_j23888608100399_2_alg».proof.Proof.RPlain

noncomputable section

namespace Cert.Bridge

open Idealize.ShloMosaic Idealize.ShloMosaic.TcCoe Idealize.SL.Sem Idealize.ShloMosaic.StableHlo
open Idealize.ShloMosaic.ValueIdx

/-- The kernel program's buffers every tail stage leaves in place. -/
def keptK : List (Ref Cert.KernelIdeal.sig .tc) :=
  [Cert.KernelIdeal.main_call0_v3, Cert.KernelIdeal.main_call0_v6, Cert.KernelIdeal.main_call0_v12, Cert.KernelIdeal.main_arg2, Cert.KernelIdeal.main_arg4, Cert.KernelIdeal.main_arg5, Cert.KernelIdeal.main_arg6, Cert.KernelIdeal.main_arg7, Cert.KernelIdeal.main_arg8, Cert.KernelIdeal.main_arg9, Cert.KernelIdeal.main_arg10, Cert.KernelIdeal.main_arg11, Cert.KernelIdeal.main_arg12]

/-- The reference's buffers every stage after the first leaves in place. -/
def keptR : List (Ref Cert.ReferenceIdeal.sig .tc) :=
  [Cert.ReferenceIdeal.main_v3, Cert.ReferenceIdeal.main_v6, Cert.ReferenceIdeal.main_v26, Cert.ReferenceIdeal.main_arg2, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12]

/-- The carried equations pass to any later pair of valuations that agree with the earlier pair on those buffers. -/
theorem Carried.of_kept {dinv : FVec Ideal Cert.ReferenceIdeal.S100000 .f32} {VK : Valuation Cert.KernelIdeal.τ Cert.KernelIdeal.sig (Elt Ideal)}
    {VR : Valuation Cert.ReferenceIdeal.τ Cert.ReferenceIdeal.sig (Elt Ideal)} (h : Carried dinv VK VR)
    (VK' : Valuation Cert.KernelIdeal.τ Cert.KernelIdeal.sig (Elt Ideal)) (VR' : Valuation Cert.ReferenceIdeal.τ Cert.ReferenceIdeal.sig (Elt Ideal))
    (hK : ∀ x ∈ keptK, VK' (Proc.devRef .tc x) = VK (Proc.devRef .tc x))
    (hR : ∀ x ∈ keptR, VR' (Proc.devRef .tc x) = VR (Proc.devRef .tc x)) : Carried dinv VK' VR' where
  src := by rw [hK Cert.KernelIdeal.main_call0_v3 (by decide), hR Cert.ReferenceIdeal.main_v3 (by decide)]; exact h.src
  dst := by rw [hK Cert.KernelIdeal.main_call0_v6 (by decide), hR Cert.ReferenceIdeal.main_v6 (by decide)]; exact h.dst
  dcol := by rw [hK Cert.KernelIdeal.main_call0_v12 (by decide)]; exact h.dcol
  norm := by rw [hR Cert.ReferenceIdeal.main_v26 (by decide), hR Cert.ReferenceIdeal.main_v3 (by decide), hR Cert.ReferenceIdeal.main_v6 (by decide)]; exact h.norm
  a2 := by rw [hK Cert.KernelIdeal.main_arg2 (by decide), hR Cert.ReferenceIdeal.main_arg2 (by decide)]; exact h.a2
  a4 := by rw [hK Cert.KernelIdeal.main_arg4 (by decide), hR Cert.ReferenceIdeal.main_arg4 (by decide)]; exact h.a4
  a5 := by rw [hK Cert.KernelIdeal.main_arg5 (by decide), hR Cert.ReferenceIdeal.main_arg5 (by decide)]; exact h.a5
  a6 := by rw [hK Cert.KernelIdeal.main_arg6 (by decide), hR Cert.ReferenceIdeal.main_arg6 (by decide)]; exact h.a6
  a7 := by rw [hK Cert.KernelIdeal.main_arg7 (by decide), hR Cert.ReferenceIdeal.main_arg7 (by decide)]; exact h.a7
  a8 := by rw [hK Cert.KernelIdeal.main_arg8 (by decide), hR Cert.ReferenceIdeal.main_arg8 (by decide)]; exact h.a8
  a9 := by rw [hK Cert.KernelIdeal.main_arg9 (by decide), hR Cert.ReferenceIdeal.main_arg9 (by decide)]; exact h.a9
  a10 := by rw [hK Cert.KernelIdeal.main_arg10 (by decide), hR Cert.ReferenceIdeal.main_arg10 (by decide)]; exact h.a10
  a11 := by rw [hK Cert.KernelIdeal.main_arg11 (by decide), hR Cert.ReferenceIdeal.main_arg11 (by decide)]; exact h.a11
  a12 := by rw [hK Cert.KernelIdeal.main_arg12 (by decide), hR Cert.ReferenceIdeal.main_arg12 (by decide)]; exact h.a12

/-- Stage 1 of either program writes none of the carried buffers. -/
theorem carried_step1 {dinv : FVec Ideal Cert.ReferenceIdeal.S100000 .f32} {VK : Valuation Cert.KernelIdeal.τ Cert.KernelIdeal.sig (Elt Ideal)}
    {VR : Valuation Cert.ReferenceIdeal.τ Cert.ReferenceIdeal.sig (Elt Ideal)} (h : Carried dinv VK VR) :
    Carried dinv (after (Cert.KernelIdeal.KP.pseg1 (F := Ideal)) VK) (after (Cert.ReferenceIdeal.HRP.rseg1 (F := Ideal)) VR) :=
  h.of_kept _ _
    (fun x hx => by
      rw [← Cert.KernelIdeal.KP.kseg1_eq]
      exact Cert.KernelIdeal.KT.kkept1 VK x ((by decide : ∀ x ∈ keptK, x ∉ Cert.KernelIdeal.KT.kwr1) x hx))
    (fun x hx => by
      rw [← Cert.ReferenceIdeal.HRP.seg1_eq]
      exact StableHlo.after_kept Cert.ReferenceIdeal.HR.writes1 VR x ((by decide : ∀ x ∈ keptR, x ∉ Cert.ReferenceIdeal.HR.wr1) x hx))

/-- Stage 2 of either program writes none of the carried buffers. -/
theorem carried_step2 {dinv : FVec Ideal Cert.ReferenceIdeal.S100000 .f32} {VK : Valuation Cert.KernelIdeal.τ Cert.KernelIdeal.sig (Elt Ideal)}
    {VR : Valuation Cert.ReferenceIdeal.τ Cert.ReferenceIdeal.sig (Elt Ideal)} (h : Carried dinv VK VR) :
    Carried dinv (after (Cert.KernelIdeal.KP.pseg2 (F := Ideal)) VK) (after (Cert.ReferenceIdeal.HRP.rseg2 (F := Ideal)) VR) :=
  h.of_kept _ _
    (fun x hx => by
      rw [← Cert.KernelIdeal.KP.kseg2_eq]
      exact Cert.KernelIdeal.KT.kkept2 VK x ((by decide : ∀ x ∈ keptK, x ∉ Cert.KernelIdeal.KT.kwr2) x hx))
    (fun x hx => by
      rw [← Cert.ReferenceIdeal.HRP.seg2_eq]
      exact StableHlo.after_kept Cert.ReferenceIdeal.HR.writes2 VR x ((by decide : ∀ x ∈ keptR, x ∉ Cert.ReferenceIdeal.HR.wr2) x hx))

/-- Stage 3 of either program writes none of the carried buffers. -/
theorem carried_step3 {dinv : FVec Ideal Cert.ReferenceIdeal.S100000 .f32} {VK : Valuation Cert.KernelIdeal.τ Cert.KernelIdeal.sig (Elt Ideal)}
    {VR : Valuation Cert.ReferenceIdeal.τ Cert.ReferenceIdeal.sig (Elt Ideal)} (h : Carried dinv VK VR) :
    Carried dinv (after (Cert.KernelIdeal.KP.pseg3 (F := Ideal)) VK) (after (Cert.ReferenceIdeal.HRP.rseg3 (F := Ideal)) VR) :=
  h.of_kept _ _
    (fun x hx => by
      rw [← Cert.KernelIdeal.KP.kseg3_eq]
      exact Cert.KernelIdeal.KT.kkept3 VK x ((by decide : ∀ x ∈ keptK, x ∉ Cert.KernelIdeal.KT.kwr3) x hx))
    (fun x hx => by
      rw [← Cert.ReferenceIdeal.HRP.seg3_eq]
      exact StableHlo.after_kept Cert.ReferenceIdeal.HR.writes3 VR x ((by decide : ∀ x ∈ keptR, x ∉ Cert.ReferenceIdeal.HR.wr3) x hx))

/-- Stage 4 of either program writes none of the carried buffers. -/
theorem carried_step4 {dinv : FVec Ideal Cert.ReferenceIdeal.S100000 .f32} {VK : Valuation Cert.KernelIdeal.τ Cert.KernelIdeal.sig (Elt Ideal)}
    {VR : Valuation Cert.ReferenceIdeal.τ Cert.ReferenceIdeal.sig (Elt Ideal)} (h : Carried dinv VK VR) :
    Carried dinv (after (Cert.KernelIdeal.KP.pseg4 (F := Ideal)) VK) (after (Cert.ReferenceIdeal.HRP.rseg4 (F := Ideal)) VR) :=
  h.of_kept _ _
    (fun x hx => by
      rw [← Cert.KernelIdeal.KP.kseg4_eq]
      exact Cert.KernelIdeal.KT.kkept4 VK x ((by decide : ∀ x ∈ keptK, x ∉ Cert.KernelIdeal.KT.kwr4) x hx))
    (fun x hx => by
      rw [← Cert.ReferenceIdeal.HRP.seg4_eq]
      exact StableHlo.after_kept Cert.ReferenceIdeal.HR.writes4 VR x ((by decide : ∀ x ∈ keptR, x ∉ Cert.ReferenceIdeal.HR.wr4) x hx))

end Cert.Bridge

end
-- ==== Proof.KernelPayload.lean ====
import proofs.«144057_j23888608100399_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The layer-1 dense transform at an index

The kernel's one stored value is `(x · W) ∘ (d ⊗ 1)`: the 10000×128 block of features times the
128×64 weight matrix, each row then scaled by that row's entry of the 10000×1 column `d`. At the
ideal values a change of float format is the identity and the matrix product is the exact sum, so
the value at row `p`, column `q` is `(∑ k, x p k * W k q) * d p`.
-/

noncomputable section

open scoped BigOperators

namespace Cert.KernelIdeal.KV

open Idealize.ShloMosaic Idealize.ShloMosaic.ValueIdx Cert.KernelIdeal Cert.KernelIdeal.Gen

/-- The product of a 10000×128 by a 128×64 matrix accumulated into zero, read at row `p`, column `q`:
    the sum over the contracted coordinate of the products of the entries. -/
theorem matmul_apply (A : FVec Ideal S10000x128 .bf16) (B : FVec Ideal S128x64 .bf16) (p : Fin 10000) (q : Fin 64) :
    matmul dot_S10000x128_S128x64_S10000x64_1_0_0_1_n_n none A B (constant (F := Ideal) S10000x64 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have hl : dot_S10000x128_S128x64_S10000x64_1_0_0_1_n_n.lhsIdx (ix2 p q) ((contrEquiv1 _ 128 rfl rfl).symm k) = ix2 p k := by
    funext a; apply Fin.ext
    match a with
    | ⟨0, _⟩ => simp [DotDims.lhsIdx, dot_S10000x128_S128x64_S10000x64_1_0_0_1_n_n]; rfl
    | ⟨1, _⟩ =>
      exact (DotDims.lhsIdx_val_of_single (d := dot_S10000x128_S128x64_S10000x64_1_0_0_1_n_n) (cl := 1) rfl (ix2 p q) _).trans hk
  have hr : dot_S10000x128_S128x64_S10000x64_1_0_0_1_n_n.rhsIdx (ix2 p q) ((contrEquiv1 _ 128 rfl rfl).symm k) = ix2 k q := by
    funext a; apply Fin.ext
    match a with
    | ⟨0, _⟩ =>
      exact (DotDims.rhsIdx_val_of_single (d := dot_S10000x128_S128x64_S10000x64_1_0_0_1_n_n) (cr := 0) rfl (ix2 p q) _).trans hk
    | ⟨1, _⟩ => simp [DotDims.rhsIdx, dot_S10000x128_S128x64_S10000x64_1_0_0_1_n_n]; rfl
  rw [hl, hr]

/-- A 10000×1 column spread over 64 columns, read at row `p`, column `q`: the column's entry at row `p`. -/
theorem broadcast_col_apply {α : Type} (d : S10000x1.Idx → α) (h : S10000x1.Broadcasts S10000x64) (p : Fin 10000) (q : Fin 64) :
    broadcastTo S10000x64 d h (ix2 p q) = d (ix2 p (0 : Fin 1)) := by
  refine broadcastTo_apply d h (ix2 p q) (ix2 p (0 : Fin 1)) fun a => ?_
  match a with
  | ⟨0, _⟩ => rfl
  | ⟨1, _⟩ => rfl

/-- The kernel's stored value at row `p`, column `q`: the row of `x0` against the column of `x1`,
    scaled by the row's entry of `x2`. -/
theorem pay1_apply (x0 : Vec Ideal S10000x128 .f32) (x1 : Vec Ideal S128x64 .f32) (x2 : Vec Ideal S10000x1 .f32)
    (p : Fin 10000) (q : Fin 64) :
    k0_pay1 (F := Ideal) x0 x1 x2 (ix2 p q)
      = (∑ k : Fin 128, x0 (ix2 p k) * x1 (ix2 k q)) * x2 (ix2 p (0 : Fin 1)) := by
  unfold k0_pay1
  refine (mulf_apply _ _ _).trans ?_
  refine congrArg₂ (· * ·) ?_ ?_
  · exact matmul_apply _ _ p q
  · rw [shapeCast_self]
    exact broadcast_col_apply x2 _ p q

end Cert.KernelIdeal.KV

end
-- ==== Proof.KernelValue.lean ====
import proofs.«144057_j23888608100399_2_alg».proof.Proof.KernelPayload
import proofs.«144057_j23888608100399_2_alg».proof.Proof.FrameKI
import Idealize.ShloMosaic.Lib.Pipeline.Value

/-!
# The layer-1 dense transform over the whole array

The pipeline runs the body at ten grid points. At point `t` it reads rows `10000 t … 10000 t + 9999` of the
features `x` (all 128 columns), the whole 128×64 weight `W`, and the same rows of the one-column array `d`, and
writes back rows `10000 t … 10000 t + 9999` of the output (all 64 columns). Row `r` of the output is written by
point `r / 10000` and by no other, and the value the body stores at a row depends on that row of `x` and `d`
only, so the ten blocks are the restrictions of one function of the three arrays:
`G1 x W d (n, q) = (∑ k, x (n, k) * W (k, q)) * d (n, 0)`.
-/

noncomputable section

open scoped BigOperators

namespace Cert.KernelIdeal.KV

open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-block access. -/
theorem hz : (![0, 0] : Fin 2 → Nat) = fun _ => 0 := funext fun a => by fin_cases a <;> rfl

/-! ## The function the output array ends holding -/

/-- Row `n`, column `q`: row `n` of `x` against column `q` of `w`, scaled by row `n` of the column `dcol`. -/
def G1 (x : FVec Ideal S100000x128 .f32) (w : FVec Ideal S128x64 .f32) (dcol : FVec Ideal S100000x1 .f32) : FVec Ideal S100000x64 .f32 :=
  fun j => (∑ k : Fin 128, x (ix2 (⟨(j 0).val, idx2_lt0 j⟩ : Fin 100000) k) * w (ix2 k (⟨(j 1).val, idx2_lt1 j⟩ : Fin 64)))
    * dcol (ix2 (⟨(j 0).val, idx2_lt0 j⟩ : Fin 100000) (0 : Fin 1))

theorem G1_apply (x : FVec Ideal S100000x128 .f32) (w : FVec Ideal S128x64 .f32) (dcol : FVec Ideal S100000x1 .f32) (n : Fin 100000) (q : Fin 64) :
    G1 x w dcol (ix2 n q) = (∑ k : Fin 128, x (ix2 n k) * w (ix2 k q)) * dcol (ix2 n (0 : Fin 1)) := rfl

/-! ## The grid and its index maps -/

/-- The grid has ten points. -/
theorem N_0 : cfg0.N = 10 := rfl

/-- The four index maps over the grid: the features', the column's and the output's block at point `t` is row block
    `t`, column block 0; the weight's is block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The body's one store -/

/-- The buffer the body leaves, at row `p`, column `q`: the one store covers the whole block, and the stored value
    there is the row of the first block against the column of the second, scaled by the row's entry of the third. -/
theorem out0_3_apply (x0 : Vec Ideal S10000x128 .f32) (x1 : Vec Ideal S128x64 .f32) (x2 : Vec Ideal S10000x1 .f32) (p : Fin 10000) (q : Fin 64) :
    HF.out0_3 (F := Ideal) x0 x1 x2 (ix2 p q) = (∑ k : Fin 128, x0 (ix2 p k) * x1 (ix2 k q)) * x2 (ix2 p (0 : Fin 1)) := by
  unfold HF.out0_3
  rw [View.canon_unit_zero hz]
  simp only [View.ld_unit_zero (S := S10000x128) hz, View.ld_unit_zero (S := S128x64) hz, View.ld_unit_zero (S := S10000x1) hz]
  exact pay1_apply x0 x1 x2 p q

/-! ## One grid point -/

/-- Block `t` of the features array, read at row `p`, column `k`, is the array's row `10000 t + p`. -/
theorem read0_apply (X : S100000x128.Idx → Elt Ideal .f32) (t : Fin cfg0.N) (y : S10000x128.Idx) (i : S100000x128.Idx)
    (h0 : (i 0).val = 10000 * t.val + (y 0).val) (h1 : (i 1).val = (y 1).val) :
    ((cfg0.win 0).blk t).view.read (Elt Ideal) X y = X i := by
  obtain ⟨e0, e1, -⟩ := idx_facts t
  show X (((cfg0.win 0).blk t).view.emb y) = X i
  refine congrArg X (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight's one block is the weight at every point. -/
theorem read1_apply (X : S128x64.Idx → Elt Ideal .f32) (t : Fin cfg0.N) (y : S128x64.Idx) :
    ((cfg0.win 1).blk t).view.read (Elt Ideal) X y = X y := by
  obtain ⟨-, -, e0, e1, -⟩ := idx_facts t
  show X (((cfg0.win 1).blk t).view.emb y) = X y
  refine congrArg X (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- Block `t` of the scaling column, read at row `p`, is the column's row `10000 t + p`. -/
theorem read2_apply (X : S100000x1.Idx → Elt Ideal .f32) (t : Fin cfg0.N) (y : S10000x1.Idx) (i : S100000x1.Idx)
    (h0 : (i 0).val = 10000 * t.val + (y 0).val) (h1 : (i 1).val = (y 1).val) :
    ((cfg0.win 2).blk t).view.read (Elt Ideal) X y = X i := by
  obtain ⟨-, -, -, -, e0, e1, -⟩ := idx_facts t
  show X (((cfg0.win 2).blk t).view.emb y) = X i
  refine congrArg X (funext fun a => Fin.ext ?_)
  match a with
  | ⟨0, _⟩ => show win0_2.index t (0 : Fin 2) * 10000 + 1 * (y 0).val = (i 0).val; rw [e0, h0]; omega
  | ⟨1, _⟩ => show win0_2.index t (1 : Fin 2) * 1 + 1 * (y 1).val = (i 1).val; rw [e1, h1]; omega

/-- What the body stores at point `t`, from blocks `t` of any three arrays, is block `t` of `G1` of the arrays. -/
theorem block_eq (X : S100000x128.Idx → Elt Ideal .f32) (Wt : S128x64.Idx → Elt Ideal .f32) (D : S100000x1.Idx → Elt Ideal .f32)
    (t : Fin cfg0.N) :
    (cfg0.win 3).cut (grid0.coords t)
        (HF.out0_3 (((cfg0.win 0).blk t).view.read (Elt Ideal) X) (((cfg0.win 1).blk t).view.read (Elt Ideal) Wt)
          (((cfg0.win 2).blk t).view.read (Elt Ideal) D))
      = ((cfg0.win 3).blk t).view.read (Elt Ideal) (G1 X Wt D) := by
  funext j
  obtain ⟨-, -, -, -, -, -, e0, e1⟩ := idx_facts t
  have ht : t.val < 10 := t.isLt
  have hj0 : (j 0).val < 10000 := (j 0).isLt
  have hj1 : (j 1).val < 64 := (j 1).isLt
  have hx : (cfg0.win 3).xinj (grid0.coords t) j = ix2 (⟨(j 0).val, hj0⟩ : Fin 10000) (⟨(j 1).val, hj1⟩ : Fin 64) := by
    funext a
    match a with
    | ⟨0, _⟩ => rfl
    | ⟨1, _⟩ => rfl
  have he : ((cfg0.win 3).blk t).view.emb j = ix2 (⟨10000 * t.val + (j 0).val, by omega⟩ : Fin 100000) (⟨(j 1).val, hj1⟩ : Fin 64) := by
    funext a; apply Fin.ext
    match a with
    | ⟨0, _⟩ => show win0_3.index t (0 : Fin 2) * 10000 + 1 * (j 0).val = 10000 * t.val + (j 0).val; rw [e0]; omega
    | ⟨1, _⟩ => show win0_3.index t (1 : Fin 2) * 64 + 1 * (j 1).val = (j 1).val; rw [e1]; omega
  show HF.out0_3 (F := Ideal) _ _ _ ((cfg0.win 3).xinj (grid0.coords t) j) = G1 X Wt D (((cfg0.win 3).blk t).view.emb j)
  rw [hx, out0_3_apply, he, G1_apply]
  refine congrArg₂ (· * ·) (Finset.sum_congr rfl fun k _ => congrArg₂ (· * ·) ?_ ?_) ?_
  · exact read0_apply X t _ _ rfl rfl
  · exact read1_apply Wt t _
  · exact read2_apply D t _ _ rfl rfl

/-! ## The whole array -/

variable (m : (ℓ : Loc nD τ sig) → Buf (Elt Ideal) ℓ)

/-- What point `t` writes back is block `t` of `G1` of the three arrays as the region finds them. -/
theorem flushed_eq (c : Dev nD) (t : Fin cfg0.N) :
    (HF.dats m 0 c).flushed 3 t
      = ((cfg0.win 3).blk t).view.read (Elt Ideal) (G1 (HF.V m c main_arg0) (HF.V m c main_arg3) (HF.V m c main_call0_v12)) := by
  show (cfg0.win 3).cut (grid0.coords t) ((HF.dats m 0 c).after 3 t) = _
  rw [HF.after0_3]
  exact block_eq (HF.V m c main_arg0) (HF.V m c main_arg3) (HF.V m c main_call0_v12) t

/-- An index of the output array is in point `t`'s block iff each coordinate is in the block's range on its axis. -/
theorem mem_blk (t : Fin cfg0.N) (i : S100000x64.Idx) :
    i ∈ ((cfg0.win 3).blk t).view.set
      ↔ ∀ a : Fin 2, win0_3.index t a * S10000x64.size a ≤ (i a).val ∧ (i a).val < win0_3.index t a * S10000x64.size a + S10000x64.size a := by
  show i ∈ ((View.whole main_call0_v13).slice (win0_3.rect t)).set ↔ _
  rw [View.set_slice_whole, Rect.mem_set_unit]
  exact Iff.rfl

/-- The ten row blocks tile the output array: row `r` is in the block of point `r / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hq : (i 0).val / 10000 < cfg0.N := by rw [N_0]; omega
  obtain ⟨-, -, -, -, -, -, e0, e1⟩ := idx_facts ⟨(i 0).val / 10000, hq⟩
  refine ⟨⟨(i 0).val / 10000, hq⟩, flush0_3 _, ?_⟩
  rw [mem_blk]
  intro a
  match a with
  | ⟨0, _⟩ =>
    show win0_3.index ⟨(i 0).val / 10000, hq⟩ (0 : Fin 2) * 10000 ≤ (i 0).val
      ∧ (i 0).val < win0_3.index ⟨(i 0).val / 10000, hq⟩ (0 : Fin 2) * 10000 + 10000
    rw [e0]
    show (i 0).val / 10000 * 10000 ≤ (i 0).val ∧ (i 0).val < (i 0).val / 10000 * 10000 + 10000
    omega
  | ⟨1, _⟩ =>
    show win0_3.index ⟨(i 0).val / 10000, hq⟩ (1 : Fin 2) * 64 ≤ (i 1).val
      ∧ (i 1).val < win0_3.index ⟨(i 0).val / 10000, hq⟩ (1 : Fin 2) * 64 + 64
    rw [e1]
    omega

/-- The output array after the run: `G1` of the features, the weight and the scaling column as the region finds them. -/
theorem final3 (c : Dev nD) :
    (HF.dats m 0 c).arrAt 3 cfg0.N = G1 (HF.V m c main_arg0) (HF.V m c main_arg3) (HF.V m c main_call0_v12) :=
  (HF.dats m 0 c).arrAt_eq_of_cover 3 (G1 (HF.V m c main_arg0) (HF.V m c main_arg3) (HF.V m c main_call0_v12))
    (fun t _ => flushed_eq m c t) cover

end Cert.KernelIdeal.KV

end
-- ==== Proof.Layer1Pre.lean ====
import proofs.«144057_j23888608100399_2_alg».proof.Proof.KernelValue
import proofs.«144057_j23888608100399_2_alg».proof.ReferenceIdeal
import proofs.«144057_j23888608100399_2_alg».proof.Proof.GcnMath
import Idealize.ShloMosaic.PureOps.Ideal.Laws

/-!
# The first layer's scaled transform, two spellings

One program leaves `(x · W)[n, q] · d[n]` in one array: each row of the product scaled as it is stored. The other
forms the product `x · W` of the whole 100000×128 features by the 128×64 weight in one step and multiplies it,
entry by entry, by the column `d` repeated along the 64 channels. Index by index these are the same extended real:
the product at `(n, q)` is `∑ k, x[n, k] · W[k, q]`, and the repeated column at `(n, q)` is `d[n]`.
-/

noncomputable section

open scoped BigOperators

namespace Cert.Bridge

open Idealize.ShloMosaic Idealize.ShloMosaic.ValueIdx

variable [Cert.ReferenceIdeal.Facts]

/-- The product of the 100000×128 features by the 128×64 weight, read at row `n`, column `q`: the sum over the
    contracted coordinate of the products of the entries. -/
theorem refdot1_apply (x : FVec Ideal Cert.ReferenceIdeal.S100000x128 .f32) (w : FVec Ideal Cert.ReferenceIdeal.S128x64 .f32)
    (n : Fin 100000) (q : Fin 64) :
    Host.dotGeneral (F := Ideal) Cert.ReferenceIdeal.dot_S100000x128_S128x64_S100000x64_1_0_0_1_n_n none x w (ix2 n q)
      = ∑ k : Fin 128, x (ix2 n k) * w (ix2 k q) := by
  show FloatOps.dotGeneral _ none _ x w (ix2 n q) = _
  rw [Ideal.dotGeneral_apply,
    ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have hl : Cert.ReferenceIdeal.dot_S100000x128_S128x64_S100000x64_1_0_0_1_n_n.lhsIdx (ix2 n q) ((contrEquiv1 _ 128 rfl rfl).symm k) = ix2 n k := by
    funext a; apply Fin.ext
    match a with
    | ⟨0, _⟩ => simp [DotDims.lhsIdx, Cert.ReferenceIdeal.dot_S100000x128_S128x64_S100000x64_1_0_0_1_n_n]; rfl
    | ⟨1, _⟩ =>
      exact (DotDims.lhsIdx_val_of_single (d := Cert.ReferenceIdeal.dot_S100000x128_S128x64_S100000x64_1_0_0_1_n_n) (cl := 1) rfl (ix2 n q) _).trans hk
  have hr : Cert.ReferenceIdeal.dot_S100000x128_S128x64_S100000x64_1_0_0_1_n_n.rhsIdx (ix2 n q) ((contrEquiv1 _ 128 rfl rfl).symm k) = ix2 k q := by
    funext a; apply Fin.ext
    match a with
    | ⟨0, _⟩ =>
      exact (DotDims.rhsIdx_val_of_single (d := Cert.ReferenceIdeal.dot_S100000x128_S128x64_S100000x64_1_0_0_1_n_n) (cr := 0) rfl (ix2 n q) _).trans hk
    | ⟨1, _⟩ => simp [DotDims.rhsIdx, Cert.ReferenceIdeal.dot_S100000x128_S128x64_S100000x64_1_0_0_1_n_n]; rfl
  rw [hl, hr]

/-- Scaling each row of the product as it is formed is multiplying the finished product by the column repeated
    along the channels — whatever the two layout steps' side conditions are proved by. -/
theorem pre1_eq_of (x : FVec Ideal Cert.ReferenceIdeal.S100000x128 .f32) (w : FVec Ideal Cert.ReferenceIdeal.S128x64 .f32)
    (dinv : FVec Ideal Cert.ReferenceIdeal.S100000 .f32)
    (h1 : Cert.ReferenceIdeal.S100000.BroadcastsInDim Cert.ReferenceIdeal.S100000x1 ![0])
    (h2 : Cert.ReferenceIdeal.S100000x1.BroadcastsInDim Cert.ReferenceIdeal.S100000x64 ![0, 1]) :
    Cert.KernelIdeal.KV.G1 x w (broadcastInDim Cert.ReferenceIdeal.S100000x1 ![0] h1 dinv)
      = mulf (Host.dotGeneral (F := Ideal) Cert.ReferenceIdeal.dot_S100000x128_S128x64_S100000x64_1_0_0_1_n_n none x w)
          (broadcastInDim Cert.ReferenceIdeal.S100000x64 ![0, 1] h2 (broadcastInDim Cert.ReferenceIdeal.S100000x1 ![0] h1 dinv)) := by
  funext j
  obtain ⟨n, q, rfl⟩ : ∃ (n : Fin 100000) (q : Fin 64), j = ix2 n q := ⟨j 0, j 1, eq_ix2 j⟩
  rw [Cert.KernelIdeal.KV.G1_apply]
  refine Eq.trans ?_ (mulf_apply _ _ _).symm
  exact congrArg₂ (· * ·) (refdot1_apply x w n q).symm (Idealize.ShloMosaic.GcnMath.bcast_rows_apply h2 _ n q).symm

/-- The same, with the two layout steps' side conditions as the program that scales the stored rows proves them. -/
theorem pre1_eq (x : FVec Ideal Cert.ReferenceIdeal.S100000x128 .f32) (w : FVec Ideal Cert.ReferenceIdeal.S128x64 .f32)
    (dinv : FVec Ideal Cert.ReferenceIdeal.S100000 .f32) :
    Cert.KernelIdeal.KV.G1 x w (broadcastInDim Cert.ReferenceIdeal.S100000x1 ![0] Cert.KernelIdeal.Gen.bcast_S100000_S100000x1_0 dinv)
      = mulf (Host.dotGeneral (F := Ideal) Cert.ReferenceIdeal.dot_S100000x128_S128x64_S100000x64_1_0_0_1_n_n none x w)
          (broadcastInDim Cert.ReferenceIdeal.S100000x64 ![0, 1] Cert.KernelIdeal.Gen.bcast_S100000x1_S100000x64_0_1
            (broadcastInDim Cert.ReferenceIdeal.S100000x1 ![0] Cert.KernelIdeal.Gen.bcast_S100000_S100000x1_0 dinv)) :=
  pre1_eq_of x w dinv _ _

end Cert.Bridge

end
-- ==== Proof.Algebraic.lean ====
/-
  The two idealized programs end with equal results.

  The kernel program's result is its 138 tail operations run from the region's output and the region-entry contents;
  the reference's is its 167 operations run from the launch contents. Stage by stage: the edge lists, the degree's inverse
  square root `d` (a nonnegative finite real at every node, by the self loops) and what both programs carry agree; the
  region leaves `(x · W1) · d`, which is the reference's dense transform scaled per node; each layer's activations then
  agree (the target's factor `d[n]` moves across the edge sum), and the pooling, output transform and logistic function
  are one function on both sides.
-/
import proofs.«144057_j23888608100399_2_alg».proof.Proof.Layer1
import proofs.«144057_j23888608100399_2_alg».proof.Proof.Layer2
import proofs.«144057_j23888608100399_2_alg».proof.Proof.Layer3
import proofs.«144057_j23888608100399_2_alg».proof.Proof.Layer4
import proofs.«144057_j23888608100399_2_alg».proof.Proof.Pool
import proofs.«144057_j23888608100399_2_alg».proof.Proof.Norm
import proofs.«144057_j23888608100399_2_alg».proof.Proof.Carry
import proofs.«144057_j23888608100399_2_alg».proof.Proof.KernelValue
import proofs.«144057_j23888608100399_2_alg».proof.Proof.Layer1Pre

noncomputable section

namespace Cert.Bridge

open Idealize.ShloMosaic Idealize.ShloMosaic.TcCoe Idealize.SL.Sem Idealize.ShloMosaic.StableHlo
open Idealize.ShloMosaic.ValueIdx

attribute [local instance] Cert.ReferenceIdeal.Gen.facts

/-- The region-entry contents are the 15 operations before the region run from the launch contents. -/
theorem V0_eq (m : (ℓ : Loc Cert.KernelIdeal.nD Cert.KernelIdeal.τ Cert.KernelIdeal.sig) → Buf (Elt Ideal) ℓ) (c : Dev Cert.KernelIdeal.nD) :
    Cert.KernelIdeal.HF.V0 m c = after (Cert.KernelIdeal.KP.pseg0 (F := Ideal)) (fun b => m (c, b)) := by
  show after (List.flatten [Cert.KernelIdeal.Gen.hostOps0]) _ = _
  rw [Cert.KernelIdeal.HF.flatten_one, Cert.KernelIdeal.KP.hostOps0_eq]

set_option maxRecDepth 200000 in
set_option maxHeartbeats 4000000 in
/-- From launch memories that agree on the thirteen arguments, the kernel program's result buffer after its run and the
    reference's after its run hold the same array. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (Pipeline.afterTail₀ Cert.KernelIdeal.cfgs (Cert.KernelIdeal.HF.dats m) 0 (Cert.KernelIdeal.HF.V0 m) [Cert.KernelIdeal.Gen.hostOps1] c Cert.KernelIdeal.main_v0
        : FVec Ideal Cert.ReferenceIdeal.S512x1 .f32)
      = after (Cert.ReferenceIdeal.HR.ops (F := Ideal)) (launchContents m' c) (Proc.devRef .tc Cert.ReferenceIdeal.main_v118) := by
  rw [Cert.KernelIdeal.KT.tail_value, Cert.KernelIdeal.KT.tail_split, Cert.ReferenceIdeal.HR.ops_split, Cert.KernelIdeal.KP.kseg1_eq, Cert.KernelIdeal.KP.kseg2_eq, Cert.KernelIdeal.KP.kseg3_eq,
    Cert.KernelIdeal.KP.kseg4_eq, Cert.KernelIdeal.KP.kseg5_eq, Cert.ReferenceIdeal.HRP.seg1_eq, Cert.ReferenceIdeal.HRP.seg2_eq, Cert.ReferenceIdeal.HRP.seg3_eq, Cert.ReferenceIdeal.HRP.seg4_eq]
  generalize hLK : (fun b => m (c, b) : Valuation Cert.KernelIdeal.τ Cert.KernelIdeal.sig (Elt Ideal)) = LK
  generalize hLR : (launchContents m' c : Valuation Cert.ReferenceIdeal.τ Cert.ReferenceIdeal.sig (Elt Ideal)) = LR
  have hV0 : Cert.KernelIdeal.HF.V0 m c = after (Cert.KernelIdeal.KP.pseg0 (F := Ideal)) LK := by rw [V0_eq, hLK]
  have e0 : (LK (Proc.devRef .tc Cert.KernelIdeal.main_arg0) : FVec Ideal Cert.ReferenceIdeal.S100000x128 .f32) = LR (Proc.devRef .tc Cert.ReferenceIdeal.main_arg0) := by
    rw [← hLK, ← hLR]; exact h0.symm
  have e1 : (LK (Proc.devRef .tc Cert.KernelIdeal.main_arg1) : IVec Cert.ReferenceIdeal.S2x3200000 32) = LR (Proc.devRef .tc Cert.ReferenceIdeal.main_arg1) := by
    rw [← hLK, ← hLR]; exact h1.symm
  have e2 : (LK (Proc.devRef .tc Cert.KernelIdeal.main_arg2) : IVec Cert.ReferenceIdeal.S100000 32) = LR (Proc.devRef .tc Cert.ReferenceIdeal.main_arg2) := by
    rw [← hLK, ← hLR]; exact h2.symm
  have e3 : (LK (Proc.devRef .tc Cert.KernelIdeal.main_arg3) : FVec Ideal Cert.ReferenceIdeal.S128x64 .f32) = LR (Proc.devRef .tc Cert.ReferenceIdeal.main_arg3) := by
    rw [← hLK, ← hLR]; exact h3.symm
  have e4 : (LK (Proc.devRef .tc Cert.KernelIdeal.main_arg4) : FVec Ideal Cert.ReferenceIdeal.S64 .f32) = LR (Proc.devRef .tc Cert.ReferenceIdeal.main_arg4) := by
    rw [← hLK, ← hLR]; exact h4.symm
  have e5 : (LK (Proc.devRef .tc Cert.KernelIdeal.main_arg5) : FVec Ideal Cert.ReferenceIdeal.S64x4 .f32) = LR (Proc.devRef .tc Cert.ReferenceIdeal.main_arg5) := by
    rw [← hLK, ← hLR]; exact h5.symm
  have e6 : (LK (Proc.devRef .tc Cert.KernelIdeal.main_arg6) : FVec Ideal Cert.ReferenceIdeal.S4 .f32) = LR (Proc.devRef .tc Cert.ReferenceIdeal.main_arg6) := by
    rw [← hLK, ← hLR]; exact h6.symm
  have e7 : (LK (Proc.devRef .tc Cert.KernelIdeal.main_arg7) : FVec Ideal Cert.ReferenceIdeal.S4x2 .f32) = LR (Proc.devRef .tc Cert.ReferenceIdeal.main_arg7) := by
    rw [← hLK, ← hLR]; exact h7.symm
  have e8 : (LK (Proc.devRef .tc Cert.KernelIdeal.main_arg8) : FVec Ideal Cert.ReferenceIdeal.S2 .f32) = LR (Proc.devRef .tc Cert.ReferenceIdeal.main_arg8) := by
    rw [← hLK, ← hLR]; exact h8.symm
  have e9 : (LK (Proc.devRef .tc Cert.KernelIdeal.main_arg9) : FVec Ideal Cert.ReferenceIdeal.S2x1 .f32) = LR (Proc.devRef .tc Cert.ReferenceIdeal.main_arg9) := by
    rw [← hLK, ← hLR]; exact h9.symm
  have e10 : (LK (Proc.devRef .tc Cert.KernelIdeal.main_arg10) : FVec Ideal Cert.ReferenceIdeal.S1 .f32) = LR (Proc.devRef .tc Cert.ReferenceIdeal.main_arg10) := by
    rw [← hLK, ← hLR]; exact h10.symm
  have e11 : (LK (Proc.devRef .tc Cert.KernelIdeal.main_arg11) : FVec Ideal Cert.ReferenceIdeal.S1x1 .f32) = LR (Proc.devRef .tc Cert.ReferenceIdeal.main_arg11) := by
    rw [← hLK, ← hLR]; exact h11.symm
  have e12 : (LK (Proc.devRef .tc Cert.KernelIdeal.main_arg12) : FVec Ideal Cert.ReferenceIdeal.S1 .f32) = LR (Proc.devRef .tc Cert.ReferenceIdeal.main_arg12) := by
    rw [← hLK, ← hLR]; exact h12.symm
  have hpos : DinvPos (after (Cert.ReferenceIdeal.HR.seg0 (F := Ideal)) LR (Proc.devRef .tc Cert.ReferenceIdeal.main_v11)) := n_pos LR
  have hc0 : Carried (after (Cert.ReferenceIdeal.HR.seg0 (F := Ideal)) LR (Proc.devRef .tc Cert.ReferenceIdeal.main_v11)) (Cert.KernelIdeal.KT.tailStart m c)
      (after (Cert.ReferenceIdeal.HR.seg0 (F := Ideal)) LR) :=
    { src := by rw [Cert.KernelIdeal.KT.tailStart_v3, hV0]; exact n_src LK LR e1
      dst := by rw [Cert.KernelIdeal.KT.tailStart_v6, hV0]; exact n_dst LK LR e1
      dcol := by rw [Cert.KernelIdeal.KT.tailStart_v12, hV0]; exact n_dcol LK LR e1
      norm := n_norm LR
      a2 := by
        rw [Cert.KernelIdeal.KT.tailStart_arg2, hV0, ← Cert.KernelIdeal.KP.hostOps0_eq, Cert.KernelIdeal.KT.head_kept' LK Cert.KernelIdeal.main_arg2 (by decide), Cert.ReferenceIdeal.HR.rkept0_arg2]
        exact e2
      a4 := by
        rw [Cert.KernelIdeal.KT.tailStart_arg4, hV0, ← Cert.KernelIdeal.KP.hostOps0_eq, Cert.KernelIdeal.KT.head_kept' LK Cert.KernelIdeal.main_arg4 (by decide), Cert.ReferenceIdeal.HR.rkept0_arg4]
        exact e4
      a5 := by
        rw [Cert.KernelIdeal.KT.tailStart_arg5, hV0, ← Cert.KernelIdeal.KP.hostOps0_eq, Cert.KernelIdeal.KT.head_kept' LK Cert.KernelIdeal.main_arg5 (by decide), Cert.ReferenceIdeal.HR.rkept0_arg5]
        exact e5
      a6 := by
        rw [Cert.KernelIdeal.KT.tailStart_arg6, hV0, ← Cert.KernelIdeal.KP.hostOps0_eq, Cert.KernelIdeal.KT.head_kept' LK Cert.KernelIdeal.main_arg6 (by decide), Cert.ReferenceIdeal.HR.rkept0_arg6]
        exact e6
      a7 := by
        rw [Cert.KernelIdeal.KT.tailStart_arg7, hV0, ← Cert.KernelIdeal.KP.hostOps0_eq, Cert.KernelIdeal.KT.head_kept' LK Cert.KernelIdeal.main_arg7 (by decide), Cert.ReferenceIdeal.HR.rkept0_arg7]
        exact e7
      a8 := by
        rw [Cert.KernelIdeal.KT.tailStart_arg8, hV0, ← Cert.KernelIdeal.KP.hostOps0_eq, Cert.KernelIdeal.KT.head_kept' LK Cert.KernelIdeal.main_arg8 (by decide), Cert.ReferenceIdeal.HR.rkept0_arg8]
        exact e8
      a9 := by
        rw [Cert.KernelIdeal.KT.tailStart_arg9, hV0, ← Cert.KernelIdeal.KP.hostOps0_eq, Cert.KernelIdeal.KT.head_kept' LK Cert.KernelIdeal.main_arg9 (by decide), Cert.ReferenceIdeal.HR.rkept0_arg9]
        exact e9
      a10 := by
        rw [Cert.KernelIdeal.KT.tailStart_arg10, hV0, ← Cert.KernelIdeal.KP.hostOps0_eq, Cert.KernelIdeal.KT.head_kept' LK Cert.KernelIdeal.main_arg10 (by decide), Cert.ReferenceIdeal.HR.rkept0_arg10]
        exact e10
      a11 := by
        rw [Cert.KernelIdeal.KT.tailStart_arg11, hV0, ← Cert.KernelIdeal.KP.hostOps0_eq, Cert.KernelIdeal.KT.head_kept' LK Cert.KernelIdeal.main_arg11 (by decide), Cert.ReferenceIdeal.HR.rkept0_arg11]
        exact e11
      a12 := by
        rw [Cert.KernelIdeal.KT.tailStart_arg12, hV0, ← Cert.KernelIdeal.KP.hostOps0_eq, Cert.KernelIdeal.KT.head_kept' LK Cert.KernelIdeal.main_arg12 (by decide), Cert.ReferenceIdeal.HR.rkept0_arg12]
        exact e12 }
  obtain ⟨X, hX⟩ : ∃ X : FVec Ideal Cert.ReferenceIdeal.S100000x128 .f32,
      after (Cert.ReferenceIdeal.HR.seg0 (F := Ideal)) LR (Proc.devRef .tc Cert.ReferenceIdeal.main_arg0) = X := ⟨_, rfl⟩
  obtain ⟨W, hW⟩ : ∃ W : FVec Ideal Cert.ReferenceIdeal.S128x64 .f32,
      after (Cert.ReferenceIdeal.HR.seg0 (F := Ideal)) LR (Proc.devRef .tc Cert.ReferenceIdeal.main_arg3) = W := ⟨_, rfl⟩
  have hpre : (Cert.KernelIdeal.KT.tailStart m c (Proc.devRef .tc Cert.KernelIdeal.main_call0_v13) : FVec Ideal Cert.ReferenceIdeal.S100000x64 .f32)
      = mulf (Host.dotGeneral (F := Ideal) Cert.ReferenceIdeal.dot_S100000x128_S128x64_S100000x64_1_0_0_1_n_n none X W)
          (broadcastInDim Cert.ReferenceIdeal.S100000x64 ![0, 1] Cert.KernelIdeal.Gen.bcast_S100000x1_S100000x64_0_1
            (dcolOf (after (Cert.ReferenceIdeal.HR.seg0 (F := Ideal)) LR (Proc.devRef .tc Cert.ReferenceIdeal.main_v11)))) := by
    have hd : (Cert.KernelIdeal.HF.V m c Cert.KernelIdeal.main_call0_v12 : FVec Ideal Cert.ReferenceIdeal.S100000x1 .f32)
        = dcolOf (after (Cert.ReferenceIdeal.HR.seg0 (F := Ideal)) LR (Proc.devRef .tc Cert.ReferenceIdeal.main_v11)) := by
      show Cert.KernelIdeal.HF.V0 m c (Proc.devRef .tc Cert.KernelIdeal.main_call0_v12) = _
      rw [hV0]; exact n_dcol LK LR e1
    have hx : (Cert.KernelIdeal.HF.V m c Cert.KernelIdeal.main_arg0 : FVec Ideal Cert.ReferenceIdeal.S100000x128 .f32) = X := by
      rw [← hX, Cert.KernelIdeal.HF.V_main_arg0, Cert.ReferenceIdeal.HR.rkept0_arg0, ← hLR]; exact h0.symm
    have hw : (Cert.KernelIdeal.HF.V m c Cert.KernelIdeal.main_arg3 : FVec Ideal Cert.ReferenceIdeal.S128x64 .f32) = W := by
      rw [← hW, Cert.KernelIdeal.HF.V_main_arg3, Cert.ReferenceIdeal.HR.rkept0_arg3, ← hLR]; exact h3.symm
    rw [Cert.KernelIdeal.KT.tailStart_v13, Cert.KernelIdeal.KV.final3, hd, hx, hw]
    exact pre1_eq_of _ _ _ _ _
  have h1 := layer1_rel _ _ _ hpos hc0 X W hX hW hpre
  have hc1 := carried_step1 hc0
  have h2 := layer2_rel _ _ _ hpos hc1 h1
  have hc2 := carried_step2 hc1
  have h3' := layer3_rel _ _ _ hpos hc2 h2
  have hc3 := carried_step3 hc2
  have h4' := layer4_rel _ _ _ hpos hc3 h3'
  have hc4 := carried_step4 hc3
  exact pool_rel _ _ h4' hc4.a2 hc4.a11 hc4.a12

end Cert.Bridge

end
-- ==== Proof.lean ====
/-
  The certificate: a four-layer graph convolution network whose first dense transform `(x · W1) · d` is one pallas_call
  (`d = degree^(-1/2)` per node), against its jnp reference.

  The two programs differ in where the symmetric edge weight `d[src] · d[dst]` is applied: the reference multiplies every
  edge's message by it before the segment sum; the kernel program multiplies the dense transform by `d` per node before
  the gather (the source's factor) and the segment sum by `d` per node after it (the target's factor, constant within a
  target's segment). On the extended reals the second step needs `d` nonnegative and finite — a factor `+∞`, or a sum of
  `+∞` and `-∞`, would break distributivity — and `d` is: every node has a self loop, so its degree is a natural number
  `≥ 1`. No finiteness of the float inputs is used: the precondition is never opened.

  The frames: each of the two kernel programs runs its 15 host operations, the region (ten grid points, each loading its
  three input blocks, multiplying and storing one output block) and its 138 host operations, faulting nowhere and
  writing no argument; the reference is 167 host operations in a line. `preserves` has nothing to state (the
  idealization rewrote no operation). `algebraic`: Proof/Algebraic.lean.
-/
import proofs.«144057_j23888608100399_2_alg».proof.Defs
import proofs.«144057_j23888608100399_2_alg».proof.Proof.Gen.Kernel
import proofs.«144057_j23888608100399_2_alg».proof.Proof.Gen.KernelIdeal
import proofs.«144057_j23888608100399_2_alg».proof.Proof.Gen.ReferenceIdeal
import proofs.«144057_j23888608100399_2_alg».proof.Proof.Gen.Pre_finite_inputs
import proofs.«144057_j23888608100399_2_alg».proof.Proof.FrameK
import proofs.«144057_j23888608100399_2_alg».proof.Proof.FrameKI
import proofs.«144057_j23888608100399_2_alg».proof.Proof.RefRun
import proofs.«144057_j23888608100399_2_alg».proof.Proof.Algebraic
import Idealize.ShloMosaic.Adequacy
import Idealize.ShloMosaic.Init

noncomputable section

namespace Cert.Proof

open Idealize.ShloMosaic Idealize.SL.Sem Idealize.ShloMosaic.StableHlo

/-- The word-level kernel program runs to the end, faults nowhere and leaves its arguments as launched. -/
theorem frame_k : Cert.frame_Kernel (hKernel := Cert.Kernel.Gen.facts) (hPre_finite_inputs := Cert.Pre_finite_inputs.Gen.facts) :=
  fun m g _ => Cert.Kernel.HF.frame m g

/-- So does its idealization. -/
theorem frame_ki : Cert.frame_KernelIdeal (hKernelIdeal := Cert.KernelIdeal.Gen.facts) (hPre_finite_inputs := Cert.Pre_finite_inputs.Gen.facts) :=
  fun m g _ => Cert.KernelIdeal.HF.frame m g

/-- And the reference. -/
theorem frame_ri : Cert.frame_ReferenceIdeal (hReferenceIdeal := Cert.ReferenceIdeal.Gen.facts) (hPre_finite_inputs := Cert.Pre_finite_inputs.Gen.facts) :=
  fun m g _ => Cert.ReferenceIdeal.HR.frame m g

set_option maxRecDepth 200000 in
/-- From memories agreeing on the arguments both idealized programs run to the end with equal results: the kernel
    program's run names its result, the reference's run ends at the fold of its operations, and the two are one array
    (`Bridge.value_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Pipeline.afterTail₀ Cert.KernelIdeal.cfgs (Cert.KernelIdeal.HF.dats m) 0 (Cert.KernelIdeal.HF.V0 m)
    [Cert.KernelIdeal.Gen.hostOps1] c Cert.KernelIdeal.main_v0, Cert.KernelIdeal.HF.run_value m g, ?_⟩
  refine (θ_run Cert.ReferenceIdeal.defs _ _).mono (fun r h c => ?_) (Cert.ReferenceIdeal.HR.run m' g')
  obtain ⟨a0, a1, a2, a3, a4, a5, a6, a7, a8, a9, a10, a11, a12⟩ := hagree c
  refine ⟨?_, (h c Cert.ReferenceIdeal.main_arg0).trans (Cert.ReferenceIdeal.HR.kept_arg0 _),
    (h c Cert.ReferenceIdeal.main_arg1).trans (Cert.ReferenceIdeal.HR.kept_arg1 _),
    (h c Cert.ReferenceIdeal.main_arg2).trans (Cert.ReferenceIdeal.HR.kept_arg2 _),
    (h c Cert.ReferenceIdeal.main_arg3).trans (Cert.ReferenceIdeal.HR.kept_arg3 _),
    (h c Cert.ReferenceIdeal.main_arg4).trans (Cert.ReferenceIdeal.HR.kept_arg4 _),
    (h c Cert.ReferenceIdeal.main_arg5).trans (Cert.ReferenceIdeal.HR.kept_arg5 _),
    (h c Cert.ReferenceIdeal.main_arg6).trans (Cert.ReferenceIdeal.HR.kept_arg6 _),
    (h c Cert.ReferenceIdeal.main_arg7).trans (Cert.ReferenceIdeal.HR.kept_arg7 _),
    (h c Cert.ReferenceIdeal.main_arg8).trans (Cert.ReferenceIdeal.HR.kept_arg8 _),
    (h c Cert.ReferenceIdeal.main_arg9).trans (Cert.ReferenceIdeal.HR.kept_arg9 _),
    (h c Cert.ReferenceIdeal.main_arg10).trans (Cert.ReferenceIdeal.HR.kept_arg10 _),
    (h c Cert.ReferenceIdeal.main_arg11).trans (Cert.ReferenceIdeal.HR.kept_arg11 _),
    (h c Cert.ReferenceIdeal.main_arg12).trans (Cert.ReferenceIdeal.HR.kept_arg12 _)⟩
  rw [h c Cert.ReferenceIdeal.main_v118]
  exact (Cert.Bridge.value_eq m m' c a0 a1 a2 a3 a4 a5 a6 a7 a8 a9 a10 a11 a12).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
